-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  main_v3
-- ==== Kernel.lean ====
abbrev S16x1024x1024 : Shape := ⟨3, ![16, 1024, 1024]⟩
abbrev S16x4x1024x1024 : Shape := ⟨4, ![16, 4, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩
abbrev S1x1024 : Shape := ⟨2, ![1, 1024]⟩
abbrev S2x1024 : Shape := ⟨2, ![2, 1024]⟩
abbrev S1020x1024 : Shape := ⟨2, ![1020, 1024]⟩
abbrev S1024x1 : Shape := ⟨2, ![1024, 1]⟩
abbrev S1024x2 : Shape := ⟨2, ![1024, 2]⟩
abbrev S1024x1020 : Shape := ⟨2, ![1024, 1020]⟩
abbrev S4x1024 : Shape := ⟨2, ![4, 1024]⟩
abbrev S1016x1024 : Shape := ⟨2, ![1016, 1024]⟩
abbrev S1024x4 : Shape := ⟨2, ![1024, 4]⟩
abbrev S1024x1016 : Shape := ⟨2, ![1024, 1016]⟩
abbrev S8x1024 : Shape := ⟨2, ![8, 1024]⟩
abbrev S1008x1024 : Shape := ⟨2, ![1008, 1024]⟩
abbrev S1024x8 : Shape := ⟨2, ![1024, 8]⟩
abbrev S1024x1008 : Shape := ⟨2, ![1024, 1008]⟩

abbrev nBuf : Space → Nat
  | .hbm => 2
  | .vmem => 5
  | .smem => 0
  | _ => 0

abbrev bufTy : (tb : Table) → Fin (tcTables nBuf tb) → BufTy
  | .hbm, ⟨0, _⟩ => ⟨S16x1024x1024, .f32⟩
  | .hbm, ⟨1, _⟩ => ⟨S16x4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  rotates_S1024x1024_d0 : S1024x1024.Rotates 0 none
  slices_S1024x1024_o2_0_S1x1024 : S1024x1024.Slices ![2, 0] S1x1024
  slices_S1024x1024_o1_0_S1x1024 : S1024x1024.Slices ![1, 0] S1x1024
  slices_S1024x1024_o0_0_S1x1024 : S1024x1024.Slices ![0, 0] S1x1024
  slices_S1024x1024_o3_0_S1x1024 : S1024x1024.Slices ![3, 0] S1x1024
  concatenates_S1x1024_S1x1024_S2x1024_d0 : Shape.Concatenates [S1x1024, S1x1024] S2x1024 0
  slices_S1024x1024_o1020_0_S1x1024 : S1024x1024.Slices ![1020, 0] S1x1024
  slices_S1024x1024_o1021_0_S1x1024 : S1024x1024.Slices ![1021, 0] S1x1024
  slices_S1024x1024_o1022_0_S1x1024 : S1024x1024.Slices ![1022, 0] S1x1024
  slices_S1024x1024_o1023_0_S1x1024 : S1024x1024.Slices ![1023, 0] S1x1024
  slices_S1024x1024_o2_0_S1020x1024 : S1024x1024.Slices ![2, 0] S1020x1024
  concatenates_S2x1024_S1020x1024_S2x1024_S1024x1024_d0 : Shape.Concatenates [S2x1024, S1020x1024, S2x1024] S1024x1024 0
  rotates_S1024x1024_d1 : S1024x1024.Rotates 1 none
  slices_S1024x1024_o0_2_S1024x1 : S1024x1024.Slices ![0, 2] S1024x1
  slices_S1024x1024_o0_1_S1024x1 : S1024x1024.Slices ![0, 1] S1024x1
  slices_S1024x1024_o0_0_S1024x1 : S1024x1024.Slices ![0, 0] S1024x1
  slices_S1024x1024_o0_3_S1024x1 : S1024x1024.Slices ![0, 3] S1024x1
  concatenates_S1024x1_S1024x1_S1024x2_d1 : Shape.Concatenates [S1024x1, S1024x1] S1024x2 1
  slices_S1024x1024_o0_1020_S1024x1 : S1024x1024.Slices ![0, 1020] S1024x1
  slices_S1024x1024_o0_1021_S1024x1 : S1024x1024.Slices ![0, 1021] S1024x1
  slices_S1024x1024_o0_1022_S1024x1 : S1024x1024.Slices ![0, 1022] S1024x1
  slices_S1024x1024_o0_1023_S1024x1 : S1024x1024.Slices ![0, 1023] S1024x1
  slices_S1024x1024_o0_2_S1024x1020 : S1024x1024.Slices ![0, 2] S1024x1020
  concatenates_S1024x2_S1024x1020_S1024x2_S1024x1024_d1 : Shape.Concatenates [S1024x2, S1024x1020, S1024x2] S1024x1024 1
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  slices_S1024x1024_o4_0_S1x1024 : S1024x1024.Slices ![4, 0] S1x1024
  slices_S1024x1024_o5_0_S1x1024 : S1024x1024.Slices ![5, 0] S1x1024
  slices_S1024x1024_o6_0_S1x1024 : S1024x1024.Slices ![6, 0] S1x1024
  slices_S1024x1024_o7_0_S1x1024 : S1024x1024.Slices ![7, 0] S1x1024
  concatenates_S1x1024_S1x1024_S1x1024_S1x1024_S4x1024_d0 : Shape.Concatenates [S1x1024, S1x1024, S1x1024, S1x1024] S4x1024 0
  slices_S1024x1024_o1016_0_S1x1024 : S1024x1024.Slices ![1016, 0] S1x1024
  slices_S1024x1024_o1018_0_S1x1024 : S1024x1024.Slices ![1018, 0] S1x1024
  slices_S1024x1024_o1017_0_S1x1024 : S1024x1024.Slices ![1017, 0] S1x1024
  slices_S1024x1024_o1019_0_S1x1024 : S1024x1024.Slices ![1019, 0] S1x1024
  slices_S1024x1024_o4_0_S1016x1024 : S1024x1024.Slices ![4, 0] S1016x1024
  concatenates_S4x1024_S1016x1024_S4x1024_S1024x1024_d0 : Shape.Concatenates [S4x1024, S1016x1024, S4x1024] S1024x1024 0
  slices_S1024x1024_o0_4_S1024x1 : S1024x1024.Slices ![0, 4] S1024x1
  slices_S1024x1024_o0_5_S1024x1 : S1024x1024.Slices ![0, 5] S1024x1
  slices_S1024x1024_o0_6_S1024x1 : S1024x1024.Slices ![0, 6] S1024x1
  slices_S1024x1024_o0_7_S1024x1 : S1024x1024.Slices ![0, 7] S1024x1
  concatenates_S1024x1_S1024x1_S1024x1_S1024x1_S1024x4_d1 : Shape.Concatenates [S1024x1, S1024x1, S1024x1, S1024x1] S1024x4 1
  slices_S1024x1024_o0_1016_S1024x1 : S1024x1024.Slices ![0, 1016] S1024x1
  slices_S1024x1024_o0_1018_S1024x1 : S1024x1024.Slices ![0, 1018] S1024x1
  slices_S1024x1024_o0_1017_S1024x1 : S1024x1024.Slices ![0, 1017] S1024x1
  slices_S1024x1024_o0_1019_S1024x1 : S1024x1024.Slices ![0, 1019] S1024x1
  slices_S1024x1024_o0_4_S1024x1016 : S1024x1024.Slices ![0, 4] S1024x1016
  concatenates_S1024x4_S1024x1016_S1024x4_S1024x1024_d1 : Shape.Concatenates [S1024x4, S1024x1016, S1024x4] S1024x1024 1
  slices_S1024x1024_o8_0_S1x1024 : S1024x1024.Slices ![8, 0] S1x1024
  slices_S1024x1024_o9_0_S1x1024 : S1024x1024.Slices ![9, 0] S1x1024
  slices_S1024x1024_o10_0_S1x1024 : S1024x1024.Slices ![10, 0] S1x1024
  slices_S1024x1024_o11_0_S1x1024 : S1024x1024.Slices ![11, 0] S1x1024
  slices_S1024x1024_o12_0_S1x1024 : S1024x1024.Slices ![12, 0] S1x1024
  slices_S1024x1024_o13_0_S1x1024 : S1024x1024.Slices ![13, 0] S1x1024
  slices_S1024x1024_o14_0_S1x1024 : S1024x1024.Slices ![14, 0] S1x1024
  slices_S1024x1024_o15_0_S1x1024 : S1024x1024.Slices ![15, 0] S1x1024
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  slices_S1024x1024_o1008_0_S1x1024 : S1024x1024.Slices ![1008, 0] S1x1024
  slices_S1024x1024_o1012_0_S1x1024 : S1024x1024.Slices ![1012, 0] S1x1024
  slices_S1024x1024_o1009_0_S1x1024 : S1024x1024.Slices ![1009, 0] S1x1024
  slices_S1024x1024_o1013_0_S1x1024 : S1024x1024.Slices ![1013, 0] S1x1024
  slices_S1024x1024_o1010_0_S1x1024 : S1024x1024.Slices ![1010, 0] S1x1024
  slices_S1024x1024_o1014_0_S1x1024 : S1024x1024.Slices ![1014, 0] S1x1024
  slices_S1024x1024_o1011_0_S1x1024 : S1024x1024.Slices ![1011, 0] S1x1024
  slices_S1024x1024_o1015_0_S1x1024 : S1024x1024.Slices ![1015, 0] S1x1024
  slices_S1024x1024_o8_0_S1008x1024 : S1024x1024.Slices ![8, 0] S1008x1024
  concatenates_S8x1024_S1008x1024_S8x1024_S1024x1024_d0 : Shape.Concatenates [S8x1024, S1008x1024, S8x1024] S1024x1024 0
  slices_S1024x1024_o0_8_S1024x1 : S1024x1024.Slices ![0, 8] S1024x1
  slices_S1024x1024_o0_9_S1024x1 : S1024x1024.Slices ![0, 9] S1024x1
  slices_S1024x1024_o0_10_S1024x1 : S1024x1024.Slices ![0, 10] S1024x1
  slices_S1024x1024_o0_11_S1024x1 : S1024x1024.Slices ![0, 11] S1024x1
  slices_S1024x1024_o0_12_S1024x1 : S1024x1024.Slices ![0, 12] S1024x1
  slices_S1024x1024_o0_13_S1024x1 : S1024x1024.Slices ![0, 13] S1024x1
  slices_S1024x1024_o0_14_S1024x1 : S1024x1024.Slices ![0, 14] S1024x1
  slices_S1024x1024_o0_15_S1024x1 : S1024x1024.Slices ![0, 15] S1024x1
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  slices_S1024x1024_o0_1008_S1024x1 : S1024x1024.Slices ![0, 1008] S1024x1
  slices_S1024x1024_o0_1012_S1024x1 : S1024x1024.Slices ![0, 1012] S1024x1
  slices_S1024x1024_o0_1009_S1024x1 : S1024x1024.Slices ![0, 1009] S1024x1
  slices_S1024x1024_o0_1013_S1024x1 : S1024x1024.Slices ![0, 1013] S1024x1
  slices_S1024x1024_o0_1010_S1024x1 : S1024x1024.Slices ![0, 1010] S1024x1
  slices_S1024x1024_o0_1014_S1024x1 : S1024x1024.Slices ![0, 1014] S1024x1
  slices_S1024x1024_o0_1011_S1024x1 : S1024x1024.Slices ![0, 1011] S1024x1
  slices_S1024x1024_o0_1015_S1024x1 : S1024x1024.Slices ![0, 1015] S1024x1
  slices_S1024x1024_o0_8_S1024x1008 : S1024x1024.Slices ![0, 8] S1024x1008
  concatenates_S1024x8_S1024x1008_S1024x8_S1024x1024_d1 : Shape.Concatenates [S1024x8, S1024x1008, S1024x8] S1024x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x4x1024x1024.size a
  hwx0_1 : ∀ i : grid0.Coords, EltTy.bits .f32 = 32 ∨ (Rect.block (s := S16x4x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) && !(k0_cond4 i == 1#1) | ⟨_ + 2, h⟩ => absurd h (Nat.not_lt.2 (Nat.le_add_left _ _))

class Facts : Prop extends Facts₀ where

variable [Facts]
-- ==== ReferenceIdeal.lean ====
abbrev S16x1024x1024 : Shape := ⟨3, ![16, 1024, 1024]⟩
abbrev S5 : Shape := ⟨1, ![5]⟩
abbrev S_ : Shape := ⟨0, ![]⟩
abbrev S16x1x1024 : Shape := ⟨3, ![16, 1, 1024]⟩
abbrev S16x2x1024 : Shape := ⟨3, ![16, 2, 1024]⟩
abbrev S16x1026x1024 : Shape := ⟨3, ![16, 1026, 1024]⟩
abbrev S16x1028x1024 : Shape := ⟨3, ![16, 1028, 1024]⟩
abbrev S1 : Shape := ⟨1, ![1]⟩
abbrev S16x1024x1 : Shape := ⟨3, ![16, 1024, 1]⟩
abbrev S16x1024x2 : Shape := ⟨3, ![16, 1024, 2]⟩
abbrev S16x1024x1026 : Shape := ⟨3, ![16, 1024, 1026]⟩
abbrev S16x1024x1028 : Shape := ⟨3, ![16, 1024, 1028]⟩
abbrev S16x4x1024 : Shape := ⟨3, ![16, 4, 1024]⟩
abbrev S16x1032x1024 : Shape := ⟨3, ![16, 1032, 1024]⟩
abbrev S16x1024x4 : Shape := ⟨3, ![16, 1024, 4]⟩
abbrev S16x1024x1032 : Shape := ⟨3, ![16, 1024, 1032]⟩
abbrev S16x8x1024 : Shape := ⟨3, ![16, 8, 1024]⟩
abbrev S16x1040x1024 : Shape := ⟨3, ![16, 1040, 1024]⟩
abbrev S16x1024x8 : Shape := ⟨3, ![16, 1024, 8]⟩
abbrev S16x1024x1040 : Shape := ⟨3, ![16, 1024, 1040]⟩
abbrev S16x1x1024x1024 : Shape := ⟨4, ![16, 1, 1024, 1024]⟩
abbrev S16x4x1024x1024 : Shape := ⟨4, ![16, 4, 1024, 1024]⟩

abbrev nBuf : Space → Nat
  | .hbm => 238
  | .vmem => 0
  | .smem => 0
  | _ => 0

abbrev hbmTy0_0 (i : Nat) : BufTy := match i % 128 with
  | 0 => ⟨S16x1024x1024, .f32⟩
  | 1 => ⟨S5, .f32⟩
  | 2 => ⟨S_, .i32⟩
  | 3 => ⟨S16x1x1024, .f32⟩
  | 4 => ⟨S16x2x1024, .f32⟩
  | 5 => ⟨S16x2x1024, .f32⟩
  | 6 => ⟨S16x1026x1024, .f32⟩
  | 7 => ⟨S16x1x1024, .f32⟩
  | 8 => ⟨S16x2x1024, .f32⟩
  | 9 => ⟨S16x2x1024, .f32⟩
  | 10 => ⟨S16x1028x1024, .f32⟩
  | 11 => ⟨S1, .f32⟩
  | 12 => ⟨S_, .f32⟩
  | 13 => ⟨S16x1024x1024, .f32⟩
  | 14 => ⟨S16x1024x1024, .f32⟩
  | 15 => ⟨S16x1024x1024, .f32⟩
  | 16 => ⟨S1, .f32⟩
  | 17 => ⟨S_, .f32⟩
  | 18 => ⟨S16x1024x1024, .f32⟩
  | 19 => ⟨S16x1024x1024, .f32⟩
  | 20 => ⟨S16x1024x1024, .f32⟩
  | 21 => ⟨S16x1024x1024, .f32⟩
  | 22 => ⟨S1, .f32⟩
  | 23 => ⟨S_, .f32⟩
  | 24 => ⟨S16x1024x1024, .f32⟩
  | 25 => ⟨S16x1024x1024, .f32⟩
  | 26 => ⟨S16x1024x1024, .f32⟩
  | 27 => ⟨S16x1024x1024, .f32⟩
  | 28 => ⟨S1, .f32⟩
  | 29 => ⟨S_, .f32⟩
  | 30 => ⟨S16x1024x1024, .f32⟩
  | 31 => ⟨S16x1024x1024, .f32⟩
  | 32 => ⟨S16x1024x1024, .f32⟩
  | 33 => ⟨S16x1024x1024, .f32⟩
  | 34 => ⟨S1, .f32⟩
  | 35 => ⟨S_, .f32⟩
  | 36 => ⟨S16x1024x1024, .f32⟩
  | 37 => ⟨S16x1024x1024, .f32⟩
  | 38 => ⟨S16x1024x1024, .f32⟩
  | 39 => ⟨S16x1024x1024, .f32⟩
  | 40 => ⟨S_, .i32⟩
  | 41 => ⟨S16x1024x1, .f32⟩
  | 42 => ⟨S16x1024x2, .f32⟩
  | 43 => ⟨S16x1024x2, .f32⟩
  | 44 => ⟨S16x1024x1026, .f32⟩
  | 45 => ⟨S16x1024x1, .f32⟩
  | 46 => ⟨S16x1024x2, .f32⟩
  | 47 => ⟨S16x1024x2, .f32⟩
  | 48 => ⟨S16x1024x1028, .f32⟩
  | 49 => ⟨S1, .f32⟩
  | 50 => ⟨S_, .f32⟩
  | 51 => ⟨S16x1024x1024, .f32⟩
  | 52 => ⟨S16x1024x1024, .f32⟩
  | 53 => ⟨S16x1024x1024, .f32⟩
  | 54 => ⟨S1, .f32⟩
  | 55 => ⟨S_, .f32⟩
  | 56 => ⟨S16x1024x1024, .f32⟩
  | 57 => ⟨S16x1024x1024, .f32⟩
  | 58 => ⟨S16x1024x1024, .f32⟩
  | 59 => ⟨S16x1024x1024, .f32⟩
  | 60 => ⟨S1, .f32⟩
  | 61 => ⟨S_, .f32⟩
  | 62 => ⟨S16x1024x1024, .f32⟩
  | 63 => ⟨S16x1024x1024, .f32⟩
  | 64 => ⟨S16x1024x1024, .f32⟩
  | 65 => ⟨S16x1024x1024, .f32⟩
  | 66 => ⟨S1, .f32⟩
  | 67 => ⟨S_, .f32⟩
  | 68 => ⟨S16x1024x1024, .f32⟩
  | 69 => ⟨S16x1024x1024, .f32⟩
  | 70 => ⟨S16x1024x1024, .f32⟩
  | 71 => ⟨S16x1024x1024, .f32⟩
  | 72 => ⟨S1, .f32⟩
  | 73 => ⟨S_, .f32⟩
  | 74 => ⟨S16x1024x1024, .f32⟩
  | 75 => ⟨S16x1024x1024, .f32⟩
  | 76 => ⟨S16x1024x1024, .f32⟩
  | 77 => ⟨S16x1024x1024, .f32⟩
  | 78 => ⟨S16x1024x1024, .f32⟩
  | 79 => ⟨S_, .i32⟩
  | 80 => ⟨S16x1x1024, .f32⟩
  | 81 => ⟨S16x4x1024, .f32⟩
  | 82 => ⟨S16x4x1024, .f32⟩
  | 83 => ⟨S16x1028x1024, .f32⟩
  | 84 => ⟨S16x1x1024, .f32⟩
  | 85 => ⟨S16x4x1024, .f32⟩
  | 86 => ⟨S16x4x1024, .f32⟩
  | 87 => ⟨S16x1032x1024, .f32⟩
  | 88 => ⟨S1, .f32⟩
  | 89 => ⟨S_, .f32⟩
  | 90 => ⟨S16x1024x1024, .f32⟩
  | 91 => ⟨S16x1024x1024, .f32⟩
  | 92 => ⟨S16x1024x1024, .f32⟩
  | 93 => ⟨S1, .f32⟩
  | 94 => ⟨S_, .f32⟩
  | 95 => ⟨S16x1024x1024, .f32⟩
  | 96 => ⟨S16x1024x1024, .f32⟩
  | 97 => ⟨S16x1024x1024, .f32⟩
  | 98 => ⟨S16x1024x1024, .f32⟩
  | 99 => ⟨S1, .f32⟩
  | 100 => ⟨S_, .f32⟩
  | 101 => ⟨S16x1024x1024, .f32⟩
  | 102 => ⟨S16x1024x1024, .f32⟩
  | 103 => ⟨S16x1024x1024, .f32⟩
  | 104 => ⟨S16x1024x1024, .f32⟩
  | 105 => ⟨S1, .f32⟩
  | 106 => ⟨S_, .f32⟩
  | 107 => ⟨S16x1024x1024, .f32⟩
  | 108 => ⟨S16x1024x1024, .f32⟩
  | 109 => ⟨S16x1024x1024, .f32⟩
  | 110 => ⟨S16x1024x1024, .f32⟩
  | 111 => ⟨S1, .f32⟩
  | 112 => ⟨S_, .f32⟩
  | 113 => ⟨S16x1024x1024, .f32⟩
  | 114 => ⟨S16x1024x1024, .f32⟩
  | 115 => ⟨S16x1024x1024, .f32⟩
  | 116 => ⟨S16x1024x1024, .f32⟩
  | 117 => ⟨S_, .i32⟩
  | 118 => ⟨S16x1024x1, .f32⟩
  | 119 => ⟨S16x1024x4, .f32⟩
  | 120 => ⟨S16x1024x4, .f32⟩
  | 121 => ⟨S16x1024x1028, .f32⟩
  | 122 => ⟨S16x1024x1, .f32⟩
  | 123 => ⟨S16x1024x4, .f32⟩
  | 124 => ⟨S16x1024x4, .f32⟩
  | 125 => ⟨S16x1024x1032, .f32⟩
  | 126 => ⟨S1, .f32⟩
  | 127 => ⟨S_, .f32⟩
  | _ => ⟨S16x1024x1024, .f32⟩

abbrev hbmTy0_1 (i : Nat) : BufTy := match i % 128 with
  | 0 => ⟨S16x1024x1024, .f32⟩
  | 1 => ⟨S16x1024x1024, .f32⟩
  | 2 => ⟨S16x1024x1024, .f32⟩
  | 3 => ⟨S1, .f32⟩
  | 4 => ⟨S_, .f32⟩
  | 5 => ⟨S16x1024x1024, .f32⟩
  | 6 => ⟨S16x1024x1024, .f32⟩
  | 7 => ⟨S16x1024x1024, .f32⟩
  | 8 => ⟨S16x1024x1024, .f32⟩
  | 9 => ⟨S1, .f32⟩
  | 10 => ⟨S_, .f32⟩
  | 11 => ⟨S16x1024x1024, .f32⟩
  | 12 => ⟨S16x1024x1024, .f32⟩
  | 13 => ⟨S16x1024x1024, .f32⟩
  | 14 => ⟨S16x1024x1024, .f32⟩
  | 15 => ⟨S1, .f32⟩
  | 16 => ⟨S_, .f32⟩
  | 17 => ⟨S16x1024x1024, .f32⟩
  | 18 => ⟨S16x1024x1024, .f32⟩
  | 19 => ⟨S16x1024x1024, .f32⟩
  | 20 => ⟨S16x1024x1024, .f32⟩
  | 21 => ⟨S1, .f32⟩
  | 22 => ⟨S_, .f32⟩
  | 23 => ⟨S16x1024x1024, .f32⟩
  | 24 => ⟨S16x1024x1024, .f32⟩
  | 25 => ⟨S16x1024x1024, .f32⟩
  | 26 => ⟨S16x1024x1024, .f32⟩
  | 27 => ⟨S16x1024x1024, .f32⟩
  | 28 => ⟨S_, .i32⟩
  | 29 => ⟨S16x1x1024, .f32⟩
  | 30 => ⟨S16x8x1024, .f32⟩
  | 31 => ⟨S16x8x1024, .f32⟩
  | 32 => ⟨S16x1032x1024, .f32⟩
  | 33 => ⟨S16x1x1024, .f32⟩
  | 34 => ⟨S16x8x1024, .f32⟩
  | 35 => ⟨S16x8x1024, .f32⟩
  | 36 => ⟨S16x1040x1024, .f32⟩
  | 37 => ⟨S1, .f32⟩
  | 38 => ⟨S_, .f32⟩
  | 39 => ⟨S16x1024x1024, .f32⟩
  | 40 => ⟨S16x1024x1024, .f32⟩
  | 41 => ⟨S16x1024x1024, .f32⟩
  | 42 => ⟨S1, .f32⟩
  | 43 => ⟨S_, .f32⟩
  | 44 => ⟨S16x1024x1024, .f32⟩
  | 45 => ⟨S16x1024x1024, .f32⟩
  | 46 => ⟨S16x1024x1024, .f32⟩
  | 47 => ⟨S16x1024x1024, .f32⟩
  | 48 => ⟨S1, .f32⟩
  | 49 => ⟨S_, .f32⟩
  | 50 => ⟨S16x1024x1024, .f32⟩
  | 51 => ⟨S16x1024x1024, .f32⟩
  | 52 => ⟨S16x1024x1024, .f32⟩
  | 53 => ⟨S16x1024x1024, .f32⟩
  | 54 => ⟨S1, .f32⟩
  | 55 => ⟨S_, .f32⟩
  | 56 => ⟨S16x1024x1024, .f32⟩
  | 57 => ⟨S16x1024x1024, .f32⟩
  | 58 => ⟨S16x1024x1024, .f32⟩
  | 59 => ⟨S16x1024x1024, .f32⟩
  | 60 => ⟨S1, .f32⟩
  | 61 => ⟨S_, .f32⟩
  | 62 => ⟨S16x1024x1024, .f32⟩
  | 63 => ⟨S16x1024x1024, .f32⟩
  | 64 => ⟨S16x1024x1024, .f32⟩
  | 65 => ⟨S16x1024x1024, .f32⟩
  | 66 => ⟨S_, .i32⟩
  | 67 => ⟨S16x1024x1, .f32⟩
  | 68 => ⟨S16x1024x8, .f32⟩
  | 69 => ⟨S16x1024x8, .f32⟩
  | 70 => ⟨S16x1024x1032, .f32⟩
  | 71 => ⟨S16x1024x1, .f32⟩
  | 72 => ⟨S16x1024x8, .f32⟩
  | 73 => ⟨S16x1024x8, .f32⟩
  | 74 => ⟨S16x1024x1040, .f32⟩
  | 75 => ⟨S1, .f32⟩
  | 76 => ⟨S_, .f32⟩
  | 77 => ⟨S16x1024x1024, .f32⟩
  | 78 => ⟨S16x1024x1024, .f32⟩
  | 79 => ⟨S16x1024x1024, .f32⟩
  | 80 => ⟨S1, .f32⟩
  | 81 => ⟨S_, .f32⟩
  | 82 => ⟨S16x1024x1024, .f32⟩
  | 83 => ⟨S16x1024x1024, .f32⟩
  | 84 => ⟨S16x1024x1024, .f32⟩
  | 85 => ⟨S16x1024x1024, .f32⟩
  | 86 => ⟨S1, .f32⟩
  | 87 => ⟨S_, .f32⟩
  | 88 => ⟨S16x1024x1024, .f32⟩
  | 89 => ⟨S16x1024x1024, .f32⟩
  | 90 => ⟨S16x1024x1024, .f32⟩
  | 91 => ⟨S16x1024x1024, .f32⟩
  | 92 => ⟨S1, .f32⟩
  | 93 => ⟨S_, .f32⟩
  | 94 => ⟨S16x1024x1024, .f32⟩
  | 95 => ⟨S16x1024x1024, .f32⟩
  | 96 => ⟨S16x1024x1024, .f32⟩
  | 97 => ⟨S16x1024x1024, .f32⟩
  | 98 => ⟨S1, .f32⟩
  | 99 => ⟨S_, .f32⟩
  | 100 => ⟨S16x1024x1024, .f32⟩
  | 101 => ⟨S16x1024x1024, .f32⟩
  | 102 => ⟨S16x1024x1024, .f32⟩
  | 103 => ⟨S16x1024x1024, .f32⟩
  | 104 => ⟨S16x1024x1024, .f32⟩
  | 105 => ⟨S16x1x1024x1024, .f32⟩
  | 106 => ⟨S16x1x1024x1024, .f32⟩
  | 107 => ⟨S16x1x1024x1024, .f32⟩
  | 108 => ⟨S16x1x1024x1024, .f32⟩
  | 109 => ⟨S16x4x1024x1024, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_1 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_2 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_3 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_c_4 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_v6 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩

abbrev nD : Nat := 1
abbrev τ : Topo := Topo.v7x

variable {F : FTy → Type} [FloatOps F]

class Facts₀ : Prop where
  slices_S16x1024x1024_S16x1x1024_0_0_0 : S16x1024x1024.Slices ![0, 0, 0] S16x1x1024
  slices_S16x1024x1024_S16x2x1024_0_1_0 : S16x1024x1024.Slices ![0, 1, 0] S16x2x1024
  concatenates_S16x2x1024_S16x1024x1024_S16x1026x1024_d1 : Shape.Concatenates [S16x2x1024, S16x1024x1024] S16x1026x1024 1
  slices_S16x1026x1024_S16x1x1024_0_1025_0 : S16x1026x1024.Slices ![0, 1025, 0] S16x1x1024
  slices_S16x1026x1024_S16x2x1024_0_1023_0 : S16x1026x1024.Slices ![0, 1023, 0] S16x2x1024
  concatenates_S16x1026x1024_S16x2x1024_S16x1028x1024_d1 : Shape.Concatenates [S16x1026x1024, S16x2x1024] S16x1028x1024 1
  slices_S5_S1_0 : S5.Slices ![0] S1
  shapeCasts_S1_S_ : S1.ShapeCasts S_
  slices_S16x1028x1024_S16x1024x1024_0_0_0 : S16x1028x1024.Slices ![0, 0, 0] S16x1024x1024
  bcast_S_S16x1024x1024 : S_.BroadcastsInDim S16x1024x1024 (![] : Fin 0 → Fin S16x1024x1024.rank)
  slices_S5_S1_1 : S5.Slices ![1] S1
  slices_S16x1028x1024_S16x1024x1024_0_1_0 : S16x1028x1024.Slices ![0, 1, 0] S16x1024x1024
  slices_S5_S1_2 : S5.Slices ![2] S1
  slices_S16x1028x1024_S16x1024x1024_0_2_0 : S16x1028x1024.Slices ![0, 2, 0] S16x1024x1024
  slices_S5_S1_3 : S5.Slices ![3] S1
  slices_S16x1028x1024_S16x1024x1024_0_3_0 : S16x1028x1024.Slices ![0, 3, 0] S16x1024x1024
  slices_S5_S1_4 : S5.Slices ![4] S1
  slices_S16x1028x1024_S16x1024x1024_0_4_0 : S16x1028x1024.Slices ![0, 4, 0] S16x1024x1024
  slices_S16x1024x1024_S16x1024x1_0_0_0 : S16x1024x1024.Slices ![0, 0, 0] S16x1024x1
  slices_S16x1024x1024_S16x1024x2_0_0_1 : S16x1024x1024.Slices ![0, 0, 1] S16x1024x2
  concatenates_S16x1024x2_S16x1024x1024_S16x1024x1026_d2 : Shape.Concatenates [S16x1024x2, S16x1024x1024] S16x1024x1026 2
  slices_S16x1024x1026_S16x1024x1_0_0_1025 : S16x1024x1026.Slices ![0, 0, 1025] S16x1024x1
  slices_S16x1024x1026_S16x1024x2_0_0_1023 : S16x1024x1026.Slices ![0, 0, 1023] S16x1024x2
  concatenates_S16x1024x1026_S16x1024x2_S16x1024x1028_d2 : Shape.Concatenates [S16x1024x1026, S16x1024x2] S16x1024x1028 2
  slices_S16x1024x1028_S16x1024x1024_0_0_0 : S16x1024x1028.Slices ![0, 0, 0] S16x1024x1024
  slices_S16x1024x1028_S16x1024x1024_0_0_1 : S16x1024x1028.Slices ![0, 0, 1] S16x1024x1024
  slices_S16x1024x1028_S16x1024x1024_0_0_2 : S16x1024x1028.Slices ![0, 0, 2] S16x1024x1024
  slices_S16x1024x1028_S16x1024x1024_0_0_3 : S16x1024x1028.Slices ![0, 0, 3] S16x1024x1024
  slices_S16x1024x1028_S16x1024x1024_0_0_4 : S16x1024x1028.Slices ![0, 0, 4] S16x1024x1024
  slices_S16x1024x1024_S16x4x1024_0_1_0 : S16x1024x1024.Slices ![0, 1, 0] S16x4x1024
  concatenates_S16x4x1024_S16x1024x1024_S16x1028x1024_d1 : Shape.Concatenates [S16x4x1024, S16x1024x1024] S16x1028x1024 1
  slices_S16x1028x1024_S16x1x1024_0_1027_0 : S16x1028x1024.Slices ![0, 1027, 0] S16x1x1024
  slices_S16x1028x1024_S16x4x1024_0_1023_0 : S16x1028x1024.Slices ![0, 1023, 0] S16x4x1024
  concatenates_S16x1028x1024_S16x4x1024_S16x1032x1024_d1 : Shape.Concatenates [S16x1028x1024, S16x4x1024] S16x1032x1024 1
  slices_S16x1032x1024_S16x1024x1024_0_0_0 : S16x1032x1024.Slices ![0, 0, 0] S16x1024x1024
  slices_S16x1032x1024_S16x1024x1024_0_2_0 : S16x1032x1024.Slices ![0, 2, 0] S16x1024x1024
  slices_S16x1032x1024_S16x1024x1024_0_4_0 : S16x1032x1024.Slices ![0, 4, 0] S16x1024x1024
  slices_S16x1032x1024_S16x1024x1024_0_6_0 : S16x1032x1024.Slices ![0, 6, 0] S16x1024x1024
  slices_S16x1032x1024_S16x1024x1024_0_8_0 : S16x1032x1024.Slices ![0, 8, 0] S16x1024x1024
  slices_S16x1024x1024_S16x1024x4_0_0_1 : S16x1024x1024.Slices ![0, 0, 1] S16x1024x4
  concatenates_S16x1024x4_S16x1024x1024_S16x1024x1028_d2 : Shape.Concatenates [S16x1024x4, S16x1024x1024] S16x1024x1028 2
  slices_S16x1024x1028_S16x1024x1_0_0_1027 : S16x1024x1028.Slices ![0, 0, 1027] S16x1024x1
  slices_S16x1024x1028_S16x1024x4_0_0_1023 : S16x1024x1028.Slices ![0, 0, 1023] S16x1024x4
  concatenates_S16x1024x1028_S16x1024x4_S16x1024x1032_d2 : Shape.Concatenates [S16x1024x1028, S16x1024x4] S16x1024x1032 2
  slices_S16x1024x1032_S16x1024x1024_0_0_0 : S16x1024x1032.Slices ![0, 0, 0] S16x1024x1024
  slices_S16x1024x1032_S16x1024x1024_0_0_2 : S16x1024x1032.Slices ![0, 0, 2] S16x1024x1024
  slices_S16x1024x1032_S16x1024x1024_0_0_4 : S16x1024x1032.Slices ![0, 0, 4] S16x1024x1024
  slices_S16x1024x1032_S16x1024x1024_0_0_6 : S16x1024x1032.Slices ![0, 0, 6] S16x1024x1024
  slices_S16x1024x1032_S16x1024x1024_0_0_8 : S16x1024x1032.Slices ![0, 0, 8] S16x1024x1024
  slices_S16x1024x1024_S16x8x1024_0_1_0 : S16x1024x1024.Slices ![0, 1, 0] S16x8x1024
  concatenates_S16x8x1024_S16x1024x1024_S16x1032x1024_d1 : Shape.Concatenates [S16x8x1024, S16x1024x1024] S16x1032x1024 1
  slices_S16x1032x1024_S16x1x1024_0_1031_0 : S16x1032x1024.Slices ![0, 1031, 0] S16x1x1024
  slices_S16x1032x1024_S16x8x1024_0_1023_0 : S16x1032x1024.Slices ![0, 1023, 0] S16x8x1024
  concatenates_S16x1032x1024_S16x8x1024_S16x1040x1024_d1 : Shape.Concatenates [S16x1032x1024, S16x8x1024] S16x1040x1024 1
  slices_S16x1040x1024_S16x1024x1024_0_0_0 : S16x1040x1024.Slices ![0, 0, 0] S16x1024x1024
  slices_S16x1040x1024_S16x1024x1024_0_4_0 : S16x1040x1024.Slices ![0, 4, 0] S16x1024x1024
  slices_S16x1040x1024_S16x1024x1024_0_8_0 : S16x1040x1024.Slices ![0, 8, 0] S16x1024x1024
  slices_S16x1040x1024_S16x1024x1024_0_12_0 : S16x1040x1024.Slices ![0, 12, 0] S16x1024x1024
  slices_S16x1040x1024_S16x1024x1024_0_16_0 : S16x1040x1024.Slices ![0, 16, 0] S16x1024x1024
  slices_S16x1024x1024_S16x1024x8_0_0_1 : S16x1024x1024.Slices ![0, 0, 1] S16x1024x8
  concatenates_S16x1024x8_S16x1024x1024_S16x1024x1032_d2 : Shape.Concatenates [S16x1024x8, S16x1024x1024] S16x1024x1032 2
  slices_S16x1024x1032_S16x1024x1_0_0_1031 : S16x1024x1032.Slices ![0, 0, 1031] S16x1024x1
  slices_S16x1024x1032_S16x1024x8_0_0_1023 : S16x1024x1032.Slices ![0, 0, 1023] S16x1024x8
  concatenates_S16x1024x1032_S16x1024x8_S16x1024x1040_d2 : Shape.Concatenates [S16x1024x1032, S16x1024x8] S16x1024x1040 2
  slices_S16x1024x1040_S16x1024x1024_0_0_0 : S16x1024x1040.Slices ![0, 0, 0] S16x1024x1024
  slices_S16x1024x1040_S16x1024x1024_0_0_4 : S16x1024x1040.Slices ![0, 0, 4] S16x1024x1024
  slices_S16x1024x1040_S16x1024x1024_0_0_8 : S16x1024x1040.Slices ![0, 0, 8] S16x1024x1024
  slices_S16x1024x1040_S16x1024x1024_0_0_12 : S16x1024x1040.Slices ![0, 0, 12] S16x1024x1024
  slices_S16x1024x1040_S16x1024x1024_0_0_16 : S16x1024x1040.Slices ![0, 0, 16] S16x1024x1024
  bcast_S16x1024x1024_S16x1x1024x1024_0_2_3 : S16x1024x1024.BroadcastsInDim S16x1x1024x1024 (![0, 2, 3] : Fin 3 → Fin S16x1x1024x1024.rank)
  concatenates_S16x1x1024x1024_S16x1x1024x1024_S16x1x1024x1024_S16x1x1024x1024_S16x4x1024x1024_d1 : Shape.Concatenates [S16x1x1024x1024, S16x1x1024x1024, S16x1x1024x1024, S16x1x1024x1024] S16x4x1024x1024 1

variable [Facts₀]

class Facts : Prop extends Facts₀ where

variable [Facts]
-- ==== Proof.Spec.lean ====
/-
  The mathematics both programs compute, stated once over plain coordinates.

  One batch entry is a 1024 × 1024 image `y`. A smoothing step with spacing `d` replaces every entry by the five-tap
  average with weights 1/16, 1/4, 3/8, 1/4, 1/16 of the entries at distances −2d, −d, 0, d, 2d along the rows'
  axis, then does the same along the columns' axis; a position that falls off an end of the axis is reflected about
  that end (the end entry itself is not repeated). Three steps with spacings 1, 2, 4 give the images
  y₁, y₂, y₃; the result holds the three differences x − y₁, y₁ − y₂, y₂ − y₃ and the last smooth image y₃.
  The five products are added from the left, in the order of the taps, on both sides, so no law of the
  extended reals beyond this spelling is needed.
-/
import Idealize.ShloMosaic.PureOps.Ideal
import Idealize.ShloMosaic.Lib.ValueIdx

noncomputable section

namespace Cert.Wavelet

open Idealize.ShloMosaic Idealize.ShloMosaic.ValueIdx

/-- The five weights, as the binary words both programs spell: 1/16, 1/4, 3/8. -/
def w16 : EReal := Ideal.ofBits .f32 0x3D800000#32
def w4 : EReal := Ideal.ofBits .f32 0x3E800000#32
def w38 : EReal := Ideal.ofBits .f32 0x3EC00000#32

/-- Position `r − o` on an axis of 1024 entries, reflected about entry 0. -/
def dn (r o : Nat) : Nat := if o ≤ r then r - o else o - r

/-- Position `r + o` on an axis of 1024 entries, reflected about entry 1023. -/
def up (r o : Nat) : Nat := if r + o ≤ 1023 then r + o else 2046 - (r + o)

/-- A position as an index of the axis (the remainder is never taken for the offsets that occur: they are at most 8). -/
def pos (n : Nat) : Fin 1024 := ⟨n % 1024, Nat.mod_lt _ (by norm_num)⟩

/-- The five-tap average of a line `f` of 1024 entries at position `r` with spacing `d`, added from the left. -/
def tap5 (f : Fin 1024 → EReal) (d : Nat) (r : Fin 1024) : EReal :=
  w16 * f (pos (dn r.val (2 * d))) + w4 * f (pos (dn r.val d)) + w38 * f r
    + w4 * f (pos (up r.val d)) + w16 * f (pos (up r.val (2 * d)))

/-- The average along the first axis (over rows, each column by itself). -/
def alongRows (d : Nat) (y : Fin 1024 → Fin 1024 → EReal) : Fin 1024 → Fin 1024 → EReal :=
  fun r q => tap5 (fun r' => y r' q) d r

/-- The average along the second axis (over columns, each row by itself). -/
def alongCols (d : Nat) (y : Fin 1024 → Fin 1024 → EReal) : Fin 1024 → Fin 1024 → EReal :=
  fun r q => tap5 (fun q' => y r q') d q

/-- One smoothing step: rows first, then columns. -/
def smooth (d : Nat) (y : Fin 1024 → Fin 1024 → EReal) : Fin 1024 → Fin 1024 → EReal :=
  alongCols d (alongRows d y)

/-- Batch entry `b` of the argument as an image. -/
def img (x : (⟨3, ![16, 1024, 1024]⟩ : Shape).Idx → EReal) (b : Fin 16) : Fin 1024 → Fin 1024 → EReal :=
  fun r q => x (ix3 b r q)

/-- Channel `c` of the result for one image: the three differences, then the last smooth image. -/
def channel (y : Fin 1024 → Fin 1024 → EReal) (c : Fin 4) : Fin 1024 → Fin 1024 → EReal :=
  match c with
  | 0 => fun r q => y r q - smooth 1 y r q
  | 1 => fun r q => smooth 1 y r q - smooth 2 (smooth 1 y) r q
  | 2 => fun r q => smooth 2 (smooth 1 y) r q - smooth 4 (smooth 2 (smooth 1 y)) r q
  | 3 => fun r q => smooth 4 (smooth 2 (smooth 1 y)) r q

/-- The whole result array as one function of the argument array. -/
def result (x : (⟨3, ![16, 1024, 1024]⟩ : Shape).Idx → EReal) : (⟨4, ![16, 4, 1024, 1024]⟩ : Shape).Idx → EReal :=
  fun j => channel (img x (j 0)) (j 1) (j 2) (j 3)

end Cert.Wavelet

end
-- ==== Proof.PieceStmts.lean ====
/-
  What each of the kernel's four branches leaves, as statements over plain images.

  The grid walks the sixteen batch images, four points per image. At an image's first point the kernel copies the
  image into a buffer it keeps between points, smooths it with spacing 1, writes the difference to the output block
  and keeps the smooth image; at the second and third points it does the same with spacings 2 and 4 from what it
  kept; at the fourth point it writes what it kept. The statements below say exactly that of the two things each
  branch leaves (its output block and the kept buffer), for any contents it starts from.
-/
import proofs.«159894_j34797825032657_2_alg».proof.Proof.Gen.KernelIdeal.Frame
import proofs.«159894_j34797825032657_2_alg».proof.Proof.Spec

noncomputable section

namespace Cert.KernelIdeal.Pieces

open Cert.KernelIdeal Cert.KernelIdeal.Gen Idealize.ShloMosaic Idealize.ShloMosaic.TcCoe Idealize.SL.Sem
open Idealize.ShloMosaic.ValueIdx Cert.Wavelet

/-- A 1 × 1024 × 1024 input block as an image. -/
def im3 (x0 : Vec Ideal S1x1024x1024 .f32) : Fin 1024 → Fin 1024 → EReal := fun r q => x0 (ix3 0 r q)

/-- The kept 1024 × 1024 buffer as an image. -/
def im2 (xs : Vec Ideal S1024x1024 .f32) : Fin 1024 → Fin 1024 → EReal := fun r q => xs (ix2 r q)

/-- An image as a 1024 × 1024 buffer. -/
def of2 (f : Fin 1024 → Fin 1024 → EReal) : Vec Ideal S1024x1024 .f32 := fun j => f (j 0) (j 1)

/-- An image as a 1 × 1 × 1024 × 1024 output block. -/
def of4 (f : Fin 1024 → Fin 1024 → EReal) : Vec Ideal S1x1x1024x1024 .f32 := fun j => f (j 2) (j 3)

/-- First point of an image: keeps the image smoothed with spacing 1, writes the image less that. -/
def StmtA : Prop := ∀ (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : cond0_0 i) (hc1 : ¬cond0_1 i) (hc2 : ¬cond0_2 i) (hc3 : ¬cond0_3 i) (x0 : Vec Ideal S1x1024x1024 .f32),
  sout0_A_0 (F := Ideal) c i arg2 harg2 arg3 harg3 arg4 harg4 hc0 hc1 hc2 hc3 x0 = of2 (smooth 1 (im3 x0))
  ∧ out0_A_1 (F := Ideal) c i arg2 harg2 arg3 harg3 arg4 harg4 hc0 hc1 hc2 hc3 x0 = of4 (fun r q => im3 x0 r q - smooth 1 (im3 x0) r q)

/-- Second point: from the kept image, spacing 2. -/
def StmtB : Prop := ∀ (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : cond0_1 i) (hc2 : ¬cond0_2 i) (hc3 : ¬cond0_3 i) (x0 : Vec Ideal S1x1024x1024 .f32) (xs0 : Vec Ideal S1024x1024 .f32),
  sout0_B_0 (F := Ideal) c i arg2 harg2 arg3 harg3 arg4 harg4 hc0 hc1 hc2 hc3 x0 xs0 = of2 (smooth 2 (im2 xs0))
  ∧ out0_B_1 (F := Ideal) c i arg2 harg2 arg3 harg3 arg4 harg4 hc0 hc1 hc2 hc3 x0 xs0 = of4 (fun r q => im2 xs0 r q - smooth 2 (im2 xs0) r q)

/-- Third point: from the kept image, spacing 4. -/
def StmtC : Prop := ∀ (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : cond0_2 i) (hc3 : ¬cond0_3 i) (x0 : Vec Ideal S1x1024x1024 .f32) (xs0 : Vec Ideal S1024x1024 .f32),
  sout0_C_0 (F := Ideal) c i arg2 harg2 arg3 harg3 arg4 harg4 hc0 hc1 hc2 hc3 x0 xs0 = of2 (smooth 4 (im2 xs0))
  ∧ out0_C_1 (F := Ideal) c i arg2 harg2 arg3 harg3 arg4 harg4 hc0 hc1 hc2 hc3 x0 xs0 = of4 (fun r q => im2 xs0 r q - smooth 4 (im2 xs0) r q)

/-- Fourth point: writes the kept image. (The kept buffer is not stored into: `sout0_D_0` is its contents by definition.) -/
def StmtD : Prop := ∀ (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : ¬cond0_2 i) (hc3 : cond0_3 i) (x0 : Vec Ideal S1x1024x1024 .f32) (xs0 : Vec Ideal S1024x1024 .f32),
  out0_D_1 (F := Ideal) c i arg2 harg2 arg3 harg3 arg4 harg4 hc0 hc1 hc2 hc3 x0 xs0 = of4 (im2 xs0)

end Cert.KernelIdeal.Pieces

end
-- ==== Proof.LibAt2.lean ====
/-
  Two-axis arrays read at an index given by its two coordinates: a unit-stride slice, a rotation along either
  axis, and a concatenation along either axis read at the piece that holds the index.
-/
import Idealize.ShloMosaic.Lib.Pipeline.Value
import Idealize.ShloMosaic.Lib.ValueIdx
import Idealize.ShloMosaic.Lib.KernelVsHost

namespace Cert.LibAt2

open Idealize.ShloMosaic Idealize.ShloMosaic.ValueIdx

variable {α : Type}

/-- A slice of a two-axis array at `(r, q)` is the array at `(o₀ + r, o₁ + q)`. -/
theorem slice_at {A B A' B' : Nat} (off : Fin 2 → Nat) (x : (⟨2, ![A, B]⟩ : Shape).Idx → α)
    (h : (⟨2, ![A, B]⟩ : Shape).Slices off ⟨2, ![A', B']⟩) (r : Fin A') (q : Fin B')
    (r' : Fin A) (q' : Fin B) (hr : r'.val = off 0 + r.val) (hq : q'.val = off 1 + q.val) :
    extractStridedSlice ⟨2, ![A', B']⟩ off x h (ix2 r q) = x (ix2 r' q') :=
  extractStridedSlice_apply off x h _ _ (fun a => by
    match a with
    | ⟨0, _⟩ => exact hr
    | ⟨1, _⟩ => exact hq)

/-- A rotation by `s` along the first axis at `(r, q)` is the array at `((r + A − s mod A) mod A, q)`. -/
theorem rot0_at {A B : Nat} (sb : BitVec 32) (x : (⟨2, ![A, B]⟩ : Shape).Idx → α)
    (h : (⟨2, ![A, B]⟩ : Shape).Rotates 0 none) (r : Fin A) (q : Fin B)
    (r' : Fin A) (hr : r'.val = (r.val + A - sb.toNat % A) % A) :
    dynamicRotate 0 sb none x h (ix2 r q) = x (ix2 r' q) :=
  dynamicRotate_apply 0 sb x h _ _ (fun b => by
    match b with
    | ⟨0, _⟩ => exact hr
    | ⟨1, _⟩ => rfl)

/-- A rotation by `s` along the second axis at `(r, q)` is the array at `(r, (q + B − s mod B) mod B)`. -/
theorem rot1_at {A B : Nat} (sb : BitVec 32) (x : (⟨2, ![A, B]⟩ : Shape).Idx → α)
    (h : (⟨2, ![A, B]⟩ : Shape).Rotates 1 none) (r : Fin A) (q : Fin B)
    (q' : Fin B) (hq : q'.val = (q.val + B - sb.toNat % B) % B) :
    dynamicRotate 1 sb none x h (ix2 r q) = x (ix2 r q') :=
  dynamicRotate_apply 1 sb x h _ _ (fun b => by
    match b with
    | ⟨0, _⟩ => rfl
    | ⟨1, _⟩ => exact hq)

/-- A concatenation along the first axis at `(r, q)`: piece `k`, which starts at row `pre`, at `(r − pre, q)`. -/
theorem cat0_at {N n : Nat} (xs : List ((s : Shape) × (s.Idx → α)))
    (h : Shape.Concatenates (xs.map (·.1)) ⟨2, ![N, n]⟩ 0) (r : Fin N) (q : Fin n)
    (k : Nat) (hk : k < xs.length) (a : Nat) (x₁ : (⟨2, ![a, n]⟩ : Shape).Idx → α)
    (hxk : xs[k] = ⟨⟨2, ![a, n]⟩, x₁⟩) (pre : Nat)
    (hpre : (((xs.take k).map (·.1)).map fun s => if h : s.rank = (⟨2, ![N, n]⟩ : Shape).rank then s.size ((0 : Fin 2).cast h.symm) else 0).sum = pre)
    (r' : Fin a) (hr : pre + r'.val = r.val) :
    concatenate ⟨2, ![N, n]⟩ 0 xs h (ix2 r q) = x₁ (ix2 r' q) :=
  concatenate_apply_piece 0 xs h (ix2 r q) k hk ⟨2, ![a, n]⟩ x₁ hxk rfl pre hpre (ix2 r' q)
    (fun b hb => by
      match b with
      | ⟨0, _⟩ => exact absurd rfl hb
      | ⟨1, _⟩ => rfl)
    hr

/-- A concatenation along the second axis at `(r, q)`: piece `k`, which starts at column `pre`, at `(r, q − pre)`. -/
theorem cat1_at {N n : Nat} (xs : List ((s : Shape) × (s.Idx → α)))
    (h : Shape.Concatenates (xs.map (·.1)) ⟨2, ![N, n]⟩ 1) (r : Fin N) (q : Fin n)
    (k : Nat) (hk : k < xs.length) (a : Nat) (x₁ : (⟨2, ![N, a]⟩ : Shape).Idx → α)
    (hxk : xs[k] = ⟨⟨2, ![N, a]⟩, x₁⟩) (pre : Nat)
    (hpre : (((xs.take k).map (·.1)).map fun s => if h : s.rank = (⟨2, ![N, n]⟩ : Shape).rank then s.size ((1 : Fin 2).cast h.symm) else 0).sum = pre)
    (q' : Fin a) (hq : pre + q'.val = q.val) :
    concatenate ⟨2, ![N, n]⟩ 1 xs h (ix2 r q) = x₁ (ix2 r q') :=
  concatenate_apply_piece 1 xs h (ix2 r q) k hk ⟨2, ![N, a]⟩ x₁ hxk rfl pre hpre (ix2 r q')
    (fun b hb => by
      match b with
      | ⟨0, _⟩ => rfl
      | ⟨1, _⟩ => exact absurd rfl hb)
    hq

/-- The slice lemma with the index it reads spelt out. -/
theorem slice_at' {A B A' B' : Nat} (off : Fin 2 → Nat) (x : (⟨2, ![A, B]⟩ : Shape).Idx → α)
    (h : (⟨2, ![A, B]⟩ : Shape).Slices off ⟨2, ![A', B']⟩) (r : Fin A') (q : Fin B') :
    extractStridedSlice ⟨2, ![A', B']⟩ off x h (ix2 r q)
      = x (ix2 ⟨off 0 + r.val, Nat.lt_of_lt_of_le (Nat.add_lt_add_left r.isLt _) (h.2 0)⟩
              ⟨off 1 + q.val, Nat.lt_of_lt_of_le (Nat.add_lt_add_left q.isLt _) (h.2 1)⟩) :=
  slice_at off x h r q _ _ rfl rfl

/-- The rotation lemmas with the index they read spelt out. -/
theorem rot0_at' {A B : Nat} (sb : BitVec 32) (x : (⟨2, ![A, B]⟩ : Shape).Idx → α)
    (h : (⟨2, ![A, B]⟩ : Shape).Rotates 0 none) (r : Fin A) (q : Fin B) :
    dynamicRotate 0 sb none x h (ix2 r q) = x (ix2 ⟨(r.val + A - sb.toNat % A) % A, Nat.mod_lt _ (Fin.pos r)⟩ q) :=
  rot0_at sb x h r q _ rfl

theorem rot1_at' {A B : Nat} (sb : BitVec 32) (x : (⟨2, ![A, B]⟩ : Shape).Idx → α)
    (h : (⟨2, ![A, B]⟩ : Shape).Rotates 1 none) (r : Fin A) (q : Fin B) :
    dynamicRotate 1 sb none x h (ix2 r q) = x (ix2 r ⟨(q.val + B - sb.toNat % B) % B, Nat.mod_lt _ (Fin.pos q)⟩) :=
  rot1_at sb x h r q _ rfl

/-- An array of extended reals read at natural-number coordinates (zero outside the array). -/
noncomputable def rd {A B : Nat} (v : (⟨2, ![A, B]⟩ : Shape).Idx → EReal) (a b : Nat) : EReal :=
  if h : a < A ∧ b < B then v (ix2 ⟨a, h.1⟩ ⟨b, h.2⟩) else 0

theorem rd_eq {A B : Nat} (v : (⟨2, ![A, B]⟩ : Shape).Idx → EReal) (a : Fin A) (b : Fin B) :
    v (ix2 a b) = rd v a.val b.val := by
  unfold rd; rw [dif_pos ⟨a.isLt, b.isLt⟩]

end Cert.LibAt2
-- ==== Proof.PieceTac.lean ====
/-
  Closing steps shared by the three smoothing branches: once a branch's value at an index is spelt as a sum of
  five weighted reads at natural-number coordinates, it equals the five-tap average when the coordinates agree
  — arithmetic with the two reflections `dn` and `up`.
-/
import proofs.«159894_j34797825032657_2_alg».proof.Proof.Spec
import proofs.«159894_j34797825032657_2_alg».proof.Proof.LibAt2
import Idealize.ShloMosaic.Lib.ValueLayout

namespace Cert.KernelIdeal.Pieces

open Idealize.ShloMosaic Idealize.ShloMosaic.ValueIdx Cert.LibAt2 Cert.Wavelet

/-- Coordinate equalities: literal arithmetic, or the reflections unfolded and their cases split. -/
macro "idx_close" : tactic => `(tactic| (first | rfl | omega | (simp only [dn, up, Nat.reducePow, Nat.reduceMod, Nat.reduceMul, Fin.val_zero, Fin.isValue] <;> (try split_ifs) <;> omega) | (simp [dn, up] <;> omega)))

theorem rd_congr {A B : Nat} (v : (⟨2, ![A, B]⟩ : Shape).Idx → EReal) {a a' b b' : Nat} (ha : a = a') (hb : b = b') :
    rd v a b = rd v a' b' := by subst ha hb; rfl
theorem add_congr' {x x' y y' : EReal} (hx : x = x') (hy : y = y') : x + y = x' + y' := by subst hx hy; rfl
theorem mul_congr' {w x x' : EReal} (hx : x = x') : w * x = w * x' := by subst hx; rfl

/-- Two sums of weighted reads of `v` with the same weights are equal when the coordinates are, term by term. -/
macro "sum_close" v:term : tactic => `(tactic| (repeat' (first | exact rd_congr $v (by idx_close) (by idx_close) | apply add_congr' | apply mul_congr')))

/-- A 1024 × 1024 array recast with two leading unit axes, read at `(0, 0, r, q)`. -/
theorem shapeCast_ab_11ab_apply {a b : ℕ} {α : Type} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']; simp)

end Cert.KernelIdeal.Pieces
-- ==== Proof.PieceA.lean ====
import proofs.«159894_j34797825032657_2_alg».proof.Proof.Gen.KernelIdeal.Value
import proofs.«159894_j34797825032657_2_alg».proof.Proof.PieceStmts
import proofs.«159894_j34797825032657_2_alg».proof.Proof.PieceTac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- Push an index through the pointwise operations and the slices of the first branch's rows and columns. -/
macro "readA" : tactic => `(tactic| simp only [k0_pay11, k0_pay12, k0_pay13, k0_pay14, k0_pay16, k0_pay17, k0_pay20, k0_pay21, k0_pay23,
  ValueIdx.addf_apply, ValueIdx.mulf_apply, ValueIdx.broadcast_apply, slice_at', Matrix.cons_val_zero, Matrix.cons_val_one, Matrix.head_cons])
macro "specRows" v:term : tactic => `(tactic| simp only [rd_eq $v, alongRows, tap5, pos, w16, w4, w38, Ideal.ofBits_def, BitVec.toNat_ofNat])
macro "specCols" v:term : tactic => `(tactic| simp only [rd_eq $v, alongCols, tap5, pos, w16, w4, w38, Ideal.ofBits_def, BitVec.toNat_ofNat])

/-- Spacing 1 along the rows: the two top rows and the two bottom rows are spelt out with the reflected rows; every
    other row is read off the sum of five rotations, where no rotation wraps around. -/
theorem rowsA (v : Vec Ideal S1024x1024 .f32) (r q : Fin 1024) :
    k0_pay18 v (k0_pay11 v) (k0_pay15 v (k0_pay12 v) (k0_pay13 v) k0_pay14) (k0_pay16 v) (k0_pay17 v) (ix2 r q)
      = alongRows 1 (fun r q => v (ix2 r q)) r q := by
  unfold k0_pay18
  rcases Nat.lt_or_ge r.val 2 with h | h
  · rw [cat0_at _ _ r q 0 (by simp) 2 _ rfl 0 rfl ⟨r.val, h⟩ (by simp)]
    unfold k0_pay15
    obtain ⟨r, hr⟩ := r
    interval_cases r
    · rw [cat0_at _ _ _ q 0 (by simp) 1 _ rfl 0 rfl 0 rfl]
      readA; specRows v; sum_close v
    · rw [cat0_at _ _ _ q 1 (by simp) 1 _ rfl 1 rfl 0 rfl]
      readA; specRows v; sum_close v
  · rcases Nat.lt_or_ge r.val 1022 with h2 | h2
    · rw [cat0_at _ _ r q 1 (by simp) 1020 _ rfl 2 rfl ⟨r.val - 2, by omega⟩ (by simp; omega)]
      readA
      repeat rw [rot0_at']
      specRows v; sum_close v
    · rw [cat0_at _ _ r q 2 (by simp) 2 _ rfl 1022 rfl ⟨r.val - 1022, by omega⟩ (by simp; omega)]
      obtain ⟨r, hr⟩ := r
      interval_cases r
      · rw [cat0_at _ _ _ q 0 (by simp) 1 _ rfl 0 rfl 0 rfl]
        readA; specRows v; sum_close v
      · rw [cat0_at _ _ _ q 1 (by simp) 1 _ rfl 1 rfl 0 rfl]
        readA; specRows v; sum_close v

/-- Spacing 1 along the columns, of the image the rows' step left. -/
theorem colsA (v17 : Vec Ideal S1024x1024 .f32) (v36 : FVec Ideal S1024x1024 .f32) (v75 : FVec Ideal S2x1024 .f32)
    (v94 v97 : FVec Ideal S1x1024 .f32) (r q : Fin 1024) :
    k0_pay1 (k0_pay18 v17 v36 v75 v94 v97) (k0_pay19 v17 v36 v75 v94 v97)
      (k0_pay22 (k0_pay18 v17 v36 v75 v94 v97) (k0_pay20 v17 v36 v75 v94 v97) (k0_pay21 v17 v36 v75 v94 v97))
      (k0_pay23 (k0_pay18 v17 v36 v75 v94 v97)) (ix2 r q)
      = alongCols 1 (fun r q => k0_pay18 v17 v36 v75 v94 v97 (ix2 r q)) r q := by
  unfold k0_pay1 k0_pay19 k0_pay22 k0_pay20 k0_pay21 k0_pay23
  generalize k0_pay18 v17 v36 v75 v94 v97 = u
  rcases Nat.lt_or_ge q.val 2 with h | h
  · rw [cat1_at _ _ r q 0 (by simp) 2 _ rfl 0 rfl ⟨q.val, h⟩ (by simp)]
    obtain ⟨q, hq⟩ := q
    interval_cases q
    · rw [cat1_at _ _ r _ 0 (by simp) 1 _ rfl 0 rfl 0 rfl]
      readA; specCols u; sum_close u
    · rw [cat1_at _ _ r _ 1 (by simp) 1 _ rfl 1 rfl 0 rfl]
      readA; specCols u; sum_close u
  · rcases Nat.lt_or_ge q.val 1022 with h2 | h2
    · rw [cat1_at _ _ r q 1 (by simp) 1020 _ rfl 2 rfl ⟨q.val - 2, by omega⟩ (by simp; omega)]
      readA
      repeat rw [rot1_at']
      specCols u; sum_close u
    · rw [cat1_at _ _ r q 2 (by simp) 2 _ rfl 1022 rfl ⟨q.val - 1022, by omega⟩ (by simp; omega)]
      obtain ⟨q, hq⟩ := q
      interval_cases q
      · rw [cat1_at _ _ r _ 0 (by simp) 1 _ rfl 0 rfl 0 rfl]
        readA; specCols u; sum_close u
      · rw [cat1_at _ _ r _ 1 (by simp) 1 _ rfl 1 rfl 0 rfl]
        readA; specCols u; sum_close u

end Cert.KernelIdeal.Pieces

end
-- ==== Proof.PieceAStmt.lean ====
import proofs.«159894_j34797825032657_2_alg».proof.Proof.Gen.KernelIdeal.Value
import proofs.«159894_j34797825032657_2_alg».proof.Proof.PieceStmts
import proofs.«159894_j34797825032657_2_alg».proof.Proof.PieceTac
import Idealize.ShloMosaic.Lib.Pipeline.Value
import Idealize.ShloMosaic.Lib.ValueIdx
import Idealize.ShloMosaic.Lib.ValueLayout
import proofs.«159894_j34797825032657_2_alg».proof.Proof.PieceA

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

private theorem hz2 : (![0, 0] : Fin 2 → Nat) = fun _ => 0 := by funext a; fin_cases a <;> rfl
private theorem hz3 : (![0, 0, 0] : Fin 3 → Nat) = fun _ => 0 := by funext a; fin_cases a <;> rfl
private theorem hz4 : (![0, 0, 0, 0] : Fin 4 → Nat) = fun _ => 0 := by funext a; fin_cases a <;> rfl

/-- The seeding copy: the input block recast to two axes is the block's image. -/
theorem seedA (x0 : Vec Ideal S1x1024x1024 .f32) (r q : Fin 1024) : k0_pay10 x0 (ix2 r q) = im3 x0 r q := by
  unfold k0_pay10
  rw [shapeCast_self]
  exact shapeCast_1ab_ab_apply x0 _ r q

/-- The first branch's smoothed image at `(r, q)`: columns of rows of the seeded image. -/
theorem smoothA (x0 : Vec Ideal S1x1024x1024 .f32) (r q : Fin 1024) :
    k0_pay1 (k0_pay18 (k0_pay10 x0) (k0_pay11 (k0_pay10 x0)) (k0_pay15 (k0_pay10 x0) (k0_pay12 (k0_pay10 x0)) (k0_pay13 (k0_pay10 x0)) k0_pay14) (k0_pay16 (k0_pay10 x0)) (k0_pay17 (k0_pay10 x0)))
      (k0_pay19 (k0_pay10 x0) (k0_pay11 (k0_pay10 x0)) (k0_pay15 (k0_pay10 x0) (k0_pay12 (k0_pay10 x0)) (k0_pay13 (k0_pay10 x0)) k0_pay14) (k0_pay16 (k0_pay10 x0)) (k0_pay17 (k0_pay10 x0)))
      (k0_pay22 (k0_pay18 (k0_pay10 x0) (k0_pay11 (k0_pay10 x0)) (k0_pay15 (k0_pay10 x0) (k0_pay12 (k0_pay10 x0)) (k0_pay13 (k0_pay10 x0)) k0_pay14) (k0_pay16 (k0_pay10 x0)) (k0_pay17 (k0_pay10 x0)))
        (k0_pay20 (k0_pay10 x0) (k0_pay11 (k0_pay10 x0)) (k0_pay15 (k0_pay10 x0) (k0_pay12 (k0_pay10 x0)) (k0_pay13 (k0_pay10 x0)) k0_pay14) (k0_pay16 (k0_pay10 x0)) (k0_pay17 (k0_pay10 x0)))
        (k0_pay21 (k0_pay10 x0) (k0_pay11 (k0_pay10 x0)) (k0_pay15 (k0_pay10 x0) (k0_pay12 (k0_pay10 x0)) (k0_pay13 (k0_pay10 x0)) k0_pay14) (k0_pay16 (k0_pay10 x0)) (k0_pay17 (k0_pay10 x0))))
      (k0_pay23 (k0_pay18 (k0_pay10 x0) (k0_pay11 (k0_pay10 x0)) (k0_pay15 (k0_pay10 x0) (k0_pay12 (k0_pay10 x0)) (k0_pay13 (k0_pay10 x0)) k0_pay14) (k0_pay16 (k0_pay10 x0)) (k0_pay17 (k0_pay10 x0)))) (ix2 r q)
      = smooth 1 (im3 x0) r q := by
  refine (colsA _ _ _ _ _ r q).trans ?_
  unfold smooth
  refine congrArg (fun f => alongCols 1 f r q) (funext fun r' => funext fun q' => ?_)
  refine (rowsA _ r' q').trans ?_
  refine congrArg (fun f => alongRows 1 f r' q') (funext fun a => funext fun b => ?_)
  exact seedA x0 a b

set_option maxHeartbeats 1000000 in
/-- What the first branch keeps. -/
theorem keptA (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : cond0_0 i) (hc1 : ¬cond0_1 i) (hc2 : ¬cond0_2 i) (hc3 : ¬cond0_3 i) (x0 : Vec Ideal S1x1024x1024 .f32) :
    sout0_A_0 (F := Ideal) c i arg2 harg2 arg3 harg3 arg4 harg4 hc0 hc1 hc2 hc3 x0 = of2 (smooth 1 (im3 x0)) := by
  unfold sout0_A_0
  rw [View.read_writes_eq_canon _ _ _ (scover0_A_0 c i arg2 harg2 arg3 harg3 arg4 harg4 hc0 hc1 hc2 hc3 x0)]
  unfold kernelRun0_A
  dsimp only
  sl_unfold_words
  generalize hS : arg4.view.readCov (Val := Elt Ideal) _ _ = S
  rw [View.readCov_unit_zero _ hz2, View.readAt_eq_ld, harg2.read_unread, View.ld_unit_zero (S := S1x1024x1024) hz3] at hS
  subst hS
  refine (View.canon_cons_unit_zero (S := S1024x1024) hz2 _ _ _).trans ?_
  funext j
  obtain ⟨r, q, rfl⟩ : ∃ (r : Fin 1024) (q : Fin 1024), j = ix2 r q := ⟨j 0, j 1, eq_ix2 j⟩
  unfold k0_pay3
  rw [shapeCast_self]
  exact smoothA x0 r q

set_option maxHeartbeats 1000000 in
/-- What the first branch writes to the output block: the image less its smoothing. -/
theorem outA (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : cond0_0 i) (hc1 : ¬cond0_1 i) (hc2 : ¬cond0_2 i) (hc3 : ¬cond0_3 i) (x0 : Vec Ideal S1x1024x1024 .f32) :
    out0_A_1 (F := Ideal) c i arg2 harg2 arg3 harg3 arg4 harg4 hc0 hc1 hc2 hc3 x0 = of4 (fun r q => im3 x0 r q - smooth 1 (im3 x0) r q) := by
  unfold out0_A_1
  rw [View.read_writes_eq_canon _ _ _ (cover0_A_1 c i arg2 harg2 arg3 harg3 arg4 harg4 hc0 hc1 hc2 hc3 x0)]
  unfold kernelRun0_A
  dsimp only
  sl_unfold_words
  generalize hS : arg4.view.readCov (Val := Elt Ideal) _ _ = S
  rw [View.readCov_unit_zero _ hz2, View.readAt_eq_ld, harg2.read_unread, View.ld_unit_zero (S := S1x1024x1024) hz3] at hS
  subst hS
  refine (View.canon_unit_zero (S := S1x1x1024x1024) hz4 _ _).trans ?_
  funext j
  obtain ⟨u, u', r, q, rfl⟩ : ∃ (u u' : Fin 1) (r q : Fin 1024), j = ix4 u u' r q := ⟨j 0, j 1, j 2, j 3, eq_ix4 j⟩
  unfold k0_pay2
  rw [shapeCast_ab_11ab_apply, ValueIdx.subf_apply, seedA, smoothA]
  rfl

/-- The first branch, both things it leaves. -/
theorem stmtA : StmtA := fun c i arg2 harg2 arg3 harg3 arg4 harg4 hc0 hc1 hc2 hc3 x0 =>
  ⟨keptA c i arg2 harg2 arg3 harg3 arg4 harg4 hc0 hc1 hc2 hc3 x0, outA c i arg2 harg2 arg3 harg3 arg4 harg4 hc0 hc1 hc2 hc3 x0⟩

end Cert.KernelIdeal.Pieces

end
-- ==== Proof.PieceB_tac.lean ====
/-
  Rewriting steps shared by the second branch's rows and columns: an index pushed through the pointwise operations
  and the slices, and the five-tap average spelt as a sum of weighted reads at natural-number coordinates.
-/
import proofs.«159894_j34797825032657_2_alg».proof.Proof.Gen.KernelIdeal.Value
import proofs.«159894_j34797825032657_2_alg».proof.Proof.PieceStmts
import proofs.«159894_j34797825032657_2_alg».proof.Proof.PieceTac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- Push an index through the pointwise operations and the slices of the second branch's rows and columns. -/
macro "readB" : tactic => `(tactic| simp only [k0_pay24, k0_pay25, k0_pay26, k0_pay27, k0_pay28, k0_pay29, k0_pay30, k0_pay32, k0_pay33, k0_pay34, k0_pay35,
  k0_pay38, k0_pay39, k0_pay40, k0_pay42, k0_pay43, k0_pay44, k0_pay45, k0_pay46, k0_pay47,
  ValueIdx.addf_apply, ValueIdx.mulf_apply, ValueIdx.broadcast_apply, slice_at', Matrix.cons_val_zero, Matrix.cons_val_one, Matrix.head_cons])
macro "specRowsB" v:term : tactic => `(tactic| simp only [rd_eq $v, alongRows, tap5, pos, w16, w4, w38, Ideal.ofBits_def, BitVec.toNat_ofNat])
macro "specColsB" v:term : tactic => `(tactic| simp only [rd_eq $v, alongCols, tap5, pos, w16, w4, w38, Ideal.ofBits_def, BitVec.toNat_ofNat])

end Cert.KernelIdeal.Pieces

end
-- ==== Proof.PieceB_rows.lean ====
/-
  The second branch's rows step, read at an index: the five-tap average with spacing 2 along the rows.
-/
import proofs.«159894_j34797825032657_2_alg».proof.Proof.Gen.KernelIdeal.Value
import proofs.«159894_j34797825032657_2_alg».proof.Proof.PieceStmts
import proofs.«159894_j34797825032657_2_alg».proof.Proof.PieceTac
import proofs.«159894_j34797825032657_2_alg».proof.Proof.PieceB_tac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- Spacing 2 along the rows, the four top rows: each is spelt out with the rows reflected about row 0. -/
theorem rowsB_top (v : Vec Ideal S1024x1024 .f32) (r q : Fin 1024) (h : r.val < 4) :
    k0_pay36 v (k0_pay24 v) (k0_pay31 v (k0_pay25 v) (k0_pay27 v (k0_pay26 v)) (k0_pay28 v) (k0_pay29 v) (k0_pay30 v) (Scalar.ofBits .f32 0x3E800000#32))
        (k0_pay32 v) (k0_pay33 v) (k0_pay34 v) k0_pay35 (ix2 r q)
      = alongRows 2 (fun r q => v (ix2 r q)) r q := by
  unfold k0_pay36
  rw [cat0_at _ _ r q 0 (by simp) 4 _ rfl 0 rfl ⟨r.val, h⟩ (by simp)]
  unfold k0_pay31
  obtain ⟨r, hr⟩ := r
  interval_cases r
  · rw [cat0_at _ _ _ q 0 (by simp) 1 _ rfl 0 rfl 0 rfl]
    readB; specRowsB v; sum_close v
  · rw [cat0_at _ _ _ q 1 (by simp) 1 _ rfl 1 rfl 0 rfl]
    readB; specRowsB v; sum_close v
  · rw [cat0_at _ _ _ q 2 (by simp) 1 _ rfl 2 rfl 0 rfl]
    readB; specRowsB v; sum_close v
  · rw [cat0_at _ _ _ q 3 (by simp) 1 _ rfl 3 rfl 0 rfl]
    readB; specRowsB v; sum_close v

/-- The rows in between are read off the sum of five rotations, where no rotation wraps around. -/
theorem rowsB_mid (v : Vec Ideal S1024x1024 .f32) (r q : Fin 1024) (h : 4 ≤ r.val) (h2 : r.val < 1020) :
    k0_pay36 v (k0_pay24 v) (k0_pay31 v (k0_pay25 v) (k0_pay27 v (k0_pay26 v)) (k0_pay28 v) (k0_pay29 v) (k0_pay30 v) (Scalar.ofBits .f32 0x3E800000#32))
        (k0_pay32 v) (k0_pay33 v) (k0_pay34 v) k0_pay35 (ix2 r q)
      = alongRows 2 (fun r q => v (ix2 r q)) r q := by
  unfold k0_pay36
  rw [cat0_at _ _ r q 1 (by simp) 1016 _ rfl 4 rfl ⟨r.val - 4, by omega⟩ (by simp; omega)]
  readB
  repeat rw [rot0_at']
  specRowsB v; sum_close v

/-- The four bottom rows: each is spelt out with the rows reflected about row 1023. -/
theorem rowsB_bot (v : Vec Ideal S1024x1024 .f32) (r q : Fin 1024) (h2 : 1020 ≤ r.val) :
    k0_pay36 v (k0_pay24 v) (k0_pay31 v (k0_pay25 v) (k0_pay27 v (k0_pay26 v)) (k0_pay28 v) (k0_pay29 v) (k0_pay30 v) (Scalar.ofBits .f32 0x3E800000#32))
        (k0_pay32 v) (k0_pay33 v) (k0_pay34 v) k0_pay35 (ix2 r q)
      = alongRows 2 (fun r q => v (ix2 r q)) r q := by
  unfold k0_pay36
  rw [cat0_at _ _ r q 2 (by simp) 4 _ rfl 1020 rfl ⟨r.val - 1020, by omega⟩ (by simp; omega)]
  obtain ⟨r, hr⟩ := r
  interval_cases r
  · rw [cat0_at _ _ _ q 0 (by simp) 1 _ rfl 0 rfl 0 rfl]
    readB; specRowsB v; sum_close v
  · rw [cat0_at _ _ _ q 1 (by simp) 1 _ rfl 1 rfl 0 rfl]
    readB; specRowsB v; sum_close v
  · rw [cat0_at _ _ _ q 2 (by simp) 1 _ rfl 2 rfl 0 rfl]
    readB; specRowsB v; sum_close v
  · rw [cat0_at _ _ _ q 3 (by simp) 1 _ rfl 3 rfl 0 rfl]
    readB; specRowsB v; sum_close v

/-- Spacing 2 along the rows. -/
theorem rowsB (v : Vec Ideal S1024x1024 .f32) (r q : Fin 1024) :
    k0_pay36 v (k0_pay24 v) (k0_pay31 v (k0_pay25 v) (k0_pay27 v (k0_pay26 v)) (k0_pay28 v) (k0_pay29 v) (k0_pay30 v) (Scalar.ofBits .f32 0x3E800000#32))
        (k0_pay32 v) (k0_pay33 v) (k0_pay34 v) k0_pay35 (ix2 r q)
      = alongRows 2 (fun r q => v (ix2 r q)) r q := by
  rcases Nat.lt_or_ge r.val 4 with h | h
  · exact rowsB_top v r q h
  · rcases Nat.lt_or_ge r.val 1020 with h2 | h2
    · exact rowsB_mid v r q h h2
    · exact rowsB_bot v r q h2

end Cert.KernelIdeal.Pieces

end
-- ==== Proof.PieceB_cols.lean ====
/-
  The second branch's columns step, read at an index: the five-tap average with spacing 2 along the columns of the
  image the rows' step left.
-/
import proofs.«159894_j34797825032657_2_alg».proof.Proof.Gen.KernelIdeal.Value
import proofs.«159894_j34797825032657_2_alg».proof.Proof.PieceStmts
import proofs.«159894_j34797825032657_2_alg».proof.Proof.PieceTac
import proofs.«159894_j34797825032657_2_alg».proof.Proof.PieceB_tac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- Spacing 2 along the columns of the image the rows' step left, the four left columns: each is spelt out with the
    columns reflected about column 0. -/
theorem colsB_left (v12 : Vec Ideal S1024x1024 .f32) (v31 : FVec Ideal S1024x1024 .f32) (v108 : FVec Ideal S4x1024 .f32)
    (v127 v146 v147 v148 : FVec Ideal S1x1024 .f32) (r q : Fin 1024) (h : q.val < 4) :
    k0_pay4 (k0_pay36 v12 v31 v108 v127 v146 v147 v148) (k0_pay38 (k0_pay36 v12 v31 v108 v127 v146 v147 v148) (k0_pay37 v12 v31 v108 v127 v146 v147 v148) 0#32)
      (k0_pay41 (k0_pay36 v12 v31 v108 v127 v146 v147 v148) (k0_pay39 (k0_pay36 v12 v31 v108 v127 v146 v147 v148)) (k0_pay40 (k0_pay36 v12 v31 v108 v127 v146 v147 v148)))
      (k0_pay44 (k0_pay36 v12 v31 v108 v127 v146 v147 v148) (k0_pay42 (k0_pay36 v12 v31 v108 v127 v146 v147 v148)) (k0_pay43 (k0_pay36 v12 v31 v108 v127 v146 v147 v148)) (Scalar.ofBits .f32 0x3E800000#32))
      (k0_pay45 (k0_pay36 v12 v31 v108 v127 v146 v147 v148)) (k0_pay46 (k0_pay36 v12 v31 v108 v127 v146 v147 v148)) (k0_pay47 (k0_pay36 v12 v31 v108 v127 v146 v147 v148)) (ix2 r q)
      = alongCols 2 (fun r q => (k0_pay36 v12 v31 v108 v127 v146 v147 v148) (ix2 r q)) r q := by
  unfold k0_pay4 k0_pay37
  generalize k0_pay36 v12 v31 v108 v127 v146 v147 v148 = u
  rw [cat1_at _ _ r q 0 (by simp) 4 _ rfl 0 rfl ⟨q.val, h⟩ (by simp)]
  unfold k0_pay41
  obtain ⟨q, hq⟩ := q
  interval_cases q
  · rw [cat1_at _ _ r _ 0 (by simp) 1 _ rfl 0 rfl 0 rfl]
    readB; specColsB u; sum_close u
  · rw [cat1_at _ _ r _ 1 (by simp) 1 _ rfl 1 rfl 0 rfl]
    readB; specColsB u; sum_close u
  · rw [cat1_at _ _ r _ 2 (by simp) 1 _ rfl 2 rfl 0 rfl]
    readB; specColsB u; sum_close u
  · rw [cat1_at _ _ r _ 3 (by simp) 1 _ rfl 3 rfl 0 rfl]
    readB; specColsB u; sum_close u

/-- The columns in between are read off the sum of five rotations, where no rotation wraps around. -/
theorem colsB_mid (v12 : Vec Ideal S1024x1024 .f32) (v31 : FVec Ideal S1024x1024 .f32) (v108 : FVec Ideal S4x1024 .f32)
    (v127 v146 v147 v148 : FVec Ideal S1x1024 .f32) (r q : Fin 1024) (h : 4 ≤ q.val) (h2 : q.val < 1020) :
    k0_pay4 (k0_pay36 v12 v31 v108 v127 v146 v147 v148) (k0_pay38 (k0_pay36 v12 v31 v108 v127 v146 v147 v148) (k0_pay37 v12 v31 v108 v127 v146 v147 v148) 0#32)
      (k0_pay41 (k0_pay36 v12 v31 v108 v127 v146 v147 v148) (k0_pay39 (k0_pay36 v12 v31 v108 v127 v146 v147 v148)) (k0_pay40 (k0_pay36 v12 v31 v108 v127 v146 v147 v148)))
      (k0_pay44 (k0_pay36 v12 v31 v108 v127 v146 v147 v148) (k0_pay42 (k0_pay36 v12 v31 v108 v127 v146 v147 v148)) (k0_pay43 (k0_pay36 v12 v31 v108 v127 v146 v147 v148)) (Scalar.ofBits .f32 0x3E800000#32))
      (k0_pay45 (k0_pay36 v12 v31 v108 v127 v146 v147 v148)) (k0_pay46 (k0_pay36 v12 v31 v108 v127 v146 v147 v148)) (k0_pay47 (k0_pay36 v12 v31 v108 v127 v146 v147 v148)) (ix2 r q)
      = alongCols 2 (fun r q => (k0_pay36 v12 v31 v108 v127 v146 v147 v148) (ix2 r q)) r q := by
  unfold k0_pay4 k0_pay37
  generalize k0_pay36 v12 v31 v108 v127 v146 v147 v148 = u
  rw [cat1_at _ _ r q 1 (by simp) 1016 _ rfl 4 rfl ⟨q.val - 4, by omega⟩ (by simp; omega)]
  readB
  repeat rw [rot1_at']
  specColsB u; sum_close u

/-- The four right columns: each is spelt out with the columns reflected about column 1023. -/
theorem colsB_right (v12 : Vec Ideal S1024x1024 .f32) (v31 : FVec Ideal S1024x1024 .f32) (v108 : FVec Ideal S4x1024 .f32)
    (v127 v146 v147 v148 : FVec Ideal S1x1024 .f32) (r q : Fin 1024) (h2 : 1020 ≤ q.val) :
    k0_pay4 (k0_pay36 v12 v31 v108 v127 v146 v147 v148) (k0_pay38 (k0_pay36 v12 v31 v108 v127 v146 v147 v148) (k0_pay37 v12 v31 v108 v127 v146 v147 v148) 0#32)
      (k0_pay41 (k0_pay36 v12 v31 v108 v127 v146 v147 v148) (k0_pay39 (k0_pay36 v12 v31 v108 v127 v146 v147 v148)) (k0_pay40 (k0_pay36 v12 v31 v108 v127 v146 v147 v148)))
      (k0_pay44 (k0_pay36 v12 v31 v108 v127 v146 v147 v148) (k0_pay42 (k0_pay36 v12 v31 v108 v127 v146 v147 v148)) (k0_pay43 (k0_pay36 v12 v31 v108 v127 v146 v147 v148)) (Scalar.ofBits .f32 0x3E800000#32))
      (k0_pay45 (k0_pay36 v12 v31 v108 v127 v146 v147 v148)) (k0_pay46 (k0_pay36 v12 v31 v108 v127 v146 v147 v148)) (k0_pay47 (k0_pay36 v12 v31 v108 v127 v146 v147 v148)) (ix2 r q)
      = alongCols 2 (fun r q => (k0_pay36 v12 v31 v108 v127 v146 v147 v148) (ix2 r q)) r q := by
  unfold k0_pay4 k0_pay37
  generalize k0_pay36 v12 v31 v108 v127 v146 v147 v148 = u
  rw [cat1_at _ _ r q 2 (by simp) 4 _ rfl 1020 rfl ⟨q.val - 1020, by omega⟩ (by simp; omega)]
  obtain ⟨q, hq⟩ := q
  interval_cases q
  · rw [cat1_at _ _ r _ 0 (by simp) 1 _ rfl 0 rfl 0 rfl]
    readB; specColsB u; sum_close u
  · rw [cat1_at _ _ r _ 1 (by simp) 1 _ rfl 1 rfl 0 rfl]
    readB; specColsB u; sum_close u
  · rw [cat1_at _ _ r _ 2 (by simp) 1 _ rfl 2 rfl 0 rfl]
    readB; specColsB u; sum_close u
  · rw [cat1_at _ _ r _ 3 (by simp) 1 _ rfl 3 rfl 0 rfl]
    readB; specColsB u; sum_close u

/-- Spacing 2 along the columns, of the image the rows' step left. -/
theorem colsB (v12 : Vec Ideal S1024x1024 .f32) (v31 : FVec Ideal S1024x1024 .f32) (v108 : FVec Ideal S4x1024 .f32)
    (v127 v146 v147 v148 : FVec Ideal S1x1024 .f32) (r q : Fin 1024) :
    k0_pay4 (k0_pay36 v12 v31 v108 v127 v146 v147 v148) (k0_pay38 (k0_pay36 v12 v31 v108 v127 v146 v147 v148) (k0_pay37 v12 v31 v108 v127 v146 v147 v148) 0#32)
      (k0_pay41 (k0_pay36 v12 v31 v108 v127 v146 v147 v148) (k0_pay39 (k0_pay36 v12 v31 v108 v127 v146 v147 v148)) (k0_pay40 (k0_pay36 v12 v31 v108 v127 v146 v147 v148)))
      (k0_pay44 (k0_pay36 v12 v31 v108 v127 v146 v147 v148) (k0_pay42 (k0_pay36 v12 v31 v108 v127 v146 v147 v148)) (k0_pay43 (k0_pay36 v12 v31 v108 v127 v146 v147 v148)) (Scalar.ofBits .f32 0x3E800000#32))
      (k0_pay45 (k0_pay36 v12 v31 v108 v127 v146 v147 v148)) (k0_pay46 (k0_pay36 v12 v31 v108 v127 v146 v147 v148)) (k0_pay47 (k0_pay36 v12 v31 v108 v127 v146 v147 v148)) (ix2 r q)
      = alongCols 2 (fun r q => (k0_pay36 v12 v31 v108 v127 v146 v147 v148) (ix2 r q)) r q := by
  rcases Nat.lt_or_ge q.val 4 with h | h
  · exact colsB_left v12 v31 v108 v127 v146 v147 v148 r q h
  · rcases Nat.lt_or_ge q.val 1020 with h2 | h2
    · exact colsB_mid v12 v31 v108 v127 v146 v147 v148 r q h h2
    · exact colsB_right v12 v31 v108 v127 v146 v147 v148 r q h2

end Cert.KernelIdeal.Pieces

end
-- ==== Proof.PieceB.lean ====
/-
  The kernel's second branch: from the kept image it leaves the image smoothed with spacing 2 in the kept buffer and
  the difference of the two in the output block.
-/
import proofs.«159894_j34797825032657_2_alg».proof.Proof.Gen.KernelIdeal.Value
import proofs.«159894_j34797825032657_2_alg».proof.Proof.PieceStmts
import proofs.«159894_j34797825032657_2_alg».proof.Proof.PieceTac
import proofs.«159894_j34797825032657_2_alg».proof.Proof.PieceB_rows
import proofs.«159894_j34797825032657_2_alg».proof.Proof.PieceB_cols
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

theorem hzB2 : (![0, 0] : Fin 2 → Nat) = fun _ => 0 := funext fun a => by fin_cases a <;> rfl
theorem hzB4 : (![0, 0, 0, 0] : Fin 4 → Nat) = fun _ => 0 := funext fun a => by fin_cases a <;> rfl

/-- The rows' step of the second branch, as a function of the kept image. -/
abbrev rowsTB (v : Vec Ideal S1024x1024 .f32) : FVec Ideal S1024x1024 .f32 :=
  (k0_pay36 v (k0_pay24 v) (k0_pay31 v (k0_pay25 v) (k0_pay27 v (k0_pay26 v)) (k0_pay28 v) (k0_pay29 v) (k0_pay30 v) (Scalar.ofBits .f32 0x3E800000#32)) (k0_pay32 v) (k0_pay33 v) (k0_pay34 v) k0_pay35)

/-- The rows' step then the columns' step of the second branch. -/
abbrev smoothTB (v : Vec Ideal S1024x1024 .f32) : FVec Ideal S1024x1024 .f32 :=
  k0_pay4 (rowsTB v) (k0_pay38 (rowsTB v) (k0_pay37 v (k0_pay24 v) (k0_pay31 v (k0_pay25 v) (k0_pay27 v (k0_pay26 v)) (k0_pay28 v) (k0_pay29 v) (k0_pay30 v) (Scalar.ofBits .f32 0x3E800000#32)) (k0_pay32 v) (k0_pay33 v) (k0_pay34 v) k0_pay35) 0#32)
    (k0_pay41 (rowsTB v) (k0_pay39 (rowsTB v)) (k0_pay40 (rowsTB v)))
    (k0_pay44 (rowsTB v) (k0_pay42 (rowsTB v)) (k0_pay43 (rowsTB v)) (Scalar.ofBits .f32 0x3E800000#32))
    (k0_pay45 (rowsTB v)) (k0_pay46 (rowsTB v)) (k0_pay47 (rowsTB v))

/-- The two steps together are the smoothing with spacing 2. -/
theorem smoothTB_at (v : Vec Ideal S1024x1024 .f32) (r q : Fin 1024) :
    smoothTB v (ix2 r q) = smooth 2 (im2 v) r q := by
  refine (colsB v (k0_pay24 v) (k0_pay31 v (k0_pay25 v) (k0_pay27 v (k0_pay26 v)) (k0_pay28 v) (k0_pay29 v) (k0_pay30 v) (Scalar.ofBits .f32 0x3E800000#32)) (k0_pay32 v) (k0_pay33 v) (k0_pay34 v) k0_pay35 r q).trans ?_
  exact congrArg (fun y : Fin 1024 → Fin 1024 → EReal => alongCols 2 y r q) (funext fun r' => funext fun q' => rowsB v r' q')

/-- The second branch's kept buffer. -/
theorem keptB (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : cond0_1 i) (hc2 : ¬cond0_2 i) (hc3 : ¬cond0_3 i) (x0 : Vec Ideal S1x1024x1024 .f32) (xs0 : Vec Ideal S1024x1024 .f32) :
    sout0_B_0 (F := Ideal) c i arg2 harg2 arg3 harg3 arg4 harg4 hc0 hc1 hc2 hc3 x0 xs0 = of2 (smooth 2 (im2 xs0)) := by
  unfold sout0_B_0
  rw [View.read_writes_eq_canon _ _ _ (scover0_B_0 c i arg2 harg2 arg3 harg3 arg4 harg4 hc0 hc1 hc2 hc3 x0 xs0)]
  unfold kernelRun0_B
  dsimp only
  sl_unfold_words
  rw [View.canon_unit_zero hzB2]
  simp only [View.readAt_eq_ld, harg4.read_unread, View.ld_unit_zero (S := S1024x1024) hzB2]
  funext j
  obtain ⟨r, q, rfl⟩ : ∃ (r : Fin 1024) (q : Fin 1024), j = ix2 r q := ⟨j 0, j 1, eq_ix2 j⟩
  unfold k0_pay6
  rw [shapeCast_self]
  exact smoothTB_at xs0 r q

/-- The second branch's output block. -/
theorem outB (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : cond0_1 i) (hc2 : ¬cond0_2 i) (hc3 : ¬cond0_3 i) (x0 : Vec Ideal S1x1024x1024 .f32) (xs0 : Vec Ideal S1024x1024 .f32) :
    out0_B_1 (F := Ideal) c i arg2 harg2 arg3 harg3 arg4 harg4 hc0 hc1 hc2 hc3 x0 xs0 = of4 (fun r q => im2 xs0 r q - smooth 2 (im2 xs0) r q) := by
  unfold out0_B_1
  rw [View.read_writes_eq_canon _ _ _ (cover0_B_1 c i arg2 harg2 arg3 harg3 arg4 harg4 hc0 hc1 hc2 hc3 x0 xs0)]
  unfold kernelRun0_B
  dsimp only
  sl_unfold_words
  rw [View.canon_unit_zero hzB4]
  simp only [View.readAt_eq_ld, harg4.read_unread, View.ld_unit_zero (S := S1024x1024) hzB2]
  funext j
  obtain ⟨a, b, r, q, rfl⟩ : ∃ (a b : Fin 1) (r : Fin 1024) (q : Fin 1024), j = ix4 a b r q := ⟨j 0, j 1, j 2, j 3, eq_ix4 j⟩
  unfold k0_pay5
  rw [shapeCast_ab_11ab_apply, ValueIdx.subf_apply]
  exact congrArg (fun z : EReal => xs0 (ix2 r q) - z) (smoothTB_at xs0 r q)

theorem stmtB : StmtB := fun c i arg2 harg2 arg3 harg3 arg4 harg4 hc0 hc1 hc2 hc3 x0 xs0 =>
  ⟨keptB c i arg2 harg2 arg3 harg3 arg4 harg4 hc0 hc1 hc2 hc3 x0 xs0, outB c i arg2 harg2 arg3 harg3 arg4 harg4 hc0 hc1 hc2 hc3 x0 xs0⟩

end Cert.KernelIdeal.Pieces

end
-- ==== Proof.PieceC_rows.lean ====
/-
  The third branch's step along the rows, spacing 4: the value at row `r`, column `q` is the five-tap average of
  column `q` at row `r`. The eight top rows and the eight bottom rows are spelt out, each as a sum over the reflected
  rows; every other row is read off the sum of five rotations, where no rotation wraps around.
-/
import proofs.«159894_j34797825032657_2_alg».proof.Proof.Gen.KernelIdeal.Value
import proofs.«159894_j34797825032657_2_alg».proof.Proof.PieceStmts
import proofs.«159894_j34797825032657_2_alg».proof.Proof.PieceTac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- Push an index through the pointwise operations and the slices of the third branch's rows. -/
macro "readCr" : tactic => `(tactic| simp only [k0_pay48, k0_pay49, k0_pay50, k0_pay51, k0_pay52, k0_pay53, k0_pay54, k0_pay55, k0_pay56, k0_pay57, k0_pay58, k0_pay60, k0_pay61, k0_pay62, k0_pay63, k0_pay64, k0_pay65, k0_pay66, k0_pay67, k0_pay68, k0_pay69, k0_pay70,
  ValueIdx.addf_apply, ValueIdx.mulf_apply, ValueIdx.broadcast_apply, slice_at', Matrix.cons_val_zero, Matrix.cons_val_one, Matrix.head_cons])
macro "specRowsC" v:term : tactic => `(tactic| simp only [rd_eq $v, alongRows, tap5, pos, w16, w4, w38, Ideal.ofBits_def, BitVec.toNat_ofNat])

/-- The rows' step of the third branch over the kept image `v`, as the kernel composes it. -/
def rowsTermC (v : Vec Ideal S1024x1024 .f32) : FVec Ideal S1024x1024 .f32 :=
  k0_pay71 v (k0_pay48 v)
    (k0_pay59 v (k0_pay49 v) (k0_pay51 v (k0_pay50 v)) (k0_pay52 v)
      (k0_pay55 v (k0_pay53 v) (k0_pay54 v) (Scalar.ofBits (F := Ideal) .f32 0x3E800000#32)) (k0_pay56 v) (k0_pay57 v) (k0_pay58 v))
    (k0_pay62 v (k0_pay60 v) (k0_pay61 v)) (k0_pay63 v) (k0_pay64 v) (k0_pay67 v (k0_pay65 v) k0_pay66)
    (k0_pay68 v) (k0_pay69 v) (k0_pay70 v)

set_option maxHeartbeats 1600000 in
/-- The eight top rows. -/
theorem rowsC_lo (v : Vec Ideal S1024x1024 .f32) (r q : Fin 1024) (h : r.val < 8) :
    rowsTermC v (ix2 r q) = alongRows 4 (fun r q => v (ix2 r q)) r q := by
  unfold rowsTermC k0_pay71
  rw [cat0_at _ _ r q 0 (by simp) 8 _ rfl 0 rfl ⟨r.val, h⟩ (by simp)]
  unfold k0_pay59
  obtain ⟨r, hr⟩ := r
  interval_cases r
  · rw [cat0_at _ _ _ q 0 (by simp) 1 _ rfl 0 rfl 0 rfl]
    readCr; specRowsC v; sum_close v
  · rw [cat0_at _ _ _ q 1 (by simp) 1 _ rfl 1 rfl 0 rfl]
    readCr; specRowsC v; sum_close v
  · rw [cat0_at _ _ _ q 2 (by simp) 1 _ rfl 2 rfl 0 rfl]
    readCr; specRowsC v; sum_close v
  · rw [cat0_at _ _ _ q 3 (by simp) 1 _ rfl 3 rfl 0 rfl]
    readCr; specRowsC v; sum_close v
  · rw [cat0_at _ _ _ q 4 (by simp) 1 _ rfl 4 rfl 0 rfl]
    readCr; specRowsC v; sum_close v
  · rw [cat0_at _ _ _ q 5 (by simp) 1 _ rfl 5 rfl 0 rfl]
    readCr; specRowsC v; sum_close v
  · rw [cat0_at _ _ _ q 6 (by simp) 1 _ rfl 6 rfl 0 rfl]
    readCr; specRowsC v; sum_close v
  · rw [cat0_at _ _ _ q 7 (by simp) 1 _ rfl 7 rfl 0 rfl]
    readCr; specRowsC v; sum_close v

set_option maxHeartbeats 1600000 in
/-- The middle: the slice of the sum of five rotations. -/
theorem rowsC_mid (v : Vec Ideal S1024x1024 .f32) (r q : Fin 1024) (h : 8 ≤ r.val) (h2 : r.val < 1016) :
    rowsTermC v (ix2 r q) = alongRows 4 (fun r q => v (ix2 r q)) r q := by
  unfold rowsTermC k0_pay71
  rw [cat0_at _ _ r q 1 (by simp) 1008 _ rfl 8 rfl ⟨r.val - 8, by omega⟩ (by simp; omega)]
  readCr
  repeat rw [rot0_at']
  specRowsC v; sum_close v

set_option maxHeartbeats 1600000 in
/-- The eight bottom rows. -/
theorem rowsC_hi (v : Vec Ideal S1024x1024 .f32) (r q : Fin 1024) (h2 : 1016 ≤ r.val) :
    rowsTermC v (ix2 r q) = alongRows 4 (fun r q => v (ix2 r q)) r q := by
  unfold rowsTermC k0_pay71
  rw [cat0_at _ _ r q 2 (by simp) 8 _ rfl 1016 rfl ⟨r.val - 1016, by omega⟩ (by simp; omega)]
  obtain ⟨r, hr⟩ := r
  interval_cases r
  · rw [cat0_at _ _ _ q 0 (by simp) 1 _ rfl 0 rfl 0 rfl]
    readCr; specRowsC v; sum_close v
  · rw [cat0_at _ _ _ q 1 (by simp) 1 _ rfl 1 rfl 0 rfl]
    readCr; specRowsC v; sum_close v
  · rw [cat0_at _ _ _ q 2 (by simp) 1 _ rfl 2 rfl 0 rfl]
    readCr; specRowsC v; sum_close v
  · rw [cat0_at _ _ _ q 3 (by simp) 1 _ rfl 3 rfl 0 rfl]
    readCr; specRowsC v; sum_close v
  · rw [cat0_at _ _ _ q 4 (by simp) 1 _ rfl 4 rfl 0 rfl]
    readCr; specRowsC v; sum_close v
  · rw [cat0_at _ _ _ q 5 (by simp) 1 _ rfl 5 rfl 0 rfl]
    readCr; specRowsC v; sum_close v
  · rw [cat0_at _ _ _ q 6 (by simp) 1 _ rfl 6 rfl 0 rfl]
    readCr; specRowsC v; sum_close v
  · rw [cat0_at _ _ _ q 7 (by simp) 1 _ rfl 7 rfl 0 rfl]
    readCr; specRowsC v; sum_close v

/-- Spacing 4 along the rows. -/
theorem rowsC (v : Vec Ideal S1024x1024 .f32) (r q : Fin 1024) :
    rowsTermC v (ix2 r q) = alongRows 4 (fun r q => v (ix2 r q)) r q := by
  rcases Nat.lt_or_ge r.val 8 with h | h
  · exact rowsC_lo v r q h
  · rcases Nat.lt_or_ge r.val 1016 with h2 | h2
    · exact rowsC_mid v r q h h2
    · exact rowsC_hi v r q h2

end Cert.KernelIdeal.Pieces

end
-- ==== Proof.PieceC_cols.lean ====
/-
  The third branch's step along the columns, spacing 4, of any image `u`: the value at row `r`, column `q` is the
  five-tap average of row `r` at column `q`. The eight left columns and the eight right columns are spelt out, each
  as a sum over the reflected columns; every other column is read off the sum of five rotations, where no rotation
  wraps around.
-/
import proofs.«159894_j34797825032657_2_alg».proof.Proof.Gen.KernelIdeal.Value
import proofs.«159894_j34797825032657_2_alg».proof.Proof.PieceStmts
import proofs.«159894_j34797825032657_2_alg».proof.Proof.PieceTac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- Push an index through the pointwise operations and the slices of the third branch's columns. -/
macro "readCc" : tactic => `(tactic| simp only [k0_pay72, k0_pay73, k0_pay74, k0_pay75, k0_pay76, k0_pay77, k0_pay78, k0_pay79, k0_pay80, k0_pay81, k0_pay82, k0_pay83, k0_pay84, k0_pay85, k0_pay87, k0_pay88, k0_pay89, k0_pay90, k0_pay91, k0_pay92, k0_pay93, k0_pay94, k0_pay95, k0_pay96, k0_pay97,
  ValueIdx.addf_apply, ValueIdx.mulf_apply, ValueIdx.broadcast_apply, slice_at', Matrix.cons_val_zero, Matrix.cons_val_one, Matrix.head_cons])
macro "specColsC" v:term : tactic => `(tactic| simp only [rd_eq $v, alongCols, tap5, pos, w16, w4, w38, Ideal.ofBits_def, BitVec.toNat_ofNat])

/-- The columns' step of the third branch over an image `u`, as the kernel composes it. -/
def colsTermC (u : FVec Ideal S1024x1024 .f32) : FVec Ideal S1024x1024 .f32 :=
  k0_pay98 u (k0_pay72 u)
    (k0_pay86 u (k0_pay73 u) (k0_pay77 u (k0_pay74 u) (k0_pay75 u) k0_pay76) (k0_pay78 u) (k0_pay80 u (k0_pay79 u))
      (k0_pay81 u) (k0_pay82 u) (k0_pay83 u) (k0_pay84 u) k0_pay85)
    (k0_pay89 u (k0_pay87 u) (k0_pay88 u)) (k0_pay90 u) (k0_pay91 u)
    (k0_pay94 u (k0_pay92 u) (k0_pay93 u) (Scalar.ofBits (F := Ideal) .f32 0x3E800000#32))
    (k0_pay95 u) (k0_pay96 u) (k0_pay97 u)

set_option maxHeartbeats 1600000 in
/-- The eight left columns. -/
theorem colsC_lo (u : FVec Ideal S1024x1024 .f32) (r q : Fin 1024) (h : q.val < 8) :
    colsTermC u (ix2 r q) = alongCols 4 (fun r q => u (ix2 r q)) r q := by
  unfold colsTermC k0_pay98
  rw [cat1_at _ _ r q 0 (by simp) 8 _ rfl 0 rfl ⟨q.val, h⟩ (by simp)]
  unfold k0_pay86
  obtain ⟨q, hq⟩ := q
  interval_cases q
  · rw [cat1_at _ _ r _ 0 (by simp) 1 _ rfl 0 rfl 0 rfl]
    readCc; specColsC u; sum_close u
  · rw [cat1_at _ _ r _ 1 (by simp) 1 _ rfl 1 rfl 0 rfl]
    readCc; specColsC u; sum_close u
  · rw [cat1_at _ _ r _ 2 (by simp) 1 _ rfl 2 rfl 0 rfl]
    readCc; specColsC u; sum_close u
  · rw [cat1_at _ _ r _ 3 (by simp) 1 _ rfl 3 rfl 0 rfl]
    readCc; specColsC u; sum_close u
  · rw [cat1_at _ _ r _ 4 (by simp) 1 _ rfl 4 rfl 0 rfl]
    readCc; specColsC u; sum_close u
  · rw [cat1_at _ _ r _ 5 (by simp) 1 _ rfl 5 rfl 0 rfl]
    readCc; specColsC u; sum_close u
  · rw [cat1_at _ _ r _ 6 (by simp) 1 _ rfl 6 rfl 0 rfl]
    readCc; specColsC u; sum_close u
  · rw [cat1_at _ _ r _ 7 (by simp) 1 _ rfl 7 rfl 0 rfl]
    readCc; specColsC u; sum_close u

set_option maxHeartbeats 1600000 in
/-- The middle: the slice of the sum of five rotations. -/
theorem colsC_mid (u : FVec Ideal S1024x1024 .f32) (r q : Fin 1024) (h : 8 ≤ q.val) (h2 : q.val < 1016) :
    colsTermC u (ix2 r q) = alongCols 4 (fun r q => u (ix2 r q)) r q := by
  unfold colsTermC k0_pay98
  rw [cat1_at _ _ r q 1 (by simp) 1008 _ rfl 8 rfl ⟨q.val - 8, by omega⟩ (by simp; omega)]
  readCc
  repeat rw [rot1_at']
  specColsC u; sum_close u

set_option maxHeartbeats 1600000 in
/-- The eight right columns. -/
theorem colsC_hi (u : FVec Ideal S1024x1024 .f32) (r q : Fin 1024) (h2 : 1016 ≤ q.val) :
    colsTermC u (ix2 r q) = alongCols 4 (fun r q => u (ix2 r q)) r q := by
  unfold colsTermC k0_pay98
  rw [cat1_at _ _ r q 2 (by simp) 8 _ rfl 1016 rfl ⟨q.val - 1016, by omega⟩ (by simp; omega)]
  obtain ⟨q, hq⟩ := q
  interval_cases q
  · rw [cat1_at _ _ r _ 0 (by simp) 1 _ rfl 0 rfl 0 rfl]
    readCc; specColsC u; sum_close u
  · rw [cat1_at _ _ r _ 1 (by simp) 1 _ rfl 1 rfl 0 rfl]
    readCc; specColsC u; sum_close u
  · rw [cat1_at _ _ r _ 2 (by simp) 1 _ rfl 2 rfl 0 rfl]
    readCc; specColsC u; sum_close u
  · rw [cat1_at _ _ r _ 3 (by simp) 1 _ rfl 3 rfl 0 rfl]
    readCc; specColsC u; sum_close u
  · rw [cat1_at _ _ r _ 4 (by simp) 1 _ rfl 4 rfl 0 rfl]
    readCc; specColsC u; sum_close u
  · rw [cat1_at _ _ r _ 5 (by simp) 1 _ rfl 5 rfl 0 rfl]
    readCc; specColsC u; sum_close u
  · rw [cat1_at _ _ r _ 6 (by simp) 1 _ rfl 6 rfl 0 rfl]
    readCc; specColsC u; sum_close u
  · rw [cat1_at _ _ r _ 7 (by simp) 1 _ rfl 7 rfl 0 rfl]
    readCc; specColsC u; sum_close u

/-- Spacing 4 along the columns. -/
theorem colsC (u : FVec Ideal S1024x1024 .f32) (r q : Fin 1024) :
    colsTermC u (ix2 r q) = alongCols 4 (fun r q => u (ix2 r q)) r q := by
  rcases Nat.lt_or_ge q.val 8 with h | h
  · exact colsC_lo u r q h
  · rcases Nat.lt_or_ge q.val 1016 with h2 | h2
    · exact colsC_mid u r q h h2
    · exact colsC_hi u r q h2

end Cert.KernelIdeal.Pieces

end
-- ==== Proof.PieceC.lean ====
/-
  The third branch (spacing 4): what it leaves in the kept buffer is the kept image smoothed with spacing 4, and what
  it writes to the output block is the kept image less that. Both stores cover their buffers whole, so each buffer
  reads back its one store's payload; the payloads are the columns' step of the rows' step of the kept image.
-/
import proofs.«159894_j34797825032657_2_alg».proof.Proof.Gen.KernelIdeal.Value
import proofs.«159894_j34797825032657_2_alg».proof.Proof.PieceStmts
import proofs.«159894_j34797825032657_2_alg».proof.Proof.PieceTac
import proofs.«159894_j34797825032657_2_alg».proof.Proof.PieceC_rows
import proofs.«159894_j34797825032657_2_alg».proof.Proof.PieceC_cols
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

theorem hzC2 : (![0, 0] : Fin 2 → Nat) = fun _ => 0 := funext fun a => by fin_cases a <;> rfl
theorem hzC4 : (![0, 0, 0, 0] : Fin 4 → Nat) = fun _ => 0 := funext fun a => by fin_cases a <;> rfl

/-- The smooth image the third branch computes from the kept image: rows, then columns. -/
theorem smoothC (v : Vec Ideal S1024x1024 .f32) (r q : Fin 1024) :
    colsTermC (rowsTermC v) (ix2 r q) = smooth 4 (im2 v) r q := by
  rw [colsC]
  have e : (fun r q => rowsTermC v (ix2 r q)) = alongRows 4 (im2 v) := by
    funext r q; exact rowsC v r q
  rw [e]; rfl

/-- The kept buffer after the third branch: its one whole store's payload. -/
theorem soutC (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : cond0_2 i) (hc3 : ¬cond0_3 i) (x0 : Vec Ideal S1x1024x1024 .f32) (xs0 : Vec Ideal S1024x1024 .f32) :
    sout0_C_0 (F := Ideal) c i arg2 harg2 arg3 harg3 arg4 harg4 hc0 hc1 hc2 hc3 x0 xs0 = k0_pay8 (colsTermC (rowsTermC xs0)) := by
  unfold sout0_C_0
  rw [View.read_writes_eq_canon _ _ _ (scover0_C_0 c i arg2 harg2 arg3 harg3 arg4 harg4 hc0 hc1 hc2 hc3 x0 xs0)]
  unfold kernelRun0_C
  dsimp only
  sl_unfold_words
  rw [View.canon_unit_zero hzC2]
  simp only [View.readAt_eq_ld, harg4.read_unread, View.ld_unit_zero (S := S1024x1024) hzC2]
  rfl

/-- The output block after the third branch: its one whole store's payload. -/
theorem outC (c : Dev nD) (i : grid0.Coords) (arg2 : Memref sig .tc .vmem S1x1024x1024 .f32) (harg2 : arg2.IsWhole) (arg3 : Memref sig .tc .vmem S1x1x1024x1024 .f32) (harg3 : arg3.IsWhole) (arg4 : Memref sig .tc .vmem S1024x1024 .f32) (harg4 : arg4.IsWhole) (hc0 : ¬cond0_0 i) (hc1 : ¬cond0_1 i) (hc2 : cond0_2 i) (hc3 : ¬cond0_3 i) (x0 : Vec Ideal S1x1024x1024 .f32) (xs0 : Vec Ideal S1024x1024 .f32) :
    out0_C_1 (F := Ideal) c i arg2 harg2 arg3 harg3 arg4 harg4 hc0 hc1 hc2 hc3 x0 xs0
      = k0_pay7 (subf xs0 (colsTermC (rowsTermC xs0))) := by
  unfold out0_C_1
  rw [View.read_writes_eq_canon _ _ _ (cover0_C_1 c i arg2 harg2 arg3 harg3 arg4 harg4 hc0 hc1 hc2 hc3 x0 xs0)]
  unfold kernelRun0_C
  dsimp only
  sl_unfold_words
  rw [View.canon_unit_zero hzC4]
  simp only [View.readAt_eq_ld, harg4.read_unread, View.ld_unit_zero (S := S1024x1024) hzC2]
  rfl

theorem stmtC : StmtC := by
  intro c i arg2 harg2 arg3 harg3 arg4 harg4 hc0 hc1 hc2 hc3 x0 xs0
  constructor
  · rw [soutC]
    funext j
    obtain ⟨r, q, rfl⟩ : ∃ (r : Fin 1024) (q : Fin 1024), j = ix2 r q := ⟨j 0, j 1, eq_ix2 j⟩
    unfold k0_pay8
    rw [shapeCast_self]
    exact smoothC xs0 r q
  · rw [outC]
    funext j
    obtain ⟨a, b, r, q, rfl⟩ : ∃ (a b : Fin 1) (r : Fin 1024) (q : Fin 1024), j = ix4 a b r q :=
      ⟨j 0, j 1, j 2, j 3, eq_ix4 j⟩
    unfold k0_pay7
    rw [shapeCast_ab_11ab_apply, ValueIdx.subf_apply, smoothC]
    rfl

end Cert.KernelIdeal.Pieces

end
-- ==== Proof.PieceD.lean ====
/-
  The kernel's fourth branch. At an image's fourth point nothing is computed: the kept 1024 × 1024 buffer is loaded
  whole, recast with two leading unit axes, and stored over the whole 1 × 1 × 1024 × 1024 output block. The block
  read back is therefore that one store's payload, and its entry at (0, 0, r, q) is the kept image's entry at (r, q).
-/
import proofs.«159894_j34797825032657_2_alg».proof.Proof.Gen.KernelIdeal.Value
import proofs.«159894_j34797825032657_2_alg».proof.Proof.PieceStmts
import proofs.«159894_j34797825032657_2_alg».proof.Proof.PieceTac
import Idealize.ShloMosaic.Lib.Pipeline.Value
import Idealize.ShloMosaic.Lib.ValueIdx
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.ValueIdx Cert.LibAt2 Cert.Wavelet

/-- The offsets of a store or load that starts at the origin are all zero. -/
private theorem zeros4 : (![0, 0, 0, 0] : Fin 4 → Nat) = fun _ => 0 := by funext a; fin_cases a <;> rfl
private theorem zeros2 : (![0, 0] : Fin 2 → Nat) = fun _ => 0 := by funext a; fin_cases a <;> rfl

/-- Fourth point of an image: the output block is the kept image. The one store covers the block from the origin, so
    the block is its payload; the payload is the whole kept buffer recast, read at (0, 0, r, q) as the buffer at (r, q). -/
theorem stmtD : StmtD := by
  intro c i arg2 harg2 arg3 harg3 arg4 harg4 hc0 hc1 hc2 hc3 x0 xs0
  unfold out0_D_1
  rw [View.read_writes_eq_canon _ _ _ (cover0_D_1 c i arg2 harg2 arg3 harg3 arg4 harg4 hc0 hc1 hc2 hc3 x0 xs0)]
  unfold kernelRun0_D
  dsimp only
  sl_unfold_words
  refine (View.canon_unit_zero (S := S1x1x1024x1024) zeros4 _ _).trans ?_
  funext j
  rw [ValueIdx.eq_ix4 j]
  unfold k0_pay9
  refine (shapeCast_ab_11ab_apply _ _ (j 0) (j 1) (j 2) (j 3)).trans ?_
  rw [View.readAt_eq_ld, harg4.read_unread, View.ld_unit_zero (S := S1024x1024) zeros2]
  rfl

end Cert.KernelIdeal.Pieces

end
-- ==== Proof.KernelRun.lean ====
/-
  The kernel's run as one function of the argument array.

  The grid has 64 points, point t = 4·b + ch for batch image b and channel ch. The input window shows image b at every
  one of its four points; the output window's block at point t is channel ch of image b. By the four branches'
  statements the kept buffer holds the image smoothed with spacing 1 after the first point, with spacings 1 and 2
  after the second, with 1, 2 and 4 after the third, so each point writes its channel of the result; the 64 blocks
  cover the output array.
-/
import proofs.«159894_j34797825032657_2_alg».proof.Proof.Gen.KernelIdeal.Value
import proofs.«159894_j34797825032657_2_alg».proof.Proof.Spec
import proofs.«159894_j34797825032657_2_alg».proof.Proof.PieceStmts
import Idealize.ShloMosaic.Lib.Pipeline.Value
import Idealize.ShloMosaic.Lib.ValueIdx

set_option maxRecDepth 16384

noncomputable section

namespace Cert.KernelIdeal.KRun

open Cert.KernelIdeal Cert.KernelIdeal.Gen Cert.KernelIdeal.Value Cert.KernelIdeal.Pieces Idealize.ShloMosaic Idealize.ShloMosaic.TcCoe Idealize.SL.Sem Idealize.ShloMosaic.ValueIdx
open Cert.Wavelet

variable (m : (ℓ : Loc nD τ sig) → Buf (Elt Ideal) ℓ) (ρ : Dev nD → PrngReg)

/-- The two windows' block indices at point t, decided over the 64 points: the input window sits at image t / 4, the
    output window at image t / 4, channel t % 4. -/
theorem idx_facts : ∀ t : Fin cfg0.N, win0_0.index t (0 : Fin 3) = t.val / 4 ∧ win0_0.index t (1 : Fin 3) = 0 ∧ win0_0.index t (2 : Fin 3) = 0
    ∧ win0_1.index t (0 : Fin 4) = t.val / 4 ∧ win0_1.index t (1 : Fin 4) = t.val % 4 ∧ win0_1.index t (2 : Fin 4) = 0 ∧ win0_1.index t (3 : Fin 4) = 0 :=
  (by decide +kernel : ∀ t : Fin grid0.N, _)

/-- A buffer made from an image, read back as an image, is the image. -/
theorem im2_of2 (f : Fin 1024 → Fin 1024 → EReal) : im2 (of2 f) = f := rfl

/-- The input block at point t is image t / 4 of the argument. -/
theorem iblk_img (c : Dev nD) (t : Fin cfg0.N) (b : Fin 16) (hb : b.val = t.val / 4) :
    im3 (iblk m c 0 t) = img (m ((c : Thread nD τ).loc main_arg0)) b := by
  obtain ⟨e0, e1, e2, -⟩ := idx_facts t
  funext r q
  show V m c main_arg0 (((cfg0.win 0).blk t).view.emb (ix3 0 r q)) = m ((c : Thread nD τ).loc main_arg0) (ix3 b r q)
  refine congrArg _ ?_
  funext a; apply Fin.ext
  match a with
  | ⟨0, _⟩ => show win0_0.index t (0 : Fin 3) * 1 + 1 * 0 = b.val; omega
  | ⟨1, _⟩ => show win0_0.index t (1 : Fin 3) * 1024 + 1 * r.val = r.val; omega
  | ⟨2, _⟩ => show win0_0.index t (2 : Fin 3) * 1024 + 1 * q.val = q.val; omega

/-! ## What each point leaves -/

/-- First point of image b: the kept buffer holds the image smoothed with spacing 1, the output block channel 0. -/
theorem atA (hA : StmtA) (c : Dev nD) (n : ℕ) (hn : n < cfg0.N) (h : n % 4 = 0) (b : Fin 16) (hb : b.val = n / 4) :
    (outsAt0 m c n hn).2 = of2 (smooth 1 (img (m ((c : Thread nD τ).loc main_arg0)) b))
    ∧ (outsAt0 m c n hn).1 = of4 (channel (img (m ((c : Thread nD τ).loc main_arg0)) b) 0) := by
  have h0 : (⟨n, hn⟩ : Fin cfg0.N).val % 4 = 0 := h
  have h1 : ¬(⟨n, hn⟩ : Fin cfg0.N).val % 4 = 1 := fun e => by have e' : n % 4 = 1 := e; omega
  have h2 : ¬(⟨n, hn⟩ : Fin cfg0.N).val % 4 = 2 := fun e => by have e' : n % 4 = 2 := e; omega
  have h3 : ¬(⟨n, hn⟩ : Fin cfg0.N).val % 4 = 3 := fun e => by have e' : n % 4 = 3 := e; omega
  have E := outsAt0_A m c ⟨n, hn⟩ h0 h1 h2 h3
  have S := hA c (grid0.coords ⟨n, hn⟩) (ms0_0 ⟨n, hn⟩) (hs0_0 ⟨n, hn⟩) (ms0_1 ⟨n, hn⟩) (hs0_1 ⟨n, hn⟩) scM0_0 (Memref.isWhole_whole cc0_scratch0) ((hcond0_0 ⟨n, hn⟩).mpr h0) (fun h => h1 ((hcond0_1 ⟨n, hn⟩).mp h)) (fun h => h2 ((hcond0_2 ⟨n, hn⟩).mp h)) (fun h => h3 ((hcond0_3 ⟨n, hn⟩).mp h)) (iblk m c 0 ⟨n, hn⟩)
  have I := iblk_img m c ⟨n, hn⟩ b hb
  constructor
  · rw [E]; dsimp only
    refine S.1.trans ?_
    rw [I]
  · rw [E]; dsimp only
    refine S.2.trans ?_
    rw [I]; rfl

/-- Second point: the kept buffer holds the image smoothed with spacings 1 and 2, the output block channel 1. -/
theorem atB (hA : StmtA) (hB : StmtB) (c : Dev nD) (n : ℕ) (hn : n < cfg0.N) (h : n % 4 = 1) (b : Fin 16) (hb : b.val = n / 4) :
    (outsAt0 m c n hn).2 = of2 (smooth 2 (smooth 1 (img (m ((c : Thread nD τ).loc main_arg0)) b)))
    ∧ (outsAt0 m c n hn).1 = of4 (channel (img (m ((c : Thread nD τ).loc main_arg0)) b) 1) := by
  have h0 : ¬(⟨n, hn⟩ : Fin cfg0.N).val % 4 = 0 := fun e => by have e' : n % 4 = 0 := e; omega
  have h1 : (⟨n, hn⟩ : Fin cfg0.N).val % 4 = 1 := h
  have h2 : ¬(⟨n, hn⟩ : Fin cfg0.N).val % 4 = 2 := fun e => by have e' : n % 4 = 2 := e; omega
  have h3 : ¬(⟨n, hn⟩ : Fin cfg0.N).val % 4 = 3 := fun e => by have e' : n % 4 = 3 := e; omega
  have hp : n - 1 < cfg0.N := Nat.lt_of_le_of_lt (Nat.sub_le _ _) hn
  have P := (atA m hA c (n - 1) hp (by omega) b (by omega)).1
  have E := outsAt0_B m c ⟨n, hn⟩ h0 h1 h2 h3
  have S := hB c (grid0.coords ⟨n, hn⟩) (ms0_0 ⟨n, hn⟩) (hs0_0 ⟨n, hn⟩) (ms0_1 ⟨n, hn⟩) (hs0_1 ⟨n, hn⟩) scM0_0 (Memref.isWhole_whole cc0_scratch0) (fun h => h0 ((hcond0_0 ⟨n, hn⟩).mp h)) ((hcond0_1 ⟨n, hn⟩).mpr h1) (fun h => h2 ((hcond0_2 ⟨n, hn⟩).mp h)) (fun h => h3 ((hcond0_3 ⟨n, hn⟩).mp h)) (iblk m c 0 ⟨n, hn⟩) (outsAt0 m c (n - 1) hp).2
  constructor
  · rw [E]; dsimp only
    refine S.1.trans ?_
    rw [P, im2_of2]
  · rw [E]; dsimp only
    refine S.2.trans ?_
    rw [P, im2_of2]; rfl

/-- Third point: the kept buffer holds the image smoothed with spacings 1, 2 and 4, the output block channel 2. -/
theorem atC (hA : StmtA) (hB : StmtB) (hC : StmtC) (c : Dev nD) (n : ℕ) (hn : n < cfg0.N) (h : n % 4 = 2) (b : Fin 16) (hb : b.val = n / 4) :
    (outsAt0 m c n hn).2 = of2 (smooth 4 (smooth 2 (smooth 1 (img (m ((c : Thread nD τ).loc main_arg0)) b))))
    ∧ (outsAt0 m c n hn).1 = of4 (channel (img (m ((c : Thread nD τ).loc main_arg0)) b) 2) := by
  have h0 : ¬(⟨n, hn⟩ : Fin cfg0.N).val % 4 = 0 := fun e => by have e' : n % 4 = 0 := e; omega
  have h1 : ¬(⟨n, hn⟩ : Fin cfg0.N).val % 4 = 1 := fun e => by have e' : n % 4 = 1 := e; omega
  have h2 : (⟨n, hn⟩ : Fin cfg0.N).val % 4 = 2 := h
  have h3 : ¬(⟨n, hn⟩ : Fin cfg0.N).val % 4 = 3 := fun e => by have e' : n % 4 = 3 := e; omega
  have hp : n - 1 < cfg0.N := Nat.lt_of_le_of_lt (Nat.sub_le _ _) hn
  have P := (atB m hA hB c (n - 1) hp (by omega) b (by omega)).1
  have E := outsAt0_C m c ⟨n, hn⟩ h0 h1 h2 h3
  have S := hC c (grid0.coords ⟨n, hn⟩) (ms0_0 ⟨n, hn⟩) (hs0_0 ⟨n, hn⟩) (ms0_1 ⟨n, hn⟩) (hs0_1 ⟨n, hn⟩) scM0_0 (Memref.isWhole_whole cc0_scratch0) (fun h => h0 ((hcond0_0 ⟨n, hn⟩).mp h)) (fun h => h1 ((hcond0_1 ⟨n, hn⟩).mp h)) ((hcond0_2 ⟨n, hn⟩).mpr h2) (fun h => h3 ((hcond0_3 ⟨n, hn⟩).mp h)) (iblk m c 0 ⟨n, hn⟩) (outsAt0 m c (n - 1) hp).2
  constructor
  · rw [E]; dsimp only
    refine S.1.trans ?_
    rw [P, im2_of2]
  · rw [E]; dsimp only
    refine S.2.trans ?_
    rw [P, im2_of2]; rfl

/-- Fourth point: the output block is channel 3, the kept image itself. -/
theorem atD (hA : StmtA) (hB : StmtB) (hC : StmtC) (hD : StmtD) (c : Dev nD) (n : ℕ) (hn : n < cfg0.N) (h : n % 4 = 3) (b : Fin 16) (hb : b.val = n / 4) :
    (outsAt0 m c n hn).1 = of4 (channel (img (m ((c : Thread nD τ).loc main_arg0)) b) 3) := by
  have h0 : ¬(⟨n, hn⟩ : Fin cfg0.N).val % 4 = 0 := fun e => by have e' : n % 4 = 0 := e; omega
  have h1 : ¬(⟨n, hn⟩ : Fin cfg0.N).val % 4 = 1 := fun e => by have e' : n % 4 = 1 := e; omega
  have h2 : ¬(⟨n, hn⟩ : Fin cfg0.N).val % 4 = 2 := fun e => by have e' : n % 4 = 2 := e; omega
  have h3 : (⟨n, hn⟩ : Fin cfg0.N).val % 4 = 3 := h
  have hp : n - 1 < cfg0.N := Nat.lt_of_le_of_lt (Nat.sub_le _ _) hn
  have P := (atC m hA hB hC c (n - 1) hp (by omega) b (by omega)).1
  have E := outsAt0_D m c ⟨n, hn⟩ h0 h1 h2 h3
  have S := hD c (grid0.coords ⟨n, hn⟩) (ms0_0 ⟨n, hn⟩) (hs0_0 ⟨n, hn⟩) (ms0_1 ⟨n, hn⟩) (hs0_1 ⟨n, hn⟩) scM0_0 (Memref.isWhole_whole cc0_scratch0) (fun h => h0 ((hcond0_0 ⟨n, hn⟩).mp h)) (fun h => h1 ((hcond0_1 ⟨n, hn⟩).mp h)) (fun h => h2 ((hcond0_2 ⟨n, hn⟩).mp h)) ((hcond0_3 ⟨n, hn⟩).mpr h3) (iblk m c 0 ⟨n, hn⟩) (outsAt0 m c (n - 1) hp).2
  rw [E]; dsimp only
  refine S.trans ?_
  rw [P, im2_of2]; rfl

/-- So at every point the output block is the point's channel of the point's image. -/
theorem out_all (hA : StmtA) (hB : StmtB) (hC : StmtC) (hD : StmtD) (c : Dev nD) (n : ℕ) (hn : n < cfg0.N) (b : Fin 16) (hb : b.val = n / 4) (ch : Fin 4) (hch : ch.val = n % 4) :
    (outsAt0 m c n hn).1 = of4 (channel (img (m ((c : Thread nD τ).loc main_arg0)) b) ch) := by
  have hlt : n % 4 < 4 := Nat.mod_lt _ (by norm_num)
  by_cases k0 : n % 4 = 0
  · obtain rfl : ch = 0 := Fin.ext (hch.trans k0)
    exact (atA m hA c n hn k0 b hb).2
  by_cases k1 : n % 4 = 1
  · obtain rfl : ch = 1 := Fin.ext (hch.trans k1)
    exact (atB m hA hB c n hn k1 b hb).2
  by_cases k2 : n % 4 = 2
  · obtain rfl : ch = 2 := Fin.ext (hch.trans k2)
    exact (atC m hA hB hC c n hn k2 b hb).2
  · obtain rfl : ch = 3 := Fin.ext (hch.trans (by omega))
    exact atD m hA hB hC hD c n hn (by omega) b hb

/-! ## From the blocks to the array -/

/-- The result at an index whose coordinates are known. -/
theorem result_at (x : S16x1024x1024.Idx → EReal) (J : S16x4x1024x1024.Idx) (b : Fin 16) (ch : Fin 4) (r q : Fin 1024)
    (h0 : (J 0).val = b.val) (h1 : (J 1).val = ch.val) (h2 : (J 2).val = r.val) (h3 : (J 3).val = q.val) :
    result x J = channel (img x b) ch r q := by
  have e : J = ix4 b ch r q := by
    funext a; apply Fin.ext
    match a with
    | ⟨0, _⟩ => exact h0
    | ⟨1, _⟩ => exact h1
    | ⟨2, _⟩ => exact h2
    | ⟨3, _⟩ => exact h3
  rw [e]; rfl

/-- What point t writes back is block t of the result. -/
theorem flushed_eq (hA : StmtA) (hB : StmtB) (hC : StmtC) (hD : StmtD) (c : Dev nD) (t : Fin cfg0.N) :
    (dats m 0 c).flushed 1 t = ((cfg0.win 1).blk t).view.read (Elt Ideal) (result (m ((c : Thread nD τ).loc main_arg0))) := by
  have hN : cfg0.N = 64 := N_0
  have hb : t.val / 4 < 16 := by have := t.isLt; omega
  have hch : t.val % 4 < 4 := Nat.mod_lt _ (by norm_num)
  obtain ⟨-, -, -, e0, e1, e2, e3⟩ := idx_facts t
  rw [flushed1, out_all m hA hB hC hD c t.val t.isLt ⟨t.val / 4, hb⟩ rfl ⟨t.val % 4, hch⟩ rfl]
  funext j
  show channel (img (m ((c : Thread nD τ).loc main_arg0)) ⟨t.val / 4, hb⟩) ⟨t.val % 4, hch⟩ (j 2) (j 3) = result (m ((c : Thread nD τ).loc main_arg0)) (((cfg0.win 1).blk t).view.emb j)
  have j0 : (j 0).val < 1 := (j 0).isLt
  have j1 : (j 1).val < 1 := (j 1).isLt
  refine (result_at (m ((c : Thread nD τ).loc main_arg0)) _ ⟨t.val / 4, hb⟩ ⟨t.val % 4, hch⟩ (j 2) (j 3) ?_ ?_ ?_ ?_).symm
  · show win0_1.index t (0 : Fin 4) * 1 + 1 * (j 0).val = t.val / 4; omega
  · show win0_1.index t (1 : Fin 4) * 1 + 1 * (j 1).val = t.val % 4; omega
  · show win0_1.index t (2 : Fin 4) * 1024 + 1 * (j 2).val = (j 2).val; omega
  · show win0_1.index t (3 : Fin 4) * 1024 + 1 * (j 3).val = (j 3).val; omega

/-- An index of the output array is in point t's block iff each coordinate is in the block's range on its axis. -/
theorem mem_blk (t : Fin cfg0.N) (i : S16x4x1024x1024.Idx) :
    i ∈ ((cfg0.win 1).blk t).view.set ↔ ∀ a : Fin 4, win0_1.index t a * S1x1x1024x1024.size a ≤ (i a).val ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- Every index (b, ch, r, q) of the output array lies in the block of point 4·b + ch. -/
theorem cover (i : S16x4x1024x1024.Idx) : ∃ t : Fin cfg0.N, (cfg0.win 1).flush t = true ∧ i ∈ ((cfg0.win 1).blk t).view.set := by
  have hN : cfg0.N = 64 := N_0
  have i0 : (i 0).val < 16 := (i 0).isLt
  have i1 : (i 1).val < 4 := (i 1).isLt
  have i2 : (i 2).val < 1024 := (i 2).isLt
  have i3 : (i 3).val < 1024 := (i 3).isLt
  obtain ⟨t, ht⟩ : ∃ t : Fin cfg0.N, t.val = 4 * (i 0).val + (i 1).val := ⟨⟨4 * (i 0).val + (i 1).val, by rw [hN]; omega⟩, rfl⟩
  obtain ⟨-, -, -, e0, e1, e2, e3⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1024 ≤ (i 3).val ∧ (i 3).val < win0_1.index t (3 : Fin 4) * 1024 + 1024; omega

/-- The output array after the run is the result of the argument. -/
theorem final (hA : StmtA) (hB : StmtB) (hC : StmtC) (hD : StmtD) (c : Dev nD) :
    (dats m 0 c).arrAt 1 cfg0.N = result (m ((c : Thread nD τ).loc main_arg0)) :=
  (dats m 0 c).arrAt_eq_of_cover 1 (result (m ((c : Thread nD τ).loc main_arg0))) (fun t _ => flushed_eq m hA hB hC hD c t) cover

/-- The kernel's run: the output array holds the result of the argument array, the argument is unchanged. -/
theorem run (hA : StmtA) (hB : StmtB) (hC : StmtC) (hD : StmtD) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.Wavelet.result (m ((c : Thread nD τ).loc main_arg0))
      ∧ r.2.mem ((c : Thread nD τ).loc main_arg0) = m ((c : Thread nD τ).loc main_arg0) :=
  (θ_run defs _ _).mono (fun r h c => ⟨(h c).1.trans (final m hA hB hC hD c), (h c).2⟩) (Value.run_blocks m ρ)

end Cert.KernelIdeal.KRun

end
-- ==== Proof.RefStages.lean ====
/-
  The reference's operations spelled as functions of whole arrays: each reflect padding (two slices, two reversals,
  two concatenations), the five weights read out of the constant vector, each one-dimensional five-tap step (five
  slices of the padded array, each multiplied by its weight on the left, added from the left), the three smoothing
  steps and the four-channel result. Every definition uses the printed program's own operation terms, so the value
  a run of the program leaves in its result buffer is these functions of the argument by unfolding alone.
-/
import proofs.«159894_j34797825032657_2_alg».proof.ReferenceIdeal

noncomputable section

namespace Cert.ReferenceIdeal.Stages

open Cert.ReferenceIdeal Idealize.ShloMosaic

variable {F : FTy → Type} [FloatOps F] [Facts₀]
open Facts₀

/-- The constant vector of the five weights, as the printed constant spells it. -/
def cst : FVec F S5 .f32 := fun i => FloatOps.ofBits .f32 (lit0 (S5.rowMajor i))

/-- Weight 0 as a scalar array: the slice `[0:1]` of the constant, reshaped to rank zero. -/
def weight0 : FVec F S_ .f32 := fun i => shapeCast S_ (extractStridedSlice S1 ![0] (cst (F := F)) slices_S5_S1_0) shapeCasts_S1_S_ i

/-- Weight 1 as a scalar array: the slice `[1:2]` of the constant, reshaped to rank zero. -/
def weight1 : FVec F S_ .f32 := fun i => shapeCast S_ (extractStridedSlice S1 ![1] (cst (F := F)) slices_S5_S1_1) shapeCasts_S1_S_ i

/-- Weight 2 as a scalar array: the slice `[2:3]` of the constant, reshaped to rank zero. -/
def weight2 : FVec F S_ .f32 := fun i => shapeCast S_ (extractStridedSlice S1 ![2] (cst (F := F)) slices_S5_S1_2) shapeCasts_S1_S_ i

/-- Weight 3 as a scalar array: the slice `[3:4]` of the constant, reshaped to rank zero. -/
def weight3 : FVec F S_ .f32 := fun i => shapeCast S_ (extractStridedSlice S1 ![3] (cst (F := F)) slices_S5_S1_3) shapeCasts_S1_S_ i

/-- Weight 4 as a scalar array: the slice `[4:5]` of the constant, reshaped to rank zero. -/
def weight4 : FVec F S_ .f32 := fun i => shapeCast S_ (extractStridedSlice S1 ![4] (cst (F := F)) slices_S5_S1_4) shapeCasts_S1_S_ i

/-- The inner concatenation of the padding by 2 along axis 1: the reversed entries 1 … 2, then the array. -/
def padRows1L (y : FVec F S16x1024x1024 .f32) : FVec F S16x1026x1024 .f32 :=
  concatenate S16x1026x1024 1 [⟨S16x2x1024, Host.reverse [1] (extractStridedSlice S16x2x1024 ![0, 1, 0] y slices_S16x1024x1024_S16x2x1024_0_1_0)⟩, ⟨S16x1024x1024, y⟩] concatenates_S16x2x1024_S16x1024x1024_S16x1026x1024_d1

/-- The reflect padding by 2 along axis 1: the inner concatenation, then its entries 1023 … 1024 reversed. -/
def padRows1 (y : FVec F S16x1024x1024 .f32) : FVec F S16x1028x1024 .f32 :=
  concatenate S16x1028x1024 1 [⟨S16x1026x1024, padRows1L y⟩, ⟨S16x2x1024, Host.reverse [1] (extractStridedSlice S16x2x1024 ![0, 1023, 0] (padRows1L y) slices_S16x1026x1024_S16x2x1024_0_1023_0)⟩] concatenates_S16x1026x1024_S16x2x1024_S16x1028x1024_d1

/-- The inner concatenation of the padding by 2 along axis 2: the reversed entries 1 … 2, then the array. -/
def padCols1L (y : FVec F S16x1024x1024 .f32) : FVec F S16x1024x1026 .f32 :=
  concatenate S16x1024x1026 2 [⟨S16x1024x2, Host.reverse [2] (extractStridedSlice S16x1024x2 ![0, 0, 1] y slices_S16x1024x1024_S16x1024x2_0_0_1)⟩, ⟨S16x1024x1024, y⟩] concatenates_S16x1024x2_S16x1024x1024_S16x1024x1026_d2

/-- The reflect padding by 2 along axis 2: the inner concatenation, then its entries 1023 … 1024 reversed. -/
def padCols1 (y : FVec F S16x1024x1024 .f32) : FVec F S16x1024x1028 .f32 :=
  concatenate S16x1024x1028 2 [⟨S16x1024x1026, padCols1L y⟩, ⟨S16x1024x2, Host.reverse [2] (extractStridedSlice S16x1024x2 ![0, 0, 1023] (padCols1L y) slices_S16x1024x1026_S16x1024x2_0_0_1023)⟩] concatenates_S16x1024x1026_S16x1024x2_S16x1024x1028_d2

/-- The inner concatenation of the padding by 4 along axis 1: the reversed entries 1 … 4, then the array. -/
def padRows2L (y : FVec F S16x1024x1024 .f32) : FVec F S16x1028x1024 .f32 :=
  concatenate S16x1028x1024 1 [⟨S16x4x1024, Host.reverse [1] (extractStridedSlice S16x4x1024 ![0, 1, 0] y slices_S16x1024x1024_S16x4x1024_0_1_0)⟩, ⟨S16x1024x1024, y⟩] concatenates_S16x4x1024_S16x1024x1024_S16x1028x1024_d1

/-- The reflect padding by 4 along axis 1: the inner concatenation, then its entries 1023 … 1026 reversed. -/
def padRows2 (y : FVec F S16x1024x1024 .f32) : FVec F S16x1032x1024 .f32 :=
  concatenate S16x1032x1024 1 [⟨S16x1028x1024, padRows2L y⟩, ⟨S16x4x1024, Host.reverse [1] (extractStridedSlice S16x4x1024 ![0, 1023, 0] (padRows2L y) slices_S16x1028x1024_S16x4x1024_0_1023_0)⟩] concatenates_S16x1028x1024_S16x4x1024_S16x1032x1024_d1

/-- The inner concatenation of the padding by 4 along axis 2: the reversed entries 1 … 4, then the array. -/
def padCols2L (y : FVec F S16x1024x1024 .f32) : FVec F S16x1024x1028 .f32 :=
  concatenate S16x1024x1028 2 [⟨S16x1024x4, Host.reverse [2] (extractStridedSlice S16x1024x4 ![0, 0, 1] y slices_S16x1024x1024_S16x1024x4_0_0_1)⟩, ⟨S16x1024x1024, y⟩] concatenates_S16x1024x4_S16x1024x1024_S16x1024x1028_d2

/-- The reflect padding by 4 along axis 2: the inner concatenation, then its entries 1023 … 1026 reversed. -/
def padCols2 (y : FVec F S16x1024x1024 .f32) : FVec F S16x1024x1032 .f32 :=
  concatenate S16x1024x1032 2 [⟨S16x1024x1028, padCols2L y⟩, ⟨S16x1024x4, Host.reverse [2] (extractStridedSlice S16x1024x4 ![0, 0, 1023] (padCols2L y) slices_S16x1024x1028_S16x1024x4_0_0_1023)⟩] concatenates_S16x1024x1028_S16x1024x4_S16x1024x1032_d2

/-- The inner concatenation of the padding by 8 along axis 1: the reversed entries 1 … 8, then the array. -/
def padRows4L (y : FVec F S16x1024x1024 .f32) : FVec F S16x1032x1024 .f32 :=
  concatenate S16x1032x1024 1 [⟨S16x8x1024, Host.reverse [1] (extractStridedSlice S16x8x1024 ![0, 1, 0] y slices_S16x1024x1024_S16x8x1024_0_1_0)⟩, ⟨S16x1024x1024, y⟩] concatenates_S16x8x1024_S16x1024x1024_S16x1032x1024_d1

/-- The reflect padding by 8 along axis 1: the inner concatenation, then its entries 1023 … 1030 reversed. -/
def padRows4 (y : FVec F S16x1024x1024 .f32) : FVec F S16x1040x1024 .f32 :=
  concatenate S16x1040x1024 1 [⟨S16x1032x1024, padRows4L y⟩, ⟨S16x8x1024, Host.reverse [1] (extractStridedSlice S16x8x1024 ![0, 1023, 0] (padRows4L y) slices_S16x1032x1024_S16x8x1024_0_1023_0)⟩] concatenates_S16x1032x1024_S16x8x1024_S16x1040x1024_d1

/-- The inner concatenation of the padding by 8 along axis 2: the reversed entries 1 … 8, then the array. -/
def padCols4L (y : FVec F S16x1024x1024 .f32) : FVec F S16x1024x1032 .f32 :=
  concatenate S16x1024x1032 2 [⟨S16x1024x8, Host.reverse [2] (extractStridedSlice S16x1024x8 ![0, 0, 1] y slices_S16x1024x1024_S16x1024x8_0_0_1)⟩, ⟨S16x1024x1024, y⟩] concatenates_S16x1024x8_S16x1024x1024_S16x1024x1032_d2

/-- The reflect padding by 8 along axis 2: the inner concatenation, then its entries 1023 … 1030 reversed. -/
def padCols4 (y : FVec F S16x1024x1024 .f32) : FVec F S16x1024x1040 .f32 :=
  concatenate S16x1024x1040 2 [⟨S16x1024x1032, padCols4L y⟩, ⟨S16x1024x8, Host.reverse [2] (extractStridedSlice S16x1024x8 ![0, 0, 1023] (padCols4L y) slices_S16x1024x1032_S16x1024x8_0_0_1023)⟩] concatenates_S16x1024x1032_S16x1024x8_S16x1024x1040_d2

/-- The five-tap sum over an array `z` already padded by 2 along axis 1: slices at offsets 0, 1, 2, 3, 4. -/
def convRows1P (z : FVec F S16x1028x1024 .f32) : FVec F S16x1024x1024 .f32 :=
  addf (addf (addf (addf
    (mulf (broadcastInDim S16x1024x1024 ![] bcast_S_S16x1024x1024 (weight0 (F := F))) (extractStridedSlice S16x1024x1024 ![0, 0, 0] z slices_S16x1028x1024_S16x1024x1024_0_0_0))
    (mulf (broadcastInDim S16x1024x1024 ![] bcast_S_S16x1024x1024 (weight1 (F := F))) (extractStridedSlice S16x1024x1024 ![0, 1, 0] z slices_S16x1028x1024_S16x1024x1024_0_1_0)))
    (mulf (broadcastInDim S16x1024x1024 ![] bcast_S_S16x1024x1024 (weight2 (F := F))) (extractStridedSlice S16x1024x1024 ![0, 2, 0] z slices_S16x1028x1024_S16x1024x1024_0_2_0)))
    (mulf (broadcastInDim S16x1024x1024 ![] bcast_S_S16x1024x1024 (weight3 (F := F))) (extractStridedSlice S16x1024x1024 ![0, 3, 0] z slices_S16x1028x1024_S16x1024x1024_0_3_0)))
    (mulf (broadcastInDim S16x1024x1024 ![] bcast_S_S16x1024x1024 (weight4 (F := F))) (extractStridedSlice S16x1024x1024 ![0, 4, 0] z slices_S16x1028x1024_S16x1024x1024_0_4_0))

/-- The one-dimensional step with spacing 1 along axis 1: pad, then the five-tap sum. -/
def convRows1 (y : FVec F S16x1024x1024 .f32) : FVec F S16x1024x1024 .f32 := convRows1P (padRows1 y)

/-- The five-tap sum over an array `z` already padded by 2 along axis 2: slices at offsets 0, 1, 2, 3, 4. -/
def convCols1P (z : FVec F S16x1024x1028 .f32) : FVec F S16x1024x1024 .f32 :=
  addf (addf (addf (addf
    (mulf (broadcastInDim S16x1024x1024 ![] bcast_S_S16x1024x1024 (weight0 (F := F))) (extractStridedSlice S16x1024x1024 ![0, 0, 0] z slices_S16x1024x1028_S16x1024x1024_0_0_0))
    (mulf (broadcastInDim S16x1024x1024 ![] bcast_S_S16x1024x1024 (weight1 (F := F))) (extractStridedSlice S16x1024x1024 ![0, 0, 1] z slices_S16x1024x1028_S16x1024x1024_0_0_1)))
    (mulf (broadcastInDim S16x1024x1024 ![] bcast_S_S16x1024x1024 (weight2 (F := F))) (extractStridedSlice S16x1024x1024 ![0, 0, 2] z slices_S16x1024x1028_S16x1024x1024_0_0_2)))
    (mulf (broadcastInDim S16x1024x1024 ![] bcast_S_S16x1024x1024 (weight3 (F := F))) (extractStridedSlice S16x1024x1024 ![0, 0, 3] z slices_S16x1024x1028_S16x1024x1024_0_0_3)))
    (mulf (broadcastInDim S16x1024x1024 ![] bcast_S_S16x1024x1024 (weight4 (F := F))) (extractStridedSlice S16x1024x1024 ![0, 0, 4] z slices_S16x1024x1028_S16x1024x1024_0_0_4))

/-- The one-dimensional step with spacing 1 along axis 2: pad, then the five-tap sum. -/
def convCols1 (y : FVec F S16x1024x1024 .f32) : FVec F S16x1024x1024 .f32 := convCols1P (padCols1 y)

/-- The five-tap sum over an array `z` already padded by 4 along axis 1: slices at offsets 0, 2, 4, 6, 8. -/
def convRows2P (z : FVec F S16x1032x1024 .f32) : FVec F S16x1024x1024 .f32 :=
  addf (addf (addf (addf
    (mulf (broadcastInDim S16x1024x1024 ![] bcast_S_S16x1024x1024 (weight0 (F := F))) (extractStridedSlice S16x1024x1024 ![0, 0, 0] z slices_S16x1032x1024_S16x1024x1024_0_0_0))
    (mulf (broadcastInDim S16x1024x1024 ![] bcast_S_S16x1024x1024 (weight1 (F := F))) (extractStridedSlice S16x1024x1024 ![0, 2, 0] z slices_S16x1032x1024_S16x1024x1024_0_2_0)))
    (mulf (broadcastInDim S16x1024x1024 ![] bcast_S_S16x1024x1024 (weight2 (F := F))) (extractStridedSlice S16x1024x1024 ![0, 4, 0] z slices_S16x1032x1024_S16x1024x1024_0_4_0)))
    (mulf (broadcastInDim S16x1024x1024 ![] bcast_S_S16x1024x1024 (weight3 (F := F))) (extractStridedSlice S16x1024x1024 ![0, 6, 0] z slices_S16x1032x1024_S16x1024x1024_0_6_0)))
    (mulf (broadcastInDim S16x1024x1024 ![] bcast_S_S16x1024x1024 (weight4 (F := F))) (extractStridedSlice S16x1024x1024 ![0, 8, 0] z slices_S16x1032x1024_S16x1024x1024_0_8_0))

/-- The one-dimensional step with spacing 2 along axis 1: pad, then the five-tap sum. -/
def convRows2 (y : FVec F S16x1024x1024 .f32) : FVec F S16x1024x1024 .f32 := convRows2P (padRows2 y)

/-- The five-tap sum over an array `z` already padded by 4 along axis 2: slices at offsets 0, 2, 4, 6, 8. -/
def convCols2P (z : FVec F S16x1024x1032 .f32) : FVec F S16x1024x1024 .f32 :=
  addf (addf (addf (addf
    (mulf (broadcastInDim S16x1024x1024 ![] bcast_S_S16x1024x1024 (weight0 (F := F))) (extractStridedSlice S16x1024x1024 ![0, 0, 0] z slices_S16x1024x1032_S16x1024x1024_0_0_0))
    (mulf (broadcastInDim S16x1024x1024 ![] bcast_S_S16x1024x1024 (weight1 (F := F))) (extractStridedSlice S16x1024x1024 ![0, 0, 2] z slices_S16x1024x1032_S16x1024x1024_0_0_2)))
    (mulf (broadcastInDim S16x1024x1024 ![] bcast_S_S16x1024x1024 (weight2 (F := F))) (extractStridedSlice S16x1024x1024 ![0, 0, 4] z slices_S16x1024x1032_S16x1024x1024_0_0_4)))
    (mulf (broadcastInDim S16x1024x1024 ![] bcast_S_S16x1024x1024 (weight3 (F := F))) (extractStridedSlice S16x1024x1024 ![0, 0, 6] z slices_S16x1024x1032_S16x1024x1024_0_0_6)))
    (mulf (broadcastInDim S16x1024x1024 ![] bcast_S_S16x1024x1024 (weight4 (F := F))) (extractStridedSlice S16x1024x1024 ![0, 0, 8] z slices_S16x1024x1032_S16x1024x1024_0_0_8))

/-- The one-dimensional step with spacing 2 along axis 2: pad, then the five-tap sum. -/
def convCols2 (y : FVec F S16x1024x1024 .f32) : FVec F S16x1024x1024 .f32 := convCols2P (padCols2 y)

/-- The five-tap sum over an array `z` already padded by 8 along axis 1: slices at offsets 0, 4, 8, 12, 16. -/
def convRows4P (z : FVec F S16x1040x1024 .f32) : FVec F S16x1024x1024 .f32 :=
  addf (addf (addf (addf
    (mulf (broadcastInDim S16x1024x1024 ![] bcast_S_S16x1024x1024 (weight0 (F := F))) (extractStridedSlice S16x1024x1024 ![0, 0, 0] z slices_S16x1040x1024_S16x1024x1024_0_0_0))
    (mulf (broadcastInDim S16x1024x1024 ![] bcast_S_S16x1024x1024 (weight1 (F := F))) (extractStridedSlice S16x1024x1024 ![0, 4, 0] z slices_S16x1040x1024_S16x1024x1024_0_4_0)))
    (mulf (broadcastInDim S16x1024x1024 ![] bcast_S_S16x1024x1024 (weight2 (F := F))) (extractStridedSlice S16x1024x1024 ![0, 8, 0] z slices_S16x1040x1024_S16x1024x1024_0_8_0)))
    (mulf (broadcastInDim S16x1024x1024 ![] bcast_S_S16x1024x1024 (weight3 (F := F))) (extractStridedSlice S16x1024x1024 ![0, 12, 0] z slices_S16x1040x1024_S16x1024x1024_0_12_0)))
    (mulf (broadcastInDim S16x1024x1024 ![] bcast_S_S16x1024x1024 (weight4 (F := F))) (extractStridedSlice S16x1024x1024 ![0, 16, 0] z slices_S16x1040x1024_S16x1024x1024_0_16_0))

/-- The one-dimensional step with spacing 4 along axis 1: pad, then the five-tap sum. -/
def convRows4 (y : FVec F S16x1024x1024 .f32) : FVec F S16x1024x1024 .f32 := convRows4P (padRows4 y)

/-- The five-tap sum over an array `z` already padded by 8 along axis 2: slices at offsets 0, 4, 8, 12, 16. -/
def convCols4P (z : FVec F S16x1024x1040 .f32) : FVec F S16x1024x1024 .f32 :=
  addf (addf (addf (addf
    (mulf (broadcastInDim S16x1024x1024 ![] bcast_S_S16x1024x1024 (weight0 (F := F))) (extractStridedSlice S16x1024x1024 ![0, 0, 0] z slices_S16x1024x1040_S16x1024x1024_0_0_0))
    (mulf (broadcastInDim S16x1024x1024 ![] bcast_S_S16x1024x1024 (weight1 (F := F))) (extractStridedSlice S16x1024x1024 ![0, 0, 4] z slices_S16x1024x1040_S16x1024x1024_0_0_4)))
    (mulf (broadcastInDim S16x1024x1024 ![] bcast_S_S16x1024x1024 (weight2 (F := F))) (extractStridedSlice S16x1024x1024 ![0, 0, 8] z slices_S16x1024x1040_S16x1024x1024_0_0_8)))
    (mulf (broadcastInDim S16x1024x1024 ![] bcast_S_S16x1024x1024 (weight3 (F := F))) (extractStridedSlice S16x1024x1024 ![0, 0, 12] z slices_S16x1024x1040_S16x1024x1024_0_0_12)))
    (mulf (broadcastInDim S16x1024x1024 ![] bcast_S_S16x1024x1024 (weight4 (F := F))) (extractStridedSlice S16x1024x1024 ![0, 0, 16] z slices_S16x1024x1040_S16x1024x1024_0_0_16))

/-- The one-dimensional step with spacing 4 along axis 2: pad, then the five-tap sum. -/
def convCols4 (y : FVec F S16x1024x1024 .f32) : FVec F S16x1024x1024 .f32 := convCols4P (padCols4 y)

/-- The three smooth images. -/
def y1 (x : FVec F S16x1024x1024 .f32) : FVec F S16x1024x1024 .f32 := convCols1 (convRows1 x)
def y2 (x : FVec F S16x1024x1024 .f32) : FVec F S16x1024x1024 .f32 := convCols2 (convRows2 (y1 x))
def y3 (x : FVec F S16x1024x1024 .f32) : FVec F S16x1024x1024 .f32 := convCols4 (convRows4 (y2 x))

/-- One channel of the result: the image given a unit axis in position 1. -/
def chan (v : FVec F S16x1024x1024 .f32) : FVec F S16x1x1024x1024 .f32 :=
  broadcastInDim S16x1x1024x1024 ![0, 2, 3] bcast_S16x1024x1024_S16x1x1024x1024_0_2_3 v

/-- The result: the three differences and the last smooth image, concatenated along axis 1. -/
def out (x : FVec F S16x1024x1024 .f32) : FVec F S16x4x1024x1024 .f32 :=
  concatenate S16x4x1024x1024 1 [⟨S16x1x1024x1024, chan (subf x (y1 x))⟩, ⟨S16x1x1024x1024, chan (subf (y1 x) (y2 x))⟩, ⟨S16x1x1024x1024, chan (subf (y2 x) (y3 x))⟩, ⟨S16x1x1024x1024, chan (y3 x)⟩] concatenates_S16x1x1024x1024_S16x1x1024x1024_S16x1x1024x1024_S16x1x1024x1024_S16x4x1024x1024_d1

end Cert.ReferenceIdeal.Stages

end
-- ==== Proof.RefValue.lean ====
/-
  The value of the reference's operations, index by index: the four-channel array `Stages.out x` is the
  specification's `Cert.Wavelet.result x`.

  A reflect padding by `p` of an axis of 1024 entries reads, at padded position `m`, the entry `p − m` before
  position `p`, the entry `m − p` inside, and the entry `2046 + p − m` from position `1024 + p` on. A five-tap step
  with spacing `d` reads the array padded by `2d` at positions `r, r + d, …, r + 4d`, which are the positions
  `r − 2d, r − d, r, r + d, r + 2d` reflected at the two ends: the specification's `tap5`.
-/
import proofs.«159894_j34797825032657_2_alg».proof.Proof.RefStages
import proofs.«159894_j34797825032657_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx Cert.Wavelet

/-! ## Reversal and slices at an index -/

section Layout
variable {α : Type}

/-- A reversal along axis 1 of a rank-3 array reads the mirrored position on that axis. -/
theorem reverse1_apply {n0 n1 n2 : Nat} (x : (⟨3, ![n0, n1, n2]⟩ : Shape).Idx → α) (a : Fin n0) (b : Fin n1) (c : Fin n2) :
    Host.reverse [1] x (ix3 a b c) = x (ix3 a b.rev c) := by
  unfold Host.reverse
  refine congrArg x (funext fun d => ?_)
  match d with
  | ⟨0, _⟩ => rfl
  | ⟨1, _⟩ => rfl
  | ⟨2, _⟩ => rfl

/-- A reversal along axis 2 of a rank-3 array reads the mirrored position on that axis. -/
theorem reverse2_apply {n0 n1 n2 : Nat} (x : (⟨3, ![n0, n1, n2]⟩ : Shape).Idx → α) (a : Fin n0) (b : Fin n1) (c : Fin n2) :
    Host.reverse [2] x (ix3 a b c) = x (ix3 a b c.rev) := by
  unfold Host.reverse
  refine congrArg x (funext fun d => ?_)
  match d with
  | ⟨0, _⟩ => rfl
  | ⟨1, _⟩ => rfl
  | ⟨2, _⟩ => rfl

/-- A slice of rows: position `r` of the slice is position `o + r` of the array. -/
theorem sliceRows_apply {n m : Nat} (o : Nat) (z : (⟨3, ![16, n, 1024]⟩ : Shape).Idx → α)
    (h : (⟨3, ![16, n, 1024]⟩ : Shape).Slices ![0, o, 0] ⟨3, ![16, m, 1024]⟩) (b : Fin 16) (r : Fin m) (q : Fin 1024)
    (r' : Fin n) (hr : r'.val = o + r.val) :
    extractStridedSlice ⟨3, ![16, m, 1024]⟩ ![0, o, 0] z h (ix3 b r q) = z (ix3 b r' q) :=
  extractStridedSlice_apply _ z h (ix3 b r q) (ix3 b r' q) (fun a => by
    match a with
    | ⟨0, _⟩ => show b.val = 0 + b.val; omega
    | ⟨1, _⟩ => exact hr
    | ⟨2, _⟩ => show q.val = 0 + q.val; omega)

/-- A slice of columns: position `q` of the slice is position `o + q` of the array. -/
theorem sliceCols_apply {n m : Nat} (o : Nat) (z : (⟨3, ![16, 1024, n]⟩ : Shape).Idx → α)
    (h : (⟨3, ![16, 1024, n]⟩ : Shape).Slices ![0, 0, o] ⟨3, ![16, 1024, m]⟩) (b : Fin 16) (r : Fin 1024) (q : Fin m)
    (q' : Fin n) (hq : q'.val = o + q.val) :
    extractStridedSlice ⟨3, ![16, 1024, m]⟩ ![0, 0, o] z h (ix3 b r q) = z (ix3 b r q') :=
  extractStridedSlice_apply _ z h (ix3 b r q) (ix3 b r q') (fun a => by
    match a with
    | ⟨0, _⟩ => show b.val = 0 + b.val; omega
    | ⟨1, _⟩ => show r.val = 0 + r.val; omega
    | ⟨2, _⟩ => exact hq)

end Layout

/-! ## The reflect padding at an index -/

/-- The entry a reflect padding by `p` of an axis of 1024 entries reads at padded position `m`. -/
def refl (p m : Nat) : Nat := if m < p then p - m else if m < 1024 + p then m - p else 2046 + p - m

section Pad
variable {α : Type}

/-- The inner concatenation of a reflect padding of the rows by `p`: the mirrored entries `p − m` before position `p`, then the array. -/
theorem padRowsL_apply (p n2 : Nat) (hn2 : n2 = 1024 + p) (hp : p ≤ 1023)
    (y : (⟨3, ![16, 1024, 1024]⟩ : Shape).Idx → α)
    (h1 : (⟨3, ![16, 1024, 1024]⟩ : Shape).Slices ![0, 1, 0] ⟨3, ![16, p, 1024]⟩)
    (hc1 : Shape.Concatenates [(⟨3, ![16, p, 1024]⟩ : Shape), ⟨3, ![16, 1024, 1024]⟩] ⟨3, ![16, n2, 1024]⟩ 1)
    (b : Fin 16) (m : Fin n2) (q : Fin 1024) (s : Fin 1024)
    (hs : s.val = if m.val < p then p - m.val else m.val - p) :
    concatenate ⟨3, ![16, n2, 1024]⟩ 1 [⟨⟨3, ![16, p, 1024]⟩, Host.reverse [1] (extractStridedSlice ⟨3, ![16, p, 1024]⟩ ![0, 1, 0] y h1)⟩,
      ⟨⟨3, ![16, 1024, 1024]⟩, y⟩] hc1 (ix3 b m q) = y (ix3 b s q) := by
  by_cases hm : m.val < p
  · rw [if_pos hm] at hs
    refine (concatenate_pair_apply_left (t := ⟨3, ![16, n2, 1024]⟩) (s₁ := ⟨3, ![16, p, 1024]⟩) (s₂ := ⟨3, ![16, 1024, 1024]⟩) (1 : Fin 3) _ _ hc1 _ rfl
      (ix3 b (⟨m.val, hm⟩ : Fin p) q) (fun a => by
      match a with
      | ⟨0, _⟩ => rfl
      | ⟨1, _⟩ => rfl
      | ⟨2, _⟩ => rfl)).trans ?_
    rw [reverse1_apply]
    exact sliceRows_apply 1 y h1 b _ q s (by rw [hs, Fin.val_rev]; show p - m.val = 1 + (p - (m.val + 1)); omega)
  · rw [if_neg hm] at hs
    exact concatenate_pair_apply_right (t := ⟨3, ![16, n2, 1024]⟩) (s₁ := ⟨3, ![16, p, 1024]⟩) (s₂ := ⟨3, ![16, 1024, 1024]⟩) (1 : Fin 3) _ _ hc1 _ rfl rfl
      (ix3 b s q) (fun a ha => by
      match a with
      | ⟨0, _⟩ => rfl
      | ⟨1, _⟩ => exact absurd rfl ha
      | ⟨2, _⟩ => rfl) (by show s.val + p = m.val; have := m.isLt; omega)

/-- The whole reflect padding of the rows by `p`, over an inner concatenation `L` that reads as above: position `m` reads entry `refl p m`. -/
theorem padRowsR_apply (p n2 n3 : Nat) (hn2 : n2 = 1024 + p) (hn3 : n3 = n2 + p) (hp1 : 1 ≤ p) (hp : p ≤ 1022)
    (y : (⟨3, ![16, 1024, 1024]⟩ : Shape).Idx → α) (L : (⟨3, ![16, n2, 1024]⟩ : Shape).Idx → α)
    (hL : ∀ (b : Fin 16) (m : Fin n2) (q : Fin 1024) (s : Fin 1024), s.val = (if m.val < p then p - m.val else m.val - p) →
      L (ix3 b m q) = y (ix3 b s q))
    (h2 : (⟨3, ![16, n2, 1024]⟩ : Shape).Slices ![0, 1023, 0] ⟨3, ![16, p, 1024]⟩)
    (hc2 : Shape.Concatenates [(⟨3, ![16, n2, 1024]⟩ : Shape), ⟨3, ![16, p, 1024]⟩] ⟨3, ![16, n3, 1024]⟩ 1)
    (b : Fin 16) (m : Fin n3) (q : Fin 1024) (s : Fin 1024) (hs : s.val = refl p m.val) :
    concatenate ⟨3, ![16, n3, 1024]⟩ 1 [⟨⟨3, ![16, n2, 1024]⟩, L⟩,
      ⟨⟨3, ![16, p, 1024]⟩, Host.reverse [1] (extractStridedSlice ⟨3, ![16, p, 1024]⟩ ![0, 1023, 0] L h2)⟩] hc2 (ix3 b m q) = y (ix3 b s q) := by
  unfold refl at hs
  by_cases hm : m.val < n2
  · refine (concatenate_pair_apply_left (t := ⟨3, ![16, n3, 1024]⟩) (s₁ := ⟨3, ![16, n2, 1024]⟩) (s₂ := ⟨3, ![16, p, 1024]⟩) (1 : Fin 3) _ _ hc2 _ rfl
      (ix3 b (⟨m.val, hm⟩ : Fin n2) q) (fun a => by
      match a with
      | ⟨0, _⟩ => rfl
      | ⟨1, _⟩ => rfl
      | ⟨2, _⟩ => rfl)).trans ?_
    refine hL b _ q s ?_
    rw [hs]; show _ = if m.val < p then p - m.val else m.val - p
    split_ifs <;> omega
  · have hm3 := m.isLt
    refine (concatenate_pair_apply_right (t := ⟨3, ![16, n3, 1024]⟩) (s₁ := ⟨3, ![16, n2, 1024]⟩) (s₂ := ⟨3, ![16, p, 1024]⟩) (1 : Fin 3) _ _ hc2 _ rfl rfl
      (ix3 b (⟨m.val - n2, by omega⟩ : Fin p) q) (fun a ha => by
      match a with
      | ⟨0, _⟩ => rfl
      | ⟨1, _⟩ => exact absurd rfl ha
      | ⟨2, _⟩ => rfl) (by show m.val - n2 + n2 = m.val; omega)).trans ?_
    rw [reverse1_apply]
    refine (sliceRows_apply 1023 L h2 b _ q (⟨1023 + (p - (m.val - n2 + 1)), by omega⟩ : Fin n2) (by
      rw [Fin.val_rev])).trans ?_
    refine hL b _ q s ?_
    rw [hs]; show _ = if 1023 + (p - (m.val - n2 + 1)) < p then p - (1023 + (p - (m.val - n2 + 1))) else 1023 + (p - (m.val - n2 + 1)) - p
    split_ifs <;> omega

/-- The inner concatenation of a reflect padding of the columns by `p`: the mirrored entries `p − m` before position `p`, then the array. -/
theorem padColsL_apply (p n2 : Nat) (hn2 : n2 = 1024 + p) (hp : p ≤ 1023)
    (y : (⟨3, ![16, 1024, 1024]⟩ : Shape).Idx → α)
    (h1 : (⟨3, ![16, 1024, 1024]⟩ : Shape).Slices ![0, 0, 1] ⟨3, ![16, 1024, p]⟩)
    (hc1 : Shape.Concatenates [(⟨3, ![16, 1024, p]⟩ : Shape), ⟨3, ![16, 1024, 1024]⟩] ⟨3, ![16, 1024, n2]⟩ 2)
    (b : Fin 16) (r : Fin 1024) (m : Fin n2) (s : Fin 1024)
    (hs : s.val = if m.val < p then p - m.val else m.val - p) :
    concatenate ⟨3, ![16, 1024, n2]⟩ 2 [⟨⟨3, ![16, 1024, p]⟩, Host.reverse [2] (extractStridedSlice ⟨3, ![16, 1024, p]⟩ ![0, 0, 1] y h1)⟩,
      ⟨⟨3, ![16, 1024, 1024]⟩, y⟩] hc1 (ix3 b r m) = y (ix3 b r s) := by
  by_cases hm : m.val < p
  · rw [if_pos hm] at hs
    refine (concatenate_pair_apply_left (t := ⟨3, ![16, 1024, n2]⟩) (s₁ := ⟨3, ![16, 1024, p]⟩) (s₂ := ⟨3, ![16, 1024, 1024]⟩) (2 : Fin 3) _ _ hc1 _ rfl
      (ix3 b r (⟨m.val, hm⟩ : Fin p)) (fun a => by
      match a with
      | ⟨0, _⟩ => rfl
      | ⟨1, _⟩ => rfl
      | ⟨2, _⟩ => rfl)).trans ?_
    rw [reverse2_apply]
    exact sliceCols_apply 1 y h1 b r _ s (by rw [hs, Fin.val_rev]; show p - m.val = 1 + (p - (m.val + 1)); omega)
  · rw [if_neg hm] at hs
    exact concatenate_pair_apply_right (t := ⟨3, ![16, 1024, n2]⟩) (s₁ := ⟨3, ![16, 1024, p]⟩) (s₂ := ⟨3, ![16, 1024, 1024]⟩) (2 : Fin 3) _ _ hc1 _ rfl rfl
      (ix3 b r s) (fun a ha => by
      match a with
      | ⟨0, _⟩ => rfl
      | ⟨1, _⟩ => rfl
      | ⟨2, _⟩ => exact absurd rfl ha) (by show s.val + p = m.val; have := m.isLt; omega)

/-- The whole reflect padding of the columns by `p`, over an inner concatenation `L` that reads as above: position `m` reads entry `refl p m`. -/
theorem padColsR_apply (p n2 n3 : Nat) (hn2 : n2 = 1024 + p) (hn3 : n3 = n2 + p) (hp1 : 1 ≤ p) (hp : p ≤ 1022)
    (y : (⟨3, ![16, 1024, 1024]⟩ : Shape).Idx → α) (L : (⟨3, ![16, 1024, n2]⟩ : Shape).Idx → α)
    (hL : ∀ (b : Fin 16) (r : Fin 1024) (m : Fin n2) (s : Fin 1024), s.val = (if m.val < p then p - m.val else m.val - p) →
      L (ix3 b r m) = y (ix3 b r s))
    (h2 : (⟨3, ![16, 1024, n2]⟩ : Shape).Slices ![0, 0, 1023] ⟨3, ![16, 1024, p]⟩)
    (hc2 : Shape.Concatenates [(⟨3, ![16, 1024, n2]⟩ : Shape), ⟨3, ![16, 1024, p]⟩] ⟨3, ![16, 1024, n3]⟩ 2)
    (b : Fin 16) (r : Fin 1024) (m : Fin n3) (s : Fin 1024) (hs : s.val = refl p m.val) :
    concatenate ⟨3, ![16, 1024, n3]⟩ 2 [⟨⟨3, ![16, 1024, n2]⟩, L⟩,
      ⟨⟨3, ![16, 1024, p]⟩, Host.reverse [2] (extractStridedSlice ⟨3, ![16, 1024, p]⟩ ![0, 0, 1023] L h2)⟩] hc2 (ix3 b r m) = y (ix3 b r s) := by
  unfold refl at hs
  by_cases hm : m.val < n2
  · refine (concatenate_pair_apply_left (t := ⟨3, ![16, 1024, n3]⟩) (s₁ := ⟨3, ![16, 1024, n2]⟩) (s₂ := ⟨3, ![16, 1024, p]⟩) (2 : Fin 3) _ _ hc2 _ rfl
      (ix3 b r (⟨m.val, hm⟩ : Fin n2)) (fun a => by
      match a with
      | ⟨0, _⟩ => rfl
      | ⟨1, _⟩ => rfl
      | ⟨2, _⟩ => rfl)).trans ?_
    refine hL b r _ s ?_
    rw [hs]; show _ = if m.val < p then p - m.val else m.val - p
    split_ifs <;> omega
  · have hm3 := m.isLt
    refine (concatenate_pair_apply_right (t := ⟨3, ![16, 1024, n3]⟩) (s₁ := ⟨3, ![16, 1024, n2]⟩) (s₂ := ⟨3, ![16, 1024, p]⟩) (2 : Fin 3) _ _ hc2 _ rfl rfl
      (ix3 b r (⟨m.val - n2, by omega⟩ : Fin p)) (fun a ha => by
      match a with
      | ⟨0, _⟩ => rfl
      | ⟨1, _⟩ => rfl
      | ⟨2, _⟩ => exact absurd rfl ha) (by show m.val - n2 + n2 = m.val; omega)).trans ?_
    rw [reverse2_apply]
    refine (sliceCols_apply 1023 L h2 b r _ (⟨1023 + (p - (m.val - n2 + 1)), by omega⟩ : Fin n2) (by
      rw [Fin.val_rev])).trans ?_
    refine hL b r _ s ?_
    rw [hs]; show _ = if 1023 + (p - (m.val - n2 + 1)) < p then p - (1023 + (p - (m.val - n2 + 1))) else 1023 + (p - (m.val - n2 + 1)) - p
    split_ifs <;> omega

end Pad

/-! ## The weights and the five-tap sum at an index -/

section Taps
variable [Facts₀]
open Facts₀

/-- The one index of a vector of one entry. -/
theorem idx_one (k : (⟨1, ![1]⟩ : Shape).Idx) : k = ix1 (0 : Fin 1) :=
  (eq_ix1 k).trans (congrArg ix1 (Fin.ext (by have h : (k 0).val < 1 := (k 0).isLt; show (k 0).val = 0; omega)))

/-- Entry `k` of the constant vector, sliced out and reshaped to a scalar, is the `k`-th word of the constant. -/
theorem weight_val (k : Nat) (hk : k < 5) (wd : BitVec 32) (hw : lit0 ⟨k, hk⟩ = wd)
    (hsl : S5.Slices ![k] S1) (hsc : S1.ShapeCasts S_) (i : S_.Idx) :
    shapeCast S_ (extractStridedSlice S1 ![k] (Stages.cst (F := Ideal)) hsl) hsc i = Ideal.ofBits .f32 wd := by
  unfold shapeCast
  rw [idx_one (Shape.reshapeEquiv hsc i)]
  refine (extractStridedSlice_apply _ _ hsl (ix1 (0 : Fin 1)) (ix1 (⟨k, hk⟩ : Fin 5)) (fun a => by
    match a with
    | ⟨0, _⟩ => show k = k + 0; omega)).trans ?_
  show Ideal.ofBits .f32 (lit0 (S5.rowMajor (ix1 (⟨k, hk⟩ : Fin 5)))) = _
  rw [← hw]
  exact congrArg (fun t => Ideal.ofBits .f32 (lit0 t)) (Fin.ext (Shape.rowMajor_val_one _))

theorem weight0_val (i : S_.Idx) : Stages.weight0 (F := Ideal) i = w16 :=
  weight_val 0 (by norm_num) 0x3D800000#32 rfl slices_S5_S1_0 shapeCasts_S1_S_ i
theorem weight1_val (i : S_.Idx) : Stages.weight1 (F := Ideal) i = w4 :=
  weight_val 1 (by norm_num) 0x3E800000#32 rfl slices_S5_S1_1 shapeCasts_S1_S_ i
theorem weight2_val (i : S_.Idx) : Stages.weight2 (F := Ideal) i = w38 :=
  weight_val 2 (by norm_num) 0x3EC00000#32 rfl slices_S5_S1_2 shapeCasts_S1_S_ i
theorem weight3_val (i : S_.Idx) : Stages.weight3 (F := Ideal) i = w4 :=
  weight_val 3 (by norm_num) 0x3E800000#32 rfl slices_S5_S1_3 shapeCasts_S1_S_ i
theorem weight4_val (i : S_.Idx) : Stages.weight4 (F := Ideal) i = w16 :=
  weight_val 4 (by norm_num) 0x3D800000#32 rfl slices_S5_S1_4 shapeCasts_S1_S_ i

/-- A scalar broadcast to the image shape reads the scalar everywhere. -/
theorem bcast0_apply (hb : S_.BroadcastsInDim S16x1024x1024 (![] : Fin 0 → Fin S16x1024x1024.rank))
    (w : FVec Ideal S_ .f32) (i : S16x1024x1024.Idx) :
    broadcastInDim S16x1024x1024 ![] hb w i = w ix0 :=
  broadcastInDim_apply _ hb w i ix0 (fun a => a.elim0)

/-- The five products, each weight on the left, added from the left, at an index. -/
theorem tapsum_apply (s0 s1 s2 s3 s4 : FVec Ideal S16x1024x1024 .f32) (i : S16x1024x1024.Idx) :
    addf (addf (addf (addf
      (mulf (broadcastInDim S16x1024x1024 ![] bcast_S_S16x1024x1024 (Stages.weight0 (F := Ideal))) s0)
      (mulf (broadcastInDim S16x1024x1024 ![] bcast_S_S16x1024x1024 (Stages.weight1 (F := Ideal))) s1))
      (mulf (broadcastInDim S16x1024x1024 ![] bcast_S_S16x1024x1024 (Stages.weight2 (F := Ideal))) s2))
      (mulf (broadcastInDim S16x1024x1024 ![] bcast_S_S16x1024x1024 (Stages.weight3 (F := Ideal))) s3))
      (mulf (broadcastInDim S16x1024x1024 ![] bcast_S_S16x1024x1024 (Stages.weight4 (F := Ideal))) s4) i
      = w16 * s0 i + w4 * s1 i + w38 * s2 i + w4 * s3 i + w16 * s4 i := by
  rw [addf_apply, addf_apply, addf_apply, addf_apply, mulf_apply, mulf_apply, mulf_apply, mulf_apply, mulf_apply,
    bcast0_apply, bcast0_apply, bcast0_apply, bcast0_apply, bcast0_apply,
    weight0_val, weight1_val, weight2_val, weight3_val, weight4_val]

/-! ## The six paddings and the six steps -/

section PadInst
variable {F : FTy → Type} [FloatOps F]

/-- The reflect padding of the rows by 2 reads entry `refl 2 m` at position `m`. -/
theorem padRows1_apply (y : FVec F S16x1024x1024 .f32) (b : Fin 16) (m : Fin 1028) (q : Fin 1024) (s : Fin 1024) (hs : s.val = refl 2 m.val) :
    Stages.padRows1 y (ix3 b m q) = y (ix3 b s q) :=
  padRowsR_apply 2 1026 1028 rfl rfl (by norm_num) (by norm_num) y (Stages.padRows1L y)
    (fun b m q s hs => padRowsL_apply 2 1026 rfl (by norm_num) y _ _ b m q s hs) _ _ b m q s hs

/-- The reflect padding of the columns by 2 reads entry `refl 2 m` at position `m`. -/
theorem padCols1_apply (y : FVec F S16x1024x1024 .f32) (b : Fin 16) (r : Fin 1024) (m : Fin 1028) (s : Fin 1024) (hs : s.val = refl 2 m.val) :
    Stages.padCols1 y (ix3 b r m) = y (ix3 b r s) :=
  padColsR_apply 2 1026 1028 rfl rfl (by norm_num) (by norm_num) y (Stages.padCols1L y)
    (fun b r m s hs => padColsL_apply 2 1026 rfl (by norm_num) y _ _ b r m s hs) _ _ b r m s hs

/-- The reflect padding of the rows by 4 reads entry `refl 4 m` at position `m`. -/
theorem padRows2_apply (y : FVec F S16x1024x1024 .f32) (b : Fin 16) (m : Fin 1032) (q : Fin 1024) (s : Fin 1024) (hs : s.val = refl 4 m.val) :
    Stages.padRows2 y (ix3 b m q) = y (ix3 b s q) :=
  padRowsR_apply 4 1028 1032 rfl rfl (by norm_num) (by norm_num) y (Stages.padRows2L y)
    (fun b m q s hs => padRowsL_apply 4 1028 rfl (by norm_num) y _ _ b m q s hs) _ _ b m q s hs

/-- The reflect padding of the columns by 4 reads entry `refl 4 m` at position `m`. -/
theorem padCols2_apply (y : FVec F S16x1024x1024 .f32) (b : Fin 16) (r : Fin 1024) (m : Fin 1032) (s : Fin 1024) (hs : s.val = refl 4 m.val) :
    Stages.padCols2 y (ix3 b r m) = y (ix3 b r s) :=
  padColsR_apply 4 1028 1032 rfl rfl (by norm_num) (by norm_num) y (Stages.padCols2L y)
    (fun b r m s hs => padColsL_apply 4 1028 rfl (by norm_num) y _ _ b r m s hs) _ _ b r m s hs

/-- The reflect padding of the rows by 8 reads entry `refl 8 m` at position `m`. -/
theorem padRows4_apply (y : FVec F S16x1024x1024 .f32) (b : Fin 16) (m : Fin 1040) (q : Fin 1024) (s : Fin 1024) (hs : s.val = refl 8 m.val) :
    Stages.padRows4 y (ix3 b m q) = y (ix3 b s q) :=
  padRowsR_apply 8 1032 1040 rfl rfl (by norm_num) (by norm_num) y (Stages.padRows4L y)
    (fun b m q s hs => padRowsL_apply 8 1032 rfl (by norm_num) y _ _ b m q s hs) _ _ b m q s hs

/-- The reflect padding of the columns by 8 reads entry `refl 8 m` at position `m`. -/
theorem padCols4_apply (y : FVec F S16x1024x1024 .f32) (b : Fin 16) (r : Fin 1024) (m : Fin 1040) (s : Fin 1024) (hs : s.val = refl 8 m.val) :
    Stages.padCols4 y (ix3 b r m) = y (ix3 b r s) :=
  padColsR_apply 8 1032 1040 rfl rfl (by norm_num) (by norm_num) y (Stages.padCols4L y)
    (fun b r m s hs => padColsL_apply 8 1032 rfl (by norm_num) y _ _ b r m s hs) _ _ b r m s hs

end PadInst

/-- The step with spacing 1 along the rows is the five-tap average of each line. -/
theorem convRows1_apply (y : FVec Ideal S16x1024x1024 .f32) (b : Fin 16) (r q : Fin 1024) :
    Stages.convRows1 y (ix3 b r q) = tap5 (fun r' => y (ix3 b r' q)) 1 r := by
  have hv := r.isLt
  have h0 := (sliceRows_apply 0 (Stages.padRows1 y) slices_S16x1028x1024_S16x1024x1024_0_0_0 b r q (⟨r.val + 0, by omega⟩ : Fin 1028) (by show r.val + 0 = 0 + r.val; omega)).trans
    (padRows1_apply y b _ q (pos (dn r.val (2 * 1))) (by show dn r.val _ % 1024 = refl 2 (r.val + 0); unfold dn refl; split_ifs <;> omega))
  have h1 := (sliceRows_apply 1 (Stages.padRows1 y) slices_S16x1028x1024_S16x1024x1024_0_1_0 b r q (⟨r.val + 1, by omega⟩ : Fin 1028) (by show r.val + 1 = 1 + r.val; omega)).trans
    (padRows1_apply y b _ q (pos (dn r.val 1)) (by show dn r.val _ % 1024 = refl 2 (r.val + 1); unfold dn refl; split_ifs <;> omega))
  have h2 := (sliceRows_apply 2 (Stages.padRows1 y) slices_S16x1028x1024_S16x1024x1024_0_2_0 b r q (⟨r.val + 2, by omega⟩ : Fin 1028) (by show r.val + 2 = 2 + r.val; omega)).trans
    (padRows1_apply y b _ q r (by show r.val = refl 2 (r.val + 2); unfold refl; split_ifs <;> omega))
  have h3 := (sliceRows_apply 3 (Stages.padRows1 y) slices_S16x1028x1024_S16x1024x1024_0_3_0 b r q (⟨r.val + 3, by omega⟩ : Fin 1028) (by show r.val + 3 = 3 + r.val; omega)).trans
    (padRows1_apply y b _ q (pos (up r.val 1)) (by show up r.val _ % 1024 = refl 2 (r.val + 3); unfold up refl; split_ifs <;> omega))
  have h4 := (sliceRows_apply 4 (Stages.padRows1 y) slices_S16x1028x1024_S16x1024x1024_0_4_0 b r q (⟨r.val + 4, by omega⟩ : Fin 1028) (by show r.val + 4 = 4 + r.val; omega)).trans
    (padRows1_apply y b _ q (pos (up r.val (2 * 1))) (by show up r.val _ % 1024 = refl 2 (r.val + 4); unfold up refl; split_ifs <;> omega))
  unfold Stages.convRows1 Stages.convRows1P
  rw [tapsum_apply, h0, h1, h2, h3, h4]
  rfl

/-- The step with spacing 1 along the columns is the five-tap average of each line. -/
theorem convCols1_apply (y : FVec Ideal S16x1024x1024 .f32) (b : Fin 16) (r q : Fin 1024) :
    Stages.convCols1 y (ix3 b r q) = tap5 (fun q' => y (ix3 b r q')) 1 q := by
  have hv := q.isLt
  have h0 := (sliceCols_apply 0 (Stages.padCols1 y) slices_S16x1024x1028_S16x1024x1024_0_0_0 b r q (⟨q.val + 0, by omega⟩ : Fin 1028) (by show q.val + 0 = 0 + q.val; omega)).trans
    (padCols1_apply y b r _ (pos (dn q.val (2 * 1))) (by show dn q.val _ % 1024 = refl 2 (q.val + 0); unfold dn refl; split_ifs <;> omega))
  have h1 := (sliceCols_apply 1 (Stages.padCols1 y) slices_S16x1024x1028_S16x1024x1024_0_0_1 b r q (⟨q.val + 1, by omega⟩ : Fin 1028) (by show q.val + 1 = 1 + q.val; omega)).trans
    (padCols1_apply y b r _ (pos (dn q.val 1)) (by show dn q.val _ % 1024 = refl 2 (q.val + 1); unfold dn refl; split_ifs <;> omega))
  have h2 := (sliceCols_apply 2 (Stages.padCols1 y) slices_S16x1024x1028_S16x1024x1024_0_0_2 b r q (⟨q.val + 2, by omega⟩ : Fin 1028) (by show q.val + 2 = 2 + q.val; omega)).trans
    (padCols1_apply y b r _ q (by show q.val = refl 2 (q.val + 2); unfold refl; split_ifs <;> omega))
  have h3 := (sliceCols_apply 3 (Stages.padCols1 y) slices_S16x1024x1028_S16x1024x1024_0_0_3 b r q (⟨q.val + 3, by omega⟩ : Fin 1028) (by show q.val + 3 = 3 + q.val; omega)).trans
    (padCols1_apply y b r _ (pos (up q.val 1)) (by show up q.val _ % 1024 = refl 2 (q.val + 3); unfold up refl; split_ifs <;> omega))
  have h4 := (sliceCols_apply 4 (Stages.padCols1 y) slices_S16x1024x1028_S16x1024x1024_0_0_4 b r q (⟨q.val + 4, by omega⟩ : Fin 1028) (by show q.val + 4 = 4 + q.val; omega)).trans
    (padCols1_apply y b r _ (pos (up q.val (2 * 1))) (by show up q.val _ % 1024 = refl 2 (q.val + 4); unfold up refl; split_ifs <;> omega))
  unfold Stages.convCols1 Stages.convCols1P
  rw [tapsum_apply, h0, h1, h2, h3, h4]
  rfl

/-- The step with spacing 2 along the rows is the five-tap average of each line. -/
theorem convRows2_apply (y : FVec Ideal S16x1024x1024 .f32) (b : Fin 16) (r q : Fin 1024) :
    Stages.convRows2 y (ix3 b r q) = tap5 (fun r' => y (ix3 b r' q)) 2 r := by
  have hv := r.isLt
  have h0 := (sliceRows_apply 0 (Stages.padRows2 y) slices_S16x1032x1024_S16x1024x1024_0_0_0 b r q (⟨r.val + 0, by omega⟩ : Fin 1032) (by show r.val + 0 = 0 + r.val; omega)).trans
    (padRows2_apply y b _ q (pos (dn r.val (2 * 2))) (by show dn r.val _ % 1024 = refl 4 (r.val + 0); unfold dn refl; split_ifs <;> omega))
  have h1 := (sliceRows_apply 2 (Stages.padRows2 y) slices_S16x1032x1024_S16x1024x1024_0_2_0 b r q (⟨r.val + 2, by omega⟩ : Fin 1032) (by show r.val + 2 = 2 + r.val; omega)).trans
    (padRows2_apply y b _ q (pos (dn r.val 2)) (by show dn r.val _ % 1024 = refl 4 (r.val + 2); unfold dn refl; split_ifs <;> omega))
  have h2 := (sliceRows_apply 4 (Stages.padRows2 y) slices_S16x1032x1024_S16x1024x1024_0_4_0 b r q (⟨r.val + 4, by omega⟩ : Fin 1032) (by show r.val + 4 = 4 + r.val; omega)).trans
    (padRows2_apply y b _ q r (by show r.val = refl 4 (r.val + 4); unfold refl; split_ifs <;> omega))
  have h3 := (sliceRows_apply 6 (Stages.padRows2 y) slices_S16x1032x1024_S16x1024x1024_0_6_0 b r q (⟨r.val + 6, by omega⟩ : Fin 1032) (by show r.val + 6 = 6 + r.val; omega)).trans
    (padRows2_apply y b _ q (pos (up r.val 2)) (by show up r.val _ % 1024 = refl 4 (r.val + 6); unfold up refl; split_ifs <;> omega))
  have h4 := (sliceRows_apply 8 (Stages.padRows2 y) slices_S16x1032x1024_S16x1024x1024_0_8_0 b r q (⟨r.val + 8, by omega⟩ : Fin 1032) (by show r.val + 8 = 8 + r.val; omega)).trans
    (padRows2_apply y b _ q (pos (up r.val (2 * 2))) (by show up r.val _ % 1024 = refl 4 (r.val + 8); unfold up refl; split_ifs <;> omega))
  unfold Stages.convRows2 Stages.convRows2P
  rw [tapsum_apply, h0, h1, h2, h3, h4]
  rfl

/-- The step with spacing 2 along the columns is the five-tap average of each line. -/
theorem convCols2_apply (y : FVec Ideal S16x1024x1024 .f32) (b : Fin 16) (r q : Fin 1024) :
    Stages.convCols2 y (ix3 b r q) = tap5 (fun q' => y (ix3 b r q')) 2 q := by
  have hv := q.isLt
  have h0 := (sliceCols_apply 0 (Stages.padCols2 y) slices_S16x1024x1032_S16x1024x1024_0_0_0 b r q (⟨q.val + 0, by omega⟩ : Fin 1032) (by show q.val + 0 = 0 + q.val; omega)).trans
    (padCols2_apply y b r _ (pos (dn q.val (2 * 2))) (by show dn q.val _ % 1024 = refl 4 (q.val + 0); unfold dn refl; split_ifs <;> omega))
  have h1 := (sliceCols_apply 2 (Stages.padCols2 y) slices_S16x1024x1032_S16x1024x1024_0_0_2 b r q (⟨q.val + 2, by omega⟩ : Fin 1032) (by show q.val + 2 = 2 + q.val; omega)).trans
    (padCols2_apply y b r _ (pos (dn q.val 2)) (by show dn q.val _ % 1024 = refl 4 (q.val + 2); unfold dn refl; split_ifs <;> omega))
  have h2 := (sliceCols_apply 4 (Stages.padCols2 y) slices_S16x1024x1032_S16x1024x1024_0_0_4 b r q (⟨q.val + 4, by omega⟩ : Fin 1032) (by show q.val + 4 = 4 + q.val; omega)).trans
    (padCols2_apply y b r _ q (by show q.val = refl 4 (q.val + 4); unfold refl; split_ifs <;> omega))
  have h3 := (sliceCols_apply 6 (Stages.padCols2 y) slices_S16x1024x1032_S16x1024x1024_0_0_6 b r q (⟨q.val + 6, by omega⟩ : Fin 1032) (by show q.val + 6 = 6 + q.val; omega)).trans
    (padCols2_apply y b r _ (pos (up q.val 2)) (by show up q.val _ % 1024 = refl 4 (q.val + 6); unfold up refl; split_ifs <;> omega))
  have h4 := (sliceCols_apply 8 (Stages.padCols2 y) slices_S16x1024x1032_S16x1024x1024_0_0_8 b r q (⟨q.val + 8, by omega⟩ : Fin 1032) (by show q.val + 8 = 8 + q.val; omega)).trans
    (padCols2_apply y b r _ (pos (up q.val (2 * 2))) (by show up q.val _ % 1024 = refl 4 (q.val + 8); unfold up refl; split_ifs <;> omega))
  unfold Stages.convCols2 Stages.convCols2P
  rw [tapsum_apply, h0, h1, h2, h3, h4]
  rfl

/-- The step with spacing 4 along the rows is the five-tap average of each line. -/
theorem convRows4_apply (y : FVec Ideal S16x1024x1024 .f32) (b : Fin 16) (r q : Fin 1024) :
    Stages.convRows4 y (ix3 b r q) = tap5 (fun r' => y (ix3 b r' q)) 4 r := by
  have hv := r.isLt
  have h0 := (sliceRows_apply 0 (Stages.padRows4 y) slices_S16x1040x1024_S16x1024x1024_0_0_0 b r q (⟨r.val + 0, by omega⟩ : Fin 1040) (by show r.val + 0 = 0 + r.val; omega)).trans
    (padRows4_apply y b _ q (pos (dn r.val (2 * 4))) (by show dn r.val _ % 1024 = refl 8 (r.val + 0); unfold dn refl; split_ifs <;> omega))
  have h1 := (sliceRows_apply 4 (Stages.padRows4 y) slices_S16x1040x1024_S16x1024x1024_0_4_0 b r q (⟨r.val + 4, by omega⟩ : Fin 1040) (by show r.val + 4 = 4 + r.val; omega)).trans
    (padRows4_apply y b _ q (pos (dn r.val 4)) (by show dn r.val _ % 1024 = refl 8 (r.val + 4); unfold dn refl; split_ifs <;> omega))
  have h2 := (sliceRows_apply 8 (Stages.padRows4 y) slices_S16x1040x1024_S16x1024x1024_0_8_0 b r q (⟨r.val + 8, by omega⟩ : Fin 1040) (by show r.val + 8 = 8 + r.val; omega)).trans
    (padRows4_apply y b _ q r (by show r.val = refl 8 (r.val + 8); unfold refl; split_ifs <;> omega))
  have h3 := (sliceRows_apply 12 (Stages.padRows4 y) slices_S16x1040x1024_S16x1024x1024_0_12_0 b r q (⟨r.val + 12, by omega⟩ : Fin 1040) (by show r.val + 12 = 12 + r.val; omega)).trans
    (padRows4_apply y b _ q (pos (up r.val 4)) (by show up r.val _ % 1024 = refl 8 (r.val + 12); unfold up refl; split_ifs <;> omega))
  have h4 := (sliceRows_apply 16 (Stages.padRows4 y) slices_S16x1040x1024_S16x1024x1024_0_16_0 b r q (⟨r.val + 16, by omega⟩ : Fin 1040) (by show r.val + 16 = 16 + r.val; omega)).trans
    (padRows4_apply y b _ q (pos (up r.val (2 * 4))) (by show up r.val _ % 1024 = refl 8 (r.val + 16); unfold up refl; split_ifs <;> omega))
  unfold Stages.convRows4 Stages.convRows4P
  rw [tapsum_apply, h0, h1, h2, h3, h4]
  rfl

/-- The step with spacing 4 along the columns is the five-tap average of each line. -/
theorem convCols4_apply (y : FVec Ideal S16x1024x1024 .f32) (b : Fin 16) (r q : Fin 1024) :
    Stages.convCols4 y (ix3 b r q) = tap5 (fun q' => y (ix3 b r q')) 4 q := by
  have hv := q.isLt
  have h0 := (sliceCols_apply 0 (Stages.padCols4 y) slices_S16x1024x1040_S16x1024x1024_0_0_0 b r q (⟨q.val + 0, by omega⟩ : Fin 1040) (by show q.val + 0 = 0 + q.val; omega)).trans
    (padCols4_apply y b r _ (pos (dn q.val (2 * 4))) (by show dn q.val _ % 1024 = refl 8 (q.val + 0); unfold dn refl; split_ifs <;> omega))
  have h1 := (sliceCols_apply 4 (Stages.padCols4 y) slices_S16x1024x1040_S16x1024x1024_0_0_4 b r q (⟨q.val + 4, by omega⟩ : Fin 1040) (by show q.val + 4 = 4 + q.val; omega)).trans
    (padCols4_apply y b r _ (pos (dn q.val 4)) (by show dn q.val _ % 1024 = refl 8 (q.val + 4); unfold dn refl; split_ifs <;> omega))
  have h2 := (sliceCols_apply 8 (Stages.padCols4 y) slices_S16x1024x1040_S16x1024x1024_0_0_8 b r q (⟨q.val + 8, by omega⟩ : Fin 1040) (by show q.val + 8 = 8 + q.val; omega)).trans
    (padCols4_apply y b r _ q (by show q.val = refl 8 (q.val + 8); unfold refl; split_ifs <;> omega))
  have h3 := (sliceCols_apply 12 (Stages.padCols4 y) slices_S16x1024x1040_S16x1024x1024_0_0_12 b r q (⟨q.val + 12, by omega⟩ : Fin 1040) (by show q.val + 12 = 12 + q.val; omega)).trans
    (padCols4_apply y b r _ (pos (up q.val 4)) (by show up q.val _ % 1024 = refl 8 (q.val + 12); unfold up refl; split_ifs <;> omega))
  have h4 := (sliceCols_apply 16 (Stages.padCols4 y) slices_S16x1024x1040_S16x1024x1024_0_0_16 b r q (⟨q.val + 16, by omega⟩ : Fin 1040) (by show q.val + 16 = 16 + q.val; omega)).trans
    (padCols4_apply y b r _ (pos (up q.val (2 * 4))) (by show up q.val _ % 1024 = refl 8 (q.val + 16); unfold up refl; split_ifs <;> omega))
  unfold Stages.convCols4 Stages.convCols4P
  rw [tapsum_apply, h0, h1, h2, h3, h4]
  rfl

/-! ## The three smooth images and the result -/

/-- An array's batch entry `b` as an image, after a step along the rows: the specification's `alongRows`. -/
theorem img_convRows (d : Nat) (c : FVec Ideal S16x1024x1024 .f32 → FVec Ideal S16x1024x1024 .f32)
    (hc : ∀ y b r q, c y (ix3 b r q) = tap5 (fun r' => y (ix3 b r' q)) d r)
    (y : FVec Ideal S16x1024x1024 .f32) (b : Fin 16) : img (c y) b = alongRows d (img y b) := by
  funext r q
  exact hc y b r q

/-- … and after a step along the columns: the specification's `alongCols`. -/
theorem img_convCols (d : Nat) (c : FVec Ideal S16x1024x1024 .f32 → FVec Ideal S16x1024x1024 .f32)
    (hc : ∀ y b r q, c y (ix3 b r q) = tap5 (fun q' => y (ix3 b r q')) d q)
    (y : FVec Ideal S16x1024x1024 .f32) (b : Fin 16) : img (c y) b = alongCols d (img y b) := by
  funext r q
  exact hc y b r q

theorem img_y1 (x : FVec Ideal S16x1024x1024 .f32) (b : Fin 16) : img (Stages.y1 x) b = smooth 1 (img x b) := by
  unfold Stages.y1 smooth
  rw [img_convCols 1 Stages.convCols1 convCols1_apply, img_convRows 1 Stages.convRows1 convRows1_apply]

theorem img_y2 (x : FVec Ideal S16x1024x1024 .f32) (b : Fin 16) :
    img (Stages.y2 x) b = smooth 2 (smooth 1 (img x b)) := by
  unfold Stages.y2
  rw [← img_y1]
  unfold smooth
  rw [img_convCols 2 Stages.convCols2 convCols2_apply, img_convRows 2 Stages.convRows2 convRows2_apply]

theorem img_y3 (x : FVec Ideal S16x1024x1024 .f32) (b : Fin 16) :
    img (Stages.y3 x) b = smooth 4 (smooth 2 (smooth 1 (img x b))) := by
  unfold Stages.y3
  rw [← img_y2]
  unfold smooth
  rw [img_convCols 4 Stages.convCols4 convCols4_apply, img_convRows 4 Stages.convRows4 convRows4_apply]

/-- A channel of the result reads its image: the unit axis in position 1 is dropped. -/
theorem chan_apply (v : FVec Ideal S16x1024x1024 .f32) (b : Fin 16) (r q : Fin 1024) :
    Stages.chan v (ix4 b (0 : Fin 1) r q) = v (ix3 b r q) := by
  unfold Stages.chan
  exact broadcastInDim_apply _ _ v _ (ix3 b r q) (fun a => by
    match a with
    | ⟨0, _⟩ => rfl
    | ⟨1, _⟩ => rfl
    | ⟨2, _⟩ => rfl)

/-- Channel `k` of the concatenation is its `k`-th piece. -/
theorem out_piece (x : FVec Ideal S16x1024x1024 .f32) (b : Fin 16) (c : Fin 4) (r q : Fin 1024)
    (v : FVec Ideal S16x1024x1024 .f32)
    (hv : [(⟨S16x1x1024x1024, Stages.chan (subf x (Stages.y1 x))⟩ : (s : Shape) × (s.Idx → Ideal .f32)),
      ⟨S16x1x1024x1024, Stages.chan (subf (Stages.y1 x) (Stages.y2 x))⟩,
      ⟨S16x1x1024x1024, Stages.chan (subf (Stages.y2 x) (Stages.y3 x))⟩,
      ⟨S16x1x1024x1024, Stages.chan (Stages.y3 x)⟩][c.val]'(by simp) = ⟨S16x1x1024x1024, Stages.chan v⟩) :
    Stages.out x (ix4 b c r q) = v (ix3 b r q) := by
  unfold Stages.out
  refine (concatenate_apply_piece (t := S16x4x1024x1024) (1 : Fin 4) _ _ (ix4 b c r q) c.val (by simp)
    S16x1x1024x1024 (Stages.chan v) hv rfl c.val ?_ (ix4 b (0 : Fin 1) r q) (fun a ha => by
      match a with
      | ⟨0, _⟩ => rfl
      | ⟨1, _⟩ => exact absurd rfl ha
      | ⟨2, _⟩ => rfl
      | ⟨3, _⟩ => rfl) (by show c.val + 0 = c.val; omega)).trans (chan_apply v b r q)
  match c with
  | ⟨0, _⟩ => rfl
  | ⟨1, _⟩ => rfl
  | ⟨2, _⟩ => rfl
  | ⟨3, _⟩ => rfl

/-- **The reference's value is the specification.** -/
theorem out_eq (x : FVec Ideal S16x1024x1024 .f32) : Stages.out (F := Ideal) x = Cert.Wavelet.result x := by
  funext j
  obtain ⟨b, c, r, q, rfl⟩ : ∃ (b : Fin 16) (c : Fin 4) (r : Fin 1024) (q : Fin 1024), j = ix4 b c r q :=
    ⟨j 0, j 1, j 2, j 3, eq_ix4 j⟩
  show _ = channel (img x b) c r q
  match c with
  | ⟨0, _⟩ =>
    refine (out_piece x b ⟨0, by norm_num⟩ r q _ rfl).trans ?_
    show x (ix3 b r q) - img (Stages.y1 x) b r q = img x b r q - smooth 1 (img x b) r q
    rw [img_y1]; rfl
  | ⟨1, _⟩ =>
    refine (out_piece x b ⟨1, by norm_num⟩ r q _ rfl).trans ?_
    show img (Stages.y1 x) b r q - img (Stages.y2 x) b r q = smooth 1 (img x b) r q - smooth 2 (smooth 1 (img x b)) r q
    rw [img_y1, img_y2]
  | ⟨2, _⟩ =>
    refine (out_piece x b ⟨2, by norm_num⟩ r q _ rfl).trans ?_
    show img (Stages.y2 x) b r q - img (Stages.y3 x) b r q
      = smooth 2 (smooth 1 (img x b)) r q - smooth 4 (smooth 2 (smooth 1 (img x b))) r q
    rw [img_y2, img_y3]
  | ⟨3, _⟩ =>
    refine (out_piece x b ⟨3, by norm_num⟩ r q _ rfl).trans ?_
    show img (Stages.y3 x) b r q = smooth 4 (smooth 2 (smooth 1 (img x b))) r q
    rw [img_y3]

end Taps

end Cert.ReferenceIdeal.RefValue

end
-- ==== Proof.RefRun.lean ====
/-
  The reference program's run. Its operations are listed in order — each call of a padding function replaced by the
  function's own operations over the call's buffers — in fourteen groups: the constant vector of weights; then, for
  each of the six one-dimensional steps, the reflect padding (two slices, two reversals, two concatenations) and the
  five-tap sum (five slices of the padded array, each multiplied on the left by its weight, added from the left),
  the sum along the second axis followed by the difference with the previous smooth image; last the four channels
  and their concatenation. The program is that list run in order. The contents of the buffers after each group are
  read off one group at a time, each buffer still needed later as a function of the argument array alone
  (`Stages`): after the last group the result buffer holds `Stages.out` of the argument, and the argument is unchanged.
-/
import proofs.«159894_j34797825032657_2_alg».proof.Proof.Gen.ReferenceIdeal
import proofs.«159894_j34797825032657_2_alg».proof.Proof.RefStages
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 1 of the program: the constant vector of the five weights. -/
abbrev seg1 : List (HloOp τ sig (Elt F)) :=
  [ nullary main_cst (fun i => FloatOps.ofBits .f32 (lit0 (S5.rowMajor i))) ]

set_option maxRecDepth 8192 in
theorem seg1_sub : (seg1 : List (HloOp τ sig (Elt F))).Forall fun op => op.bufs ⊆ tcRefs τ sig :=
  (nullary_bufs_sub ..)
set_option maxRecDepth 8192 in
theorem seg1_fresh : ∀ op ∈ (seg1 : List (HloOp τ sig (Elt F))), op.fresh = ∅ := by
  intro _ h; (repeat (cases h with | head => rfl | tail _ h => ?_)); exact nomatch h

/-- Operations 2 … 10 of the program: the reflect padding by 2 along axis 1. -/
abbrev seg2 : List (HloOp τ sig (Elt F)) :=
  [ nullary main_c (constantI S_ 32 0#32),
    TRef.unary (.of main_arg0 : TRef sig ⟨S16x1024x1024, .f32⟩) main_call0.v0 (extractStridedSlice S16x1x1024 ![0, 0, 0] · slices_S16x1024x1024_S16x1x1024_0_0_0),
    TRef.unary (.of main_arg0 : TRef sig ⟨S16x1024x1024, .f32⟩) main_call0.v1 (extractStridedSlice S16x2x1024 ![0, 1, 0] · slices_S16x1024x1024_S16x2x1024_0_1_0),
    TRef.unary main_call0.v1 main_call0.call0.v0 (Host.reverse [1]),
    TRef.binary main_call0.call0.v0 (.of main_arg0 : TRef sig ⟨S16x1024x1024, .f32⟩) main_call0.v3 (fun a b => concatenate S16x1026x1024 1 [⟨S16x2x1024, a⟩, ⟨S16x1024x1024, b⟩] concatenates_S16x2x1024_S16x1024x1024_S16x1026x1024_d1),
    TRef.unary main_call0.v3 main_call0.v4 (extractStridedSlice S16x1x1024 ![0, 1025, 0] · slices_S16x1026x1024_S16x1x1024_0_1025_0),
    TRef.unary main_call0.v3 main_call0.v5 (extractStridedSlice S16x2x1024 ![0, 1023, 0] · slices_S16x1026x1024_S16x2x1024_0_1023_0),
    TRef.unary main_call0.v5 main_call0.call1.v0 (Host.reverse [1]),
    TRef.binary main_call0.v3 main_call0.call1.v0 main_call0.v7 (fun a b => concatenate S16x1028x1024 1 [⟨S16x1026x1024, a⟩, ⟨S16x2x1024, b⟩] concatenates_S16x1026x1024_S16x2x1024_S16x1028x1024_d1) ]

set_option maxRecDepth 8192 in
theorem seg2_sub : (seg2 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
set_option maxRecDepth 8192 in
theorem seg2_fresh : ∀ op ∈ (seg2 : List (HloOp τ sig (Elt F))), op.fresh = ∅ := by
  intro _ h; (repeat (cases h with | head => rfl | tail _ h => ?_)); exact nomatch h

/-- Operations 11 … 39 of the program: the five-tap sum along axis 1 with spacing 1. -/
abbrev seg3 : List (HloOp τ sig (Elt F)) :=
  [ unary main_cst main_v1 ((extractStridedSlice S1 ![0] · slices_S5_S1_0) : (⟨S5, .f32⟩ : BufTy).Contents (Elt F) → (⟨S1, .f32⟩ : BufTy).Contents (Elt F)),
    reshape main_v1 main_v2 rfl shapeCasts_S1_S_,
    unary main_v0 main_v3 ((extractStridedSlice S16x1024x1024 ![0, 0, 0] · slices_S16x1028x1024_S16x1024x1024_0_0_0) : (⟨S16x1028x1024, .f32⟩ : BufTy).Contents (Elt F) → (⟨S16x1024x1024, .f32⟩ : BufTy).Contents (Elt F)),
    unary main_v2 main_v4 (broadcastInDim S16x1024x1024 ![] bcast_S_S16x1024x1024 : (⟨S_, .f32⟩ : BufTy).Contents (Elt F) → (⟨S16x1024x1024, .f32⟩ : BufTy).Contents (Elt F)),
    binary main_v4 main_v3 main_v5 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v6 ((extractStridedSlice S1 ![1] · slices_S5_S1_1) : (⟨S5, .f32⟩ : BufTy).Contents (Elt F) → (⟨S1, .f32⟩ : BufTy).Contents (Elt F)),
    reshape main_v6 main_v7 rfl shapeCasts_S1_S_,
    unary main_v0 main_v8 ((extractStridedSlice S16x1024x1024 ![0, 1, 0] · slices_S16x1028x1024_S16x1024x1024_0_1_0) : (⟨S16x1028x1024, .f32⟩ : BufTy).Contents (Elt F) → (⟨S16x1024x1024, .f32⟩ : BufTy).Contents (Elt F)),
    unary main_v7 main_v9 (broadcastInDim S16x1024x1024 ![] bcast_S_S16x1024x1024 : (⟨S_, .f32⟩ : BufTy).Contents (Elt F) → (⟨S16x1024x1024, .f32⟩ : BufTy).Contents (Elt F)),
    binary main_v9 main_v8 main_v10 (mulf : (⟨S16x1024x1024, .f32⟩ : BufTy).Contents (Elt F) → (⟨S16x1024x1024, .f32⟩ : BufTy).Contents (Elt F) → (⟨S16x1024x1024, .f32⟩ : BufTy).Contents (Elt F)),
    binary main_v5 main_v10 main_v11 (addf : (⟨S16x1024x1024, .f32⟩ : BufTy).Contents (Elt F) → (⟨S16x1024x1024, .f32⟩ : BufTy).Contents (Elt F) → (⟨S16x1024x1024, .f32⟩ : BufTy).Contents (Elt F)),
    unary main_cst main_v12 ((extractStridedSlice S1 ![2] · slices_S5_S1_2) : (⟨S5, .f32⟩ : BufTy).Contents (Elt F) → (⟨S1, .f32⟩ : BufTy).Contents (Elt F)),
    reshape main_v12 main_v13 rfl shapeCasts_S1_S_,
    unary main_v0 main_v14 ((extractStridedSlice S16x1024x1024 ![0, 2, 0] · slices_S16x1028x1024_S16x1024x1024_0_2_0) : (⟨S16x1028x1024, .f32⟩ : BufTy).Contents (Elt F) → (⟨S16x1024x1024, .f32⟩ : BufTy).Contents (Elt F)),
    unary main_v13 main_v15 (broadcastInDim S16x1024x1024 ![] bcast_S_S16x1024x1024 : (⟨S_, .f32⟩ : BufTy).Contents (Elt F) → (⟨S16x1024x1024, .f32⟩ : BufTy).Contents (Elt F)),
    binary main_v15 main_v14 main_v16 (mulf : (⟨S16x1024x1024, .f32⟩ : BufTy).Contents (Elt F) → (⟨S16x1024x1024, .f32⟩ : BufTy).Contents (Elt F) → (⟨S16x1024x1024, .f32⟩ : BufTy).Contents (Elt F)),
    binary main_v11 main_v16 main_v17 (addf : (⟨S16x1024x1024, .f32⟩ : BufTy).Contents (Elt F) → (⟨S16x1024x1024, .f32⟩ : BufTy).Contents (Elt F) → (⟨S16x1024x1024, .f32⟩ : BufTy).Contents (Elt F)),
    unary main_cst main_v18 ((extractStridedSlice S1 ![3] · slices_S5_S1_3) : (⟨S5, .f32⟩ : BufTy).Contents (Elt F) → (⟨S1, .f32⟩ : BufTy).Contents (Elt F)),
    reshape main_v18 main_v19 rfl shapeCasts_S1_S_,
    unary main_v0 main_v20 ((extractStridedSlice S16x1024x1024 ![0, 3, 0] · slices_S16x1028x1024_S16x1024x1024_0_3_0) : (⟨S16x1028x1024, .f32⟩ : BufTy).Contents (Elt F) → (⟨S16x1024x1024, .f32⟩ : BufTy).Contents (Elt F)),
    unary main_v19 main_v21 (broadcastInDim S16x1024x1024 ![] bcast_S_S16x1024x1024 : (⟨S_, .f32⟩ : BufTy).Contents (Elt F) → (⟨S16x1024x1024, .f32⟩ : BufTy).Contents (Elt F)),
    binary main_v21 main_v20 main_v22 (mulf : (⟨S16x1024x1024, .f32⟩ : BufTy).Contents (Elt F) → (⟨S16x1024x1024, .f32⟩ : BufTy).Contents (Elt F) → (⟨S16x1024x1024, .f32⟩ : BufTy).Contents (Elt F)),
    binary main_v17 main_v22 main_v23 (addf : (⟨S16x1024x1024, .f32⟩ : BufTy).Contents (Elt F) → (⟨S16x1024x1024, .f32⟩ : BufTy).Contents (Elt F) → (⟨S16x1024x1024, .f32⟩ : BufTy).Contents (Elt F)),
    unary main_cst main_v24 ((extractStridedSlice S1 ![4] · slices_S5_S1_4) : (⟨S5, .f32⟩ : BufTy).Contents (Elt F) → (⟨S1, .f32⟩ : BufTy).Contents (Elt F)),
    reshape main_v24 main_v25 rfl shapeCasts_S1_S_,
    unary main_v0 main_v26 ((extractStridedSlice S16x1024x1024 ![0, 4, 0] · slices_S16x1028x1024_S16x1024x1024_0_4_0) : (⟨S16x1028x1024, .f32⟩ : BufTy).Contents (Elt F) → (⟨S16x1024x1024, .f32⟩ : BufTy).Contents (Elt F)),
    unary main_v25 main_v27 (broadcastInDim S16x1024x1024 ![] bcast_S_S16x1024x1024 : (⟨S_, .f32⟩ : BufTy).Contents (Elt F) → (⟨S16x1024x1024, .f32⟩ : BufTy).Contents (Elt F)),
    binary main_v27 main_v26 main_v28 (mulf : (⟨S16x1024x1024, .f32⟩ : BufTy).Contents (Elt F) → (⟨S16x1024x1024, .f32⟩ : BufTy).Contents (Elt F) → (⟨S16x1024x1024, .f32⟩ : BufTy).Contents (Elt F)),
    binary main_v23 main_v28 main_v29 (addf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
theorem seg3_sub : (seg3 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
set_option maxRecDepth 8192 in
theorem seg3_fresh : ∀ op ∈ (seg3 : List (HloOp τ sig (Elt F))), op.fresh = ∅ := by
  intro _ h; (repeat (cases h with | head => rfl | tail _ h => ?_)); exact nomatch h

/-- Operations 40 … 48 of the program: the reflect padding by 2 along axis 2. -/
abbrev seg4 : List (HloOp τ sig (Elt F)) :=
  [ nullary main_c_0 (constantI S_ 32 0#32),
    TRef.unary (.of main_v29 : TRef sig ⟨S16x1024x1024, .f32⟩) main_call1.v0 (extractStridedSlice S16x1024x1 ![0, 0, 0] · slices_S16x1024x1024_S16x1024x1_0_0_0),
    TRef.unary (.of main_v29 : TRef sig ⟨S16x1024x1024, .f32⟩) main_call1.v1 (extractStridedSlice S16x1024x2 ![0, 0, 1] · slices_S16x1024x1024_S16x1024x2_0_0_1),
    TRef.unary main_call1.v1 main_call1.call0.v0 (Host.reverse [2]),
    TRef.binary main_call1.call0.v0 (.of main_v29 : TRef sig ⟨S16x1024x1024, .f32⟩) main_call1.v3 (fun a b => concatenate S16x1024x1026 2 [⟨S16x1024x2, a⟩, ⟨S16x1024x1024, b⟩] concatenates_S16x1024x2_S16x1024x1024_S16x1024x1026_d2),
    TRef.unary main_call1.v3 main_call1.v4 (extractStridedSlice S16x1024x1 ![0, 0, 1025] · slices_S16x1024x1026_S16x1024x1_0_0_1025),
    TRef.unary main_call1.v3 main_call1.v5 (extractStridedSlice S16x1024x2 ![0, 0, 1023] · slices_S16x1024x1026_S16x1024x2_0_0_1023),
    TRef.unary main_call1.v5 main_call1.call1.v0 (Host.reverse [2]),
    TRef.binary main_call1.v3 main_call1.call1.v0 main_call1.v7 (fun a b => concatenate S16x1024x1028 2 [⟨S16x1024x1026, a⟩, ⟨S16x1024x2, b⟩] concatenates_S16x1024x1026_S16x1024x2_S16x1024x1028_d2) ]

set_option maxRecDepth 8192 in
theorem seg4_sub : (seg4 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
set_option maxRecDepth 8192 in
theorem seg4_fresh : ∀ op ∈ (seg4 : List (HloOp τ sig (Elt F))), op.fresh = ∅ := by
  intro _ h; (repeat (cases h with | head => rfl | tail _ h => ?_)); exact nomatch h

/-- Operations 49 … 78 of the program: the five-tap sum along axis 2 with spacing 1, and the first difference. -/
abbrev seg5 : List (HloOp τ sig (Elt F)) :=
  [ unary main_cst main_v31 ((extractStridedSlice S1 ![0] · slices_S5_S1_0) : (⟨S5, .f32⟩ : BufTy).Contents (Elt F) → (⟨S1, .f32⟩ : BufTy).Contents (Elt F)),
    reshape main_v31 main_v32 rfl shapeCasts_S1_S_,
    unary main_v30 main_v33 ((extractStridedSlice S16x1024x1024 ![0, 0, 0] · slices_S16x1024x1028_S16x1024x1024_0_0_0) : (⟨S16x1024x1028, .f32⟩ : BufTy).Contents (Elt F) → (⟨S16x1024x1024, .f32⟩ : BufTy).Contents (Elt F)),
    unary main_v32 main_v34 (broadcastInDim S16x1024x1024 ![] bcast_S_S16x1024x1024 : (⟨S_, .f32⟩ : BufTy).Contents (Elt F) → (⟨S16x1024x1024, .f32⟩ : BufTy).Contents (Elt F)),
    binary main_v34 main_v33 main_v35 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v36 ((extractStridedSlice S1 ![1] · slices_S5_S1_1) : (⟨S5, .f32⟩ : BufTy).Contents (Elt F) → (⟨S1, .f32⟩ : BufTy).Contents (Elt F)),
    reshape main_v36 main_v37 rfl shapeCasts_S1_S_,
    unary main_v30 main_v38 ((extractStridedSlice S16x1024x1024 ![0, 0, 1] · slices_S16x1024x1028_S16x1024x1024_0_0_1) : (⟨S16x1024x1028, .f32⟩ : BufTy).Contents (Elt F) → (⟨S16x1024x1024, .f32⟩ : BufTy).Contents (Elt F)),
    unary main_v37 main_v39 (broadcastInDim S16x1024x1024 ![] bcast_S_S16x1024x1024 : (⟨S_, .f32⟩ : BufTy).Contents (Elt F) → (⟨S16x1024x1024, .f32⟩ : BufTy).Contents (Elt F)),
    binary main_v39 main_v38 main_v40 (mulf : (⟨S16x1024x1024, .f32⟩ : BufTy).Contents (Elt F) → (⟨S16x1024x1024, .f32⟩ : BufTy).Contents (Elt F) → (⟨S16x1024x1024, .f32⟩ : BufTy).Contents (Elt F)),
    binary main_v35 main_v40 main_v41 (addf : (⟨S16x1024x1024, .f32⟩ : BufTy).Contents (Elt F) → (⟨S16x1024x1024, .f32⟩ : BufTy).Contents (Elt F) → (⟨S16x1024x1024, .f32⟩ : BufTy).Contents (Elt F)),
    unary main_cst main_v42 ((extractStridedSlice S1 ![2] · slices_S5_S1_2) : (⟨S5, .f32⟩ : BufTy).Contents (Elt F) → (⟨S1, .f32⟩ : BufTy).Contents (Elt F)),
    reshape main_v42 main_v43 rfl shapeCasts_S1_S_,
    unary main_v30 main_v44 ((extractStridedSlice S16x1024x1024 ![0, 0, 2] · slices_S16x1024x1028_S16x1024x1024_0_0_2) : (⟨S16x1024x1028, .f32⟩ : BufTy).Contents (Elt F) → (⟨S16x1024x1024, .f32⟩ : BufTy).Contents (Elt F)),
    unary main_v43 main_v45 (broadcastInDim S16x1024x1024 ![] bcast_S_S16x1024x1024 : (⟨S_, .f32⟩ : BufTy).Contents (Elt F) → (⟨S16x1024x1024, .f32⟩ : BufTy).Contents (Elt F)),
    binary main_v45 main_v44 main_v46 (mulf : (⟨S16x1024x1024, .f32⟩ : BufTy).Contents (Elt F) → (⟨S16x1024x1024, .f32⟩ : BufTy).Contents (Elt F) → (⟨S16x1024x1024, .f32⟩ : BufTy).Contents (Elt F)),
    binary main_v41 main_v46 main_v47 (addf : (⟨S16x1024x1024, .f32⟩ : BufTy).Contents (Elt F) → (⟨S16x1024x1024, .f32⟩ : BufTy).Contents (Elt F) → (⟨S16x1024x1024, .f32⟩ : BufTy).Contents (Elt F)),
    unary main_cst main_v48 ((extractStridedSlice S1 ![3] · slices_S5_S1_3) : (⟨S5, .f32⟩ : BufTy).Contents (Elt F) → (⟨S1, .f32⟩ : BufTy).Contents (Elt F)),
    reshape main_v48 main_v49 rfl shapeCasts_S1_S_,
    unary main_v30 main_v50 ((extractStridedSlice S16x1024x1024 ![0, 0, 3] · slices_S16x1024x1028_S16x1024x1024_0_0_3) : (⟨S16x1024x1028, .f32⟩ : BufTy).Contents (Elt F) → (⟨S16x1024x1024, .f32⟩ : BufTy).Contents (Elt F)),
    unary main_v49 main_v51 (broadcastInDim S16x1024x1024 ![] bcast_S_S16x1024x1024 : (⟨S_, .f32⟩ : BufTy).Contents (Elt F) → (⟨S16x1024x1024, .f32⟩ : BufTy).Contents (Elt F)),
    binary main_v51 main_v50 main_v52 (mulf : (⟨S16x1024x1024, .f32⟩ : BufTy).Contents (Elt F) → (⟨S16x1024x1024, .f32⟩ : BufTy).Contents (Elt F) → (⟨S16x1024x1024, .f32⟩ : BufTy).Contents (Elt F)),
    binary main_v47 main_v52 main_v53 (addf : (⟨S16x1024x1024, .f32⟩ : BufTy).Contents (Elt F) → (⟨S16x1024x1024, .f32⟩ : BufTy).Contents (Elt F) → (⟨S16x1024x1024, .f32⟩ : BufTy).Contents (Elt F)),
    unary main_cst main_v54 ((extractStridedSlice S1 ![4] · slices_S5_S1_4) : (⟨S5, .f32⟩ : BufTy).Contents (Elt F) → (⟨S1, .f32⟩ : BufTy).Contents (Elt F)),
    reshape main_v54 main_v55 rfl shapeCasts_S1_S_,
    unary main_v30 main_v56 ((extractStridedSlice S16x1024x1024 ![0, 0, 4] · slices_S16x1024x1028_S16x1024x1024_0_0_4) : (⟨S16x1024x1028, .f32⟩ : BufTy).Contents (Elt F) → (⟨S16x1024x1024, .f32⟩ : BufTy).Contents (Elt F)),
    unary main_v55 main_v57 (broadcastInDim S16x1024x1024 ![] bcast_S_S16x1024x1024 : (⟨S_, .f32⟩ : BufTy).Contents (Elt F) → (⟨S16x1024x1024, .f32⟩ : BufTy).Contents (Elt F)),
    binary main_v57 main_v56 main_v58 (mulf : (⟨S16x1024x1024, .f32⟩ : BufTy).Contents (Elt F) → (⟨S16x1024x1024, .f32⟩ : BufTy).Contents (Elt F) → (⟨S16x1024x1024, .f32⟩ : BufTy).Contents (Elt F)),
    binary main_v53 main_v58 main_v59 (addf : (⟨S16x1024x1024, .f32⟩ : BufTy).Contents (Elt F) → (⟨S16x1024x1024, .f32⟩ : BufTy).Contents (Elt F) → (⟨S16x1024x1024, .f32⟩ : BufTy).Contents (Elt F)),
    binary main_arg0 main_v59 main_v60 (subf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
theorem seg5_sub : (seg5 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., binary_bufs_sub ..⟩
set_option maxRecDepth 8192 in
theorem seg5_fresh : ∀ op ∈ (seg5 : List (HloOp τ sig (Elt F))), op.fresh = ∅ := by
  intro _ h; (repeat (cases h with | head => rfl | tail _ h => ?_)); exact nomatch h

/-- Operations 79 … 87 of the program: the reflect padding by 4 along axis 1. -/
abbrev seg6 : List (HloOp τ sig (Elt F)) :=
  [ nullary main_c_1 (constantI S_ 32 0#32),
    TRef.unary (.of main_v59 : TRef sig ⟨S16x1024x1024, .f32⟩) main_call2.v0 (extractStridedSlice S16x1x1024 ![0, 0, 0] · slices_S16x1024x1024_S16x1x1024_0_0_0),
    TRef.unary (.of main_v59 : TRef sig ⟨S16x1024x1024, .f32⟩) main_call2.v1 (extractStridedSlice S16x4x1024 ![0, 1, 0] · slices_S16x1024x1024_S16x4x1024_0_1_0),
    TRef.unary main_call2.v1 main_call2.call0.v0 (Host.reverse [1]),
    TRef.binary main_call2.call0.v0 (.of main_v59 : TRef sig ⟨S16x1024x1024, .f32⟩) main_call2.v3 (fun a b => concatenate S16x1028x1024 1 [⟨S16x4x1024, a⟩, ⟨S16x1024x1024, b⟩] concatenates_S16x4x1024_S16x1024x1024_S16x1028x1024_d1),
    TRef.unary main_call2.v3 main_call2.v4 (extractStridedSlice S16x1x1024 ![0, 1027, 0] · slices_S16x1028x1024_S16x1x1024_0_1027_0),
    TRef.unary main_call2.v3 main_call2.v5 (extractStridedSlice S16x4x1024 ![0, 1023, 0] · slices_S16x1028x1024_S16x4x1024_0_1023_0),
    TRef.unary main_call2.v5 main_call2.call1.v0 (Host.reverse [1]),
    TRef.binary main_call2.v3 main_call2.call1.v0 main_call2.v7 (fun a b => concatenate S16x1032x1024 1 [⟨S16x1028x1024, a⟩, ⟨S16x4x1024, b⟩] concatenates_S16x1028x1024_S16x4x1024_S16x1032x1024_d1) ]

set_option maxRecDepth 8192 in
theorem seg6_sub : (seg6 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
set_option maxRecDepth 8192 in
theorem seg6_fresh : ∀ op ∈ (seg6 : List (HloOp τ sig (Elt F))), op.fresh = ∅ := by
  intro _ h; (repeat (cases h with | head => rfl | tail _ h => ?_)); exact nomatch h

/-- Operations 88 … 116 of the program: the five-tap sum along axis 1 with spacing 2. -/
abbrev seg7 : List (HloOp τ sig (Elt F)) :=
  [ unary main_cst main_v62 ((extractStridedSlice S1 ![0] · slices_S5_S1_0) : (⟨S5, .f32⟩ : BufTy).Contents (Elt F) → (⟨S1, .f32⟩ : BufTy).Contents (Elt F)),
    reshape main_v62 main_v63 rfl shapeCasts_S1_S_,
    unary main_v61 main_v64 ((extractStridedSlice S16x1024x1024 ![0, 0, 0] · slices_S16x1032x1024_S16x1024x1024_0_0_0) : (⟨S16x1032x1024, .f32⟩ : BufTy).Contents (Elt F) → (⟨S16x1024x1024, .f32⟩ : BufTy).Contents (Elt F)),
    unary main_v63 main_v65 (broadcastInDim S16x1024x1024 ![] bcast_S_S16x1024x1024 : (⟨S_, .f32⟩ : BufTy).Contents (Elt F) → (⟨S16x1024x1024, .f32⟩ : BufTy).Contents (Elt F)),
    binary main_v65 main_v64 main_v66 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v67 ((extractStridedSlice S1 ![1] · slices_S5_S1_1) : (⟨S5, .f32⟩ : BufTy).Contents (Elt F) → (⟨S1, .f32⟩ : BufTy).Contents (Elt F)),
    reshape main_v67 main_v68 rfl shapeCasts_S1_S_,
    unary main_v61 main_v69 ((extractStridedSlice S16x1024x1024 ![0, 2, 0] · slices_S16x1032x1024_S16x1024x1024_0_2_0) : (⟨S16x1032x1024, .f32⟩ : BufTy).Contents (Elt F) → (⟨S16x1024x1024, .f32⟩ : BufTy).Contents (Elt F)),
    unary main_v68 main_v70 (broadcastInDim S16x1024x1024 ![] bcast_S_S16x1024x1024 : (⟨S_, .f32⟩ : BufTy).Contents (Elt F) → (⟨S16x1024x1024, .f32⟩ : BufTy).Contents (Elt F)),
    binary main_v70 main_v69 main_v71 (mulf : (⟨S16x1024x1024, .f32⟩ : BufTy).Contents (Elt F) → (⟨S16x1024x1024, .f32⟩ : BufTy).Contents (Elt F) → (⟨S16x1024x1024, .f32⟩ : BufTy).Contents (Elt F)),
    binary main_v66 main_v71 main_v72 (addf : (⟨S16x1024x1024, .f32⟩ : BufTy).Contents (Elt F) → (⟨S16x1024x1024, .f32⟩ : BufTy).Contents (Elt F) → (⟨S16x1024x1024, .f32⟩ : BufTy).Contents (Elt F)),
    unary main_cst main_v73 ((extractStridedSlice S1 ![2] · slices_S5_S1_2) : (⟨S5, .f32⟩ : BufTy).Contents (Elt F) → (⟨S1, .f32⟩ : BufTy).Contents (Elt F)),
    reshape main_v73 main_v74 rfl shapeCasts_S1_S_,
    unary main_v61 main_v75 ((extractStridedSlice S16x1024x1024 ![0, 4, 0] · slices_S16x1032x1024_S16x1024x1024_0_4_0) : (⟨S16x1032x1024, .f32⟩ : BufTy).Contents (Elt F) → (⟨S16x1024x1024, .f32⟩ : BufTy).Contents (Elt F)),
    unary main_v74 main_v76 (broadcastInDim S16x1024x1024 ![] bcast_S_S16x1024x1024 : (⟨S_, .f32⟩ : BufTy).Contents (Elt F) → (⟨S16x1024x1024, .f32⟩ : BufTy).Contents (Elt F)),
    binary main_v76 main_v75 main_v77 (mulf : (⟨S16x1024x1024, .f32⟩ : BufTy).Contents (Elt F) → (⟨S16x1024x1024, .f32⟩ : BufTy).Contents (Elt F) → (⟨S16x1024x1024, .f32⟩ : BufTy).Contents (Elt F)),
    binary main_v72 main_v77 main_v78 (addf : (⟨S16x1024x1024, .f32⟩ : BufTy).Contents (Elt F) → (⟨S16x1024x1024, .f32⟩ : BufTy).Contents (Elt F) → (⟨S16x1024x1024, .f32⟩ : BufTy).Contents (Elt F)),
    unary main_cst main_v79 ((extractStridedSlice S1 ![3] · slices_S5_S1_3) : (⟨S5, .f32⟩ : BufTy).Contents (Elt F) → (⟨S1, .f32⟩ : BufTy).Contents (Elt F)),
    reshape main_v79 main_v80 rfl shapeCasts_S1_S_,
    unary main_v61 main_v81 ((extractStridedSlice S16x1024x1024 ![0, 6, 0] · slices_S16x1032x1024_S16x1024x1024_0_6_0) : (⟨S16x1032x1024, .f32⟩ : BufTy).Contents (Elt F) → (⟨S16x1024x1024, .f32⟩ : BufTy).Contents (Elt F)),
    unary main_v80 main_v82 (broadcastInDim S16x1024x1024 ![] bcast_S_S16x1024x1024 : (⟨S_, .f32⟩ : BufTy).Contents (Elt F) → (⟨S16x1024x1024, .f32⟩ : BufTy).Contents (Elt F)),
    binary main_v82 main_v81 main_v83 (mulf : (⟨S16x1024x1024, .f32⟩ : BufTy).Contents (Elt F) → (⟨S16x1024x1024, .f32⟩ : BufTy).Contents (Elt F) → (⟨S16x1024x1024, .f32⟩ : BufTy).Contents (Elt F)),
    binary main_v78 main_v83 main_v84 (addf : (⟨S16x1024x1024, .f32⟩ : BufTy).Contents (Elt F) → (⟨S16x1024x1024, .f32⟩ : BufTy).Contents (Elt F) → (⟨S16x1024x1024, .f32⟩ : BufTy).Contents (Elt F)),
    unary main_cst main_v85 ((extractStridedSlice S1 ![4] · slices_S5_S1_4) : (⟨S5, .f32⟩ : BufTy).Contents (Elt F) → (⟨S1, .f32⟩ : BufTy).Contents (Elt F)),
    reshape main_v85 main_v86 rfl shapeCasts_S1_S_,
    unary main_v61 main_v87 ((extractStridedSlice S16x1024x1024 ![0, 8, 0] · slices_S16x1032x1024_S16x1024x1024_0_8_0) : (⟨S16x1032x1024, .f32⟩ : BufTy).Contents (Elt F) → (⟨S16x1024x1024, .f32⟩ : BufTy).Contents (Elt F)),
    unary main_v86 main_v88 (broadcastInDim S16x1024x1024 ![] bcast_S_S16x1024x1024 : (⟨S_, .f32⟩ : BufTy).Contents (Elt F) → (⟨S16x1024x1024, .f32⟩ : BufTy).Contents (Elt F)),
    binary main_v88 main_v87 main_v89 (mulf : (⟨S16x1024x1024, .f32⟩ : BufTy).Contents (Elt F) → (⟨S16x1024x1024, .f32⟩ : BufTy).Contents (Elt F) → (⟨S16x1024x1024, .f32⟩ : BufTy).Contents (Elt F)),
    binary main_v84 main_v89 main_v90 (addf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
theorem seg7_sub : (seg7 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
set_option maxRecDepth 8192 in
theorem seg7_fresh : ∀ op ∈ (seg7 : List (HloOp τ sig (Elt F))), op.fresh = ∅ := by
  intro _ h; (repeat (cases h with | head => rfl | tail _ h => ?_)); exact nomatch h

/-- Operations 117 … 125 of the program: the reflect padding by 4 along axis 2. -/
abbrev seg8 : List (HloOp τ sig (Elt F)) :=
  [ nullary main_c_2 (constantI S_ 32 0#32),
    TRef.unary (.of main_v90 : TRef sig ⟨S16x1024x1024, .f32⟩) main_call3.v0 (extractStridedSlice S16x1024x1 ![0, 0, 0] · slices_S16x1024x1024_S16x1024x1_0_0_0),
    TRef.unary (.of main_v90 : TRef sig ⟨S16x1024x1024, .f32⟩) main_call3.v1 (extractStridedSlice S16x1024x4 ![0, 0, 1] · slices_S16x1024x1024_S16x1024x4_0_0_1),
    TRef.unary main_call3.v1 main_call3.call0.v0 (Host.reverse [2]),
    TRef.binary main_call3.call0.v0 (.of main_v90 : TRef sig ⟨S16x1024x1024, .f32⟩) main_call3.v3 (fun a b => concatenate S16x1024x1028 2 [⟨S16x1024x4, a⟩, ⟨S16x1024x1024, b⟩] concatenates_S16x1024x4_S16x1024x1024_S16x1024x1028_d2),
    TRef.unary main_call3.v3 main_call3.v4 (extractStridedSlice S16x1024x1 ![0, 0, 1027] · slices_S16x1024x1028_S16x1024x1_0_0_1027),
    TRef.unary main_call3.v3 main_call3.v5 (extractStridedSlice S16x1024x4 ![0, 0, 1023] · slices_S16x1024x1028_S16x1024x4_0_0_1023),
    TRef.unary main_call3.v5 main_call3.call1.v0 (Host.reverse [2]),
    TRef.binary main_call3.v3 main_call3.call1.v0 main_call3.v7 (fun a b => concatenate S16x1024x1032 2 [⟨S16x1024x1028, a⟩, ⟨S16x1024x4, b⟩] concatenates_S16x1024x1028_S16x1024x4_S16x1024x1032_d2) ]

set_option maxRecDepth 8192 in
theorem seg8_sub : (seg8 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
set_option maxRecDepth 8192 in
theorem seg8_fresh : ∀ op ∈ (seg8 : List (HloOp τ sig (Elt F))), op.fresh = ∅ := by
  intro _ h; (repeat (cases h with | head => rfl | tail _ h => ?_)); exact nomatch h

/-- Operations 126 … 155 of the program: the five-tap sum along axis 2 with spacing 2, and the second difference. -/
abbrev seg9 : List (HloOp τ sig (Elt F)) :=
  [ unary main_cst main_v92 ((extractStridedSlice S1 ![0] · slices_S5_S1_0) : (⟨S5, .f32⟩ : BufTy).Contents (Elt F) → (⟨S1, .f32⟩ : BufTy).Contents (Elt F)),
    reshape main_v92 main_v93 rfl shapeCasts_S1_S_,
    unary main_v91 main_v94 ((extractStridedSlice S16x1024x1024 ![0, 0, 0] · slices_S16x1024x1032_S16x1024x1024_0_0_0) : (⟨S16x1024x1032, .f32⟩ : BufTy).Contents (Elt F) → (⟨S16x1024x1024, .f32⟩ : BufTy).Contents (Elt F)),
    unary main_v93 main_v95 (broadcastInDim S16x1024x1024 ![] bcast_S_S16x1024x1024 : (⟨S_, .f32⟩ : BufTy).Contents (Elt F) → (⟨S16x1024x1024, .f32⟩ : BufTy).Contents (Elt F)),
    binary main_v95 main_v94 main_v96 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v97 ((extractStridedSlice S1 ![1] · slices_S5_S1_1) : (⟨S5, .f32⟩ : BufTy).Contents (Elt F) → (⟨S1, .f32⟩ : BufTy).Contents (Elt F)),
    reshape main_v97 main_v98 rfl shapeCasts_S1_S_,
    unary main_v91 main_v99 ((extractStridedSlice S16x1024x1024 ![0, 0, 2] · slices_S16x1024x1032_S16x1024x1024_0_0_2) : (⟨S16x1024x1032, .f32⟩ : BufTy).Contents (Elt F) → (⟨S16x1024x1024, .f32⟩ : BufTy).Contents (Elt F)),
    unary main_v98 main_v100 (broadcastInDim S16x1024x1024 ![] bcast_S_S16x1024x1024 : (⟨S_, .f32⟩ : BufTy).Contents (Elt F) → (⟨S16x1024x1024, .f32⟩ : BufTy).Contents (Elt F)),
    binary main_v100 main_v99 main_v101 (mulf : (⟨S16x1024x1024, .f32⟩ : BufTy).Contents (Elt F) → (⟨S16x1024x1024, .f32⟩ : BufTy).Contents (Elt F) → (⟨S16x1024x1024, .f32⟩ : BufTy).Contents (Elt F)),
    binary main_v96 main_v101 main_v102 (addf : (⟨S16x1024x1024, .f32⟩ : BufTy).Contents (Elt F) → (⟨S16x1024x1024, .f32⟩ : BufTy).Contents (Elt F) → (⟨S16x1024x1024, .f32⟩ : BufTy).Contents (Elt F)),
    unary main_cst main_v103 ((extractStridedSlice S1 ![2] · slices_S5_S1_2) : (⟨S5, .f32⟩ : BufTy).Contents (Elt F) → (⟨S1, .f32⟩ : BufTy).Contents (Elt F)),
    reshape main_v103 main_v104 rfl shapeCasts_S1_S_,
    unary main_v91 main_v105 ((extractStridedSlice S16x1024x1024 ![0, 0, 4] · slices_S16x1024x1032_S16x1024x1024_0_0_4) : (⟨S16x1024x1032, .f32⟩ : BufTy).Contents (Elt F) → (⟨S16x1024x1024, .f32⟩ : BufTy).Contents (Elt F)),
    unary main_v104 main_v106 (broadcastInDim S16x1024x1024 ![] bcast_S_S16x1024x1024 : (⟨S_, .f32⟩ : BufTy).Contents (Elt F) → (⟨S16x1024x1024, .f32⟩ : BufTy).Contents (Elt F)),
    binary main_v106 main_v105 main_v107 (mulf : (⟨S16x1024x1024, .f32⟩ : BufTy).Contents (Elt F) → (⟨S16x1024x1024, .f32⟩ : BufTy).Contents (Elt F) → (⟨S16x1024x1024, .f32⟩ : BufTy).Contents (Elt F)),
    binary main_v102 main_v107 main_v108 (addf : (⟨S16x1024x1024, .f32⟩ : BufTy).Contents (Elt F) → (⟨S16x1024x1024, .f32⟩ : BufTy).Contents (Elt F) → (⟨S16x1024x1024, .f32⟩ : BufTy).Contents (Elt F)),
    unary main_cst main_v109 ((extractStridedSlice S1 ![3] · slices_S5_S1_3) : (⟨S5, .f32⟩ : BufTy).Contents (Elt F) → (⟨S1, .f32⟩ : BufTy).Contents (Elt F)),
    reshape main_v109 main_v110 rfl shapeCasts_S1_S_,
    unary main_v91 main_v111 ((extractStridedSlice S16x1024x1024 ![0, 0, 6] · slices_S16x1024x1032_S16x1024x1024_0_0_6) : (⟨S16x1024x1032, .f32⟩ : BufTy).Contents (Elt F) → (⟨S16x1024x1024, .f32⟩ : BufTy).Contents (Elt F)),
    unary main_v110 main_v112 (broadcastInDim S16x1024x1024 ![] bcast_S_S16x1024x1024 : (⟨S_, .f32⟩ : BufTy).Contents (Elt F) → (⟨S16x1024x1024, .f32⟩ : BufTy).Contents (Elt F)),
    binary main_v112 main_v111 main_v113 (mulf : (⟨S16x1024x1024, .f32⟩ : BufTy).Contents (Elt F) → (⟨S16x1024x1024, .f32⟩ : BufTy).Contents (Elt F) → (⟨S16x1024x1024, .f32⟩ : BufTy).Contents (Elt F)),
    binary main_v108 main_v113 main_v114 (addf : (⟨S16x1024x1024, .f32⟩ : BufTy).Contents (Elt F) → (⟨S16x1024x1024, .f32⟩ : BufTy).Contents (Elt F) → (⟨S16x1024x1024, .f32⟩ : BufTy).Contents (Elt F)),
    unary main_cst main_v115 ((extractStridedSlice S1 ![4] · slices_S5_S1_4) : (⟨S5, .f32⟩ : BufTy).Contents (Elt F) → (⟨S1, .f32⟩ : BufTy).Contents (Elt F)),
    reshape main_v115 main_v116 rfl shapeCasts_S1_S_,
    unary main_v91 main_v117 ((extractStridedSlice S16x1024x1024 ![0, 0, 8] · slices_S16x1024x1032_S16x1024x1024_0_0_8) : (⟨S16x1024x1032, .f32⟩ : BufTy).Contents (Elt F) → (⟨S16x1024x1024, .f32⟩ : BufTy).Contents (Elt F)),
    unary main_v116 main_v118 (broadcastInDim S16x1024x1024 ![] bcast_S_S16x1024x1024 : (⟨S_, .f32⟩ : BufTy).Contents (Elt F) → (⟨S16x1024x1024, .f32⟩ : BufTy).Contents (Elt F)),
    binary main_v118 main_v117 main_v119 (mulf : (⟨S16x1024x1024, .f32⟩ : BufTy).Contents (Elt F) → (⟨S16x1024x1024, .f32⟩ : BufTy).Contents (Elt F) → (⟨S16x1024x1024, .f32⟩ : BufTy).Contents (Elt F)),
    binary main_v114 main_v119 main_v120 (addf : (⟨S16x1024x1024, .f32⟩ : BufTy).Contents (Elt F) → (⟨S16x1024x1024, .f32⟩ : BufTy).Contents (Elt F) → (⟨S16x1024x1024, .f32⟩ : BufTy).Contents (Elt F)),
    binary main_v59 main_v120 main_v121 (subf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
theorem seg9_sub : (seg9 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., binary_bufs_sub ..⟩
set_option maxRecDepth 8192 in
theorem seg9_fresh : ∀ op ∈ (seg9 : List (HloOp τ sig (Elt F))), op.fresh = ∅ := by
  intro _ h; (repeat (cases h with | head => rfl | tail _ h => ?_)); exact nomatch h

/-- Operations 156 … 164 of the program: the reflect padding by 8 along axis 1. -/
abbrev seg10 : List (HloOp τ sig (Elt F)) :=
  [ nullary main_c_3 (constantI S_ 32 0#32),
    TRef.unary (.of main_v120 : TRef sig ⟨S16x1024x1024, .f32⟩) main_call4.v0 (extractStridedSlice S16x1x1024 ![0, 0, 0] · slices_S16x1024x1024_S16x1x1024_0_0_0),
    TRef.unary (.of main_v120 : TRef sig ⟨S16x1024x1024, .f32⟩) main_call4.v1 (extractStridedSlice S16x8x1024 ![0, 1, 0] · slices_S16x1024x1024_S16x8x1024_0_1_0),
    TRef.unary main_call4.v1 main_call4.call0.v0 (Host.reverse [1]),
    TRef.binary main_call4.call0.v0 (.of main_v120 : TRef sig ⟨S16x1024x1024, .f32⟩) main_call4.v3 (fun a b => concatenate S16x1032x1024 1 [⟨S16x8x1024, a⟩, ⟨S16x1024x1024, b⟩] concatenates_S16x8x1024_S16x1024x1024_S16x1032x1024_d1),
    TRef.unary main_call4.v3 main_call4.v4 (extractStridedSlice S16x1x1024 ![0, 1031, 0] · slices_S16x1032x1024_S16x1x1024_0_1031_0),
    TRef.unary main_call4.v3 main_call4.v5 (extractStridedSlice S16x8x1024 ![0, 1023, 0] · slices_S16x1032x1024_S16x8x1024_0_1023_0),
    TRef.unary main_call4.v5 main_call4.call1.v0 (Host.reverse [1]),
    TRef.binary main_call4.v3 main_call4.call1.v0 main_call4.v7 (fun a b => concatenate S16x1040x1024 1 [⟨S16x1032x1024, a⟩, ⟨S16x8x1024, b⟩] concatenates_S16x1032x1024_S16x8x1024_S16x1040x1024_d1) ]

set_option maxRecDepth 8192 in
theorem seg10_sub : (seg10 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
set_option maxRecDepth 8192 in
theorem seg10_fresh : ∀ op ∈ (seg10 : List (HloOp τ sig (Elt F))), op.fresh = ∅ := by
  intro _ h; (repeat (cases h with | head => rfl | tail _ h => ?_)); exact nomatch h

/-- Operations 165 … 193 of the program: the five-tap sum along axis 1 with spacing 4. -/
abbrev seg11 : List (HloOp τ sig (Elt F)) :=
  [ unary main_cst main_v123 ((extractStridedSlice S1 ![0] · slices_S5_S1_0) : (⟨S5, .f32⟩ : BufTy).Contents (Elt F) → (⟨S1, .f32⟩ : BufTy).Contents (Elt F)),
    reshape main_v123 main_v124 rfl shapeCasts_S1_S_,
    unary main_v122 main_v125 ((extractStridedSlice S16x1024x1024 ![0, 0, 0] · slices_S16x1040x1024_S16x1024x1024_0_0_0) : (⟨S16x1040x1024, .f32⟩ : BufTy).Contents (Elt F) → (⟨S16x1024x1024, .f32⟩ : BufTy).Contents (Elt F)),
    unary main_v124 main_v126 (broadcastInDim S16x1024x1024 ![] bcast_S_S16x1024x1024 : (⟨S_, .f32⟩ : BufTy).Contents (Elt F) → (⟨S16x1024x1024, .f32⟩ : BufTy).Contents (Elt F)),
    binary main_v126 main_v125 main_v127 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v128 ((extractStridedSlice S1 ![1] · slices_S5_S1_1) : (⟨S5, .f32⟩ : BufTy).Contents (Elt F) → (⟨S1, .f32⟩ : BufTy).Contents (Elt F)),
    reshape main_v128 main_v129 rfl shapeCasts_S1_S_,
    unary main_v122 main_v130 ((extractStridedSlice S16x1024x1024 ![0, 4, 0] · slices_S16x1040x1024_S16x1024x1024_0_4_0) : (⟨S16x1040x1024, .f32⟩ : BufTy).Contents (Elt F) → (⟨S16x1024x1024, .f32⟩ : BufTy).Contents (Elt F)),
    unary main_v129 main_v131 (broadcastInDim S16x1024x1024 ![] bcast_S_S16x1024x1024 : (⟨S_, .f32⟩ : BufTy).Contents (Elt F) → (⟨S16x1024x1024, .f32⟩ : BufTy).Contents (Elt F)),
    binary main_v131 main_v130 main_v132 (mulf : (⟨S16x1024x1024, .f32⟩ : BufTy).Contents (Elt F) → (⟨S16x1024x1024, .f32⟩ : BufTy).Contents (Elt F) → (⟨S16x1024x1024, .f32⟩ : BufTy).Contents (Elt F)),
    binary main_v127 main_v132 main_v133 (addf : (⟨S16x1024x1024, .f32⟩ : BufTy).Contents (Elt F) → (⟨S16x1024x1024, .f32⟩ : BufTy).Contents (Elt F) → (⟨S16x1024x1024, .f32⟩ : BufTy).Contents (Elt F)),
    unary main_cst main_v134 ((extractStridedSlice S1 ![2] · slices_S5_S1_2) : (⟨S5, .f32⟩ : BufTy).Contents (Elt F) → (⟨S1, .f32⟩ : BufTy).Contents (Elt F)),
    reshape main_v134 main_v135 rfl shapeCasts_S1_S_,
    unary main_v122 main_v136 ((extractStridedSlice S16x1024x1024 ![0, 8, 0] · slices_S16x1040x1024_S16x1024x1024_0_8_0) : (⟨S16x1040x1024, .f32⟩ : BufTy).Contents (Elt F) → (⟨S16x1024x1024, .f32⟩ : BufTy).Contents (Elt F)),
    unary main_v135 main_v137 (broadcastInDim S16x1024x1024 ![] bcast_S_S16x1024x1024 : (⟨S_, .f32⟩ : BufTy).Contents (Elt F) → (⟨S16x1024x1024, .f32⟩ : BufTy).Contents (Elt F)),
    binary main_v137 main_v136 main_v138 (mulf : (⟨S16x1024x1024, .f32⟩ : BufTy).Contents (Elt F) → (⟨S16x1024x1024, .f32⟩ : BufTy).Contents (Elt F) → (⟨S16x1024x1024, .f32⟩ : BufTy).Contents (Elt F)),
    binary main_v133 main_v138 main_v139 (addf : (⟨S16x1024x1024, .f32⟩ : BufTy).Contents (Elt F) → (⟨S16x1024x1024, .f32⟩ : BufTy).Contents (Elt F) → (⟨S16x1024x1024, .f32⟩ : BufTy).Contents (Elt F)),
    unary main_cst main_v140 ((extractStridedSlice S1 ![3] · slices_S5_S1_3) : (⟨S5, .f32⟩ : BufTy).Contents (Elt F) → (⟨S1, .f32⟩ : BufTy).Contents (Elt F)),
    reshape main_v140 main_v141 rfl shapeCasts_S1_S_,
    unary main_v122 main_v142 ((extractStridedSlice S16x1024x1024 ![0, 12, 0] · slices_S16x1040x1024_S16x1024x1024_0_12_0) : (⟨S16x1040x1024, .f32⟩ : BufTy).Contents (Elt F) → (⟨S16x1024x1024, .f32⟩ : BufTy).Contents (Elt F)),
    unary main_v141 main_v143 (broadcastInDim S16x1024x1024 ![] bcast_S_S16x1024x1024 : (⟨S_, .f32⟩ : BufTy).Contents (Elt F) → (⟨S16x1024x1024, .f32⟩ : BufTy).Contents (Elt F)),
    binary main_v143 main_v142 main_v144 (mulf : (⟨S16x1024x1024, .f32⟩ : BufTy).Contents (Elt F) → (⟨S16x1024x1024, .f32⟩ : BufTy).Contents (Elt F) → (⟨S16x1024x1024, .f32⟩ : BufTy).Contents (Elt F)),
    binary main_v139 main_v144 main_v145 (addf : (⟨S16x1024x1024, .f32⟩ : BufTy).Contents (Elt F) → (⟨S16x1024x1024, .f32⟩ : BufTy).Contents (Elt F) → (⟨S16x1024x1024, .f32⟩ : BufTy).Contents (Elt F)),
    unary main_cst main_v146 ((extractStridedSlice S1 ![4] · slices_S5_S1_4) : (⟨S5, .f32⟩ : BufTy).Contents (Elt F) → (⟨S1, .f32⟩ : BufTy).Contents (Elt F)),
    reshape main_v146 main_v147 rfl shapeCasts_S1_S_,
    unary main_v122 main_v148 ((extractStridedSlice S16x1024x1024 ![0, 16, 0] · slices_S16x1040x1024_S16x1024x1024_0_16_0) : (⟨S16x1040x1024, .f32⟩ : BufTy).Contents (Elt F) → (⟨S16x1024x1024, .f32⟩ : BufTy).Contents (Elt F)),
    unary main_v147 main_v149 (broadcastInDim S16x1024x1024 ![] bcast_S_S16x1024x1024 : (⟨S_, .f32⟩ : BufTy).Contents (Elt F) → (⟨S16x1024x1024, .f32⟩ : BufTy).Contents (Elt F)),
    binary main_v149 main_v148 main_v150 (mulf : (⟨S16x1024x1024, .f32⟩ : BufTy).Contents (Elt F) → (⟨S16x1024x1024, .f32⟩ : BufTy).Contents (Elt F) → (⟨S16x1024x1024, .f32⟩ : BufTy).Contents (Elt F)),
    binary main_v145 main_v150 main_v151 (addf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
theorem seg11_sub : (seg11 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩
set_option maxRecDepth 8192 in
theorem seg11_fresh : ∀ op ∈ (seg11 : List (HloOp τ sig (Elt F))), op.fresh = ∅ := by
  intro _ h; (repeat (cases h with | head => rfl | tail _ h => ?_)); exact nomatch h

/-- Operations 194 … 202 of the program: the reflect padding by 8 along axis 2. -/
abbrev seg12 : List (HloOp τ sig (Elt F)) :=
  [ nullary main_c_4 (constantI S_ 32 0#32),
    TRef.unary (.of main_v151 : TRef sig ⟨S16x1024x1024, .f32⟩) main_call5.v0 (extractStridedSlice S16x1024x1 ![0, 0, 0] · slices_S16x1024x1024_S16x1024x1_0_0_0),
    TRef.unary (.of main_v151 : TRef sig ⟨S16x1024x1024, .f32⟩) main_call5.v1 (extractStridedSlice S16x1024x8 ![0, 0, 1] · slices_S16x1024x1024_S16x1024x8_0_0_1),
    TRef.unary main_call5.v1 main_call5.call0.v0 (Host.reverse [2]),
    TRef.binary main_call5.call0.v0 (.of main_v151 : TRef sig ⟨S16x1024x1024, .f32⟩) main_call5.v3 (fun a b => concatenate S16x1024x1032 2 [⟨S16x1024x8, a⟩, ⟨S16x1024x1024, b⟩] concatenates_S16x1024x8_S16x1024x1024_S16x1024x1032_d2),
    TRef.unary main_call5.v3 main_call5.v4 (extractStridedSlice S16x1024x1 ![0, 0, 1031] · slices_S16x1024x1032_S16x1024x1_0_0_1031),
    TRef.unary main_call5.v3 main_call5.v5 (extractStridedSlice S16x1024x8 ![0, 0, 1023] · slices_S16x1024x1032_S16x1024x8_0_0_1023),
    TRef.unary main_call5.v5 main_call5.call1.v0 (Host.reverse [2]),
    TRef.binary main_call5.v3 main_call5.call1.v0 main_call5.v7 (fun a b => concatenate S16x1024x1040 2 [⟨S16x1024x1032, a⟩, ⟨S16x1024x8, b⟩] concatenates_S16x1024x1032_S16x1024x8_S16x1024x1040_d2) ]

set_option maxRecDepth 8192 in
theorem seg12_sub : (seg12 : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub ..⟩
set_option maxRecDepth 8192 in
theorem seg12_fresh : ∀ op ∈ (seg12 : List (HloOp τ sig (Elt F))), op.fresh = ∅ := by
  intro _ h; (repeat (cases h with | head => rfl | tail _ h => ?_)); exact nomatch h

/-- Operations 203 … 232 of the program: the five-tap sum along axis 2 with spacing 4, and the third difference. -/
abbrev seg13 : List (HloOp τ sig (Elt F)) :=
  [ unary main_cst main_v153 ((extractStridedSlice S1 ![0] · slices_S5_S1_0) : (⟨S5, .f32⟩ : BufTy).Contents (Elt F) → (⟨S1, .f32⟩ : BufTy).Contents (Elt F)),
    reshape main_v153 main_v154 rfl shapeCasts_S1_S_,
    unary main_v152 main_v155 ((extractStridedSlice S16x1024x1024 ![0, 0, 0] · slices_S16x1024x1040_S16x1024x1024_0_0_0) : (⟨S16x1024x1040, .f32⟩ : BufTy).Contents (Elt F) → (⟨S16x1024x1024, .f32⟩ : BufTy).Contents (Elt F)),
    unary main_v154 main_v156 (broadcastInDim S16x1024x1024 ![] bcast_S_S16x1024x1024 : (⟨S_, .f32⟩ : BufTy).Contents (Elt F) → (⟨S16x1024x1024, .f32⟩ : BufTy).Contents (Elt F)),
    binary main_v156 main_v155 main_v157 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v158 ((extractStridedSlice S1 ![1] · slices_S5_S1_1) : (⟨S5, .f32⟩ : BufTy).Contents (Elt F) → (⟨S1, .f32⟩ : BufTy).Contents (Elt F)),
    reshape main_v158 main_v159 rfl shapeCasts_S1_S_,
    unary main_v152 main_v160 ((extractStridedSlice S16x1024x1024 ![0, 0, 4] · slices_S16x1024x1040_S16x1024x1024_0_0_4) : (⟨S16x1024x1040, .f32⟩ : BufTy).Contents (Elt F) → (⟨S16x1024x1024, .f32⟩ : BufTy).Contents (Elt F)),
    unary main_v159 main_v161 (broadcastInDim S16x1024x1024 ![] bcast_S_S16x1024x1024 : (⟨S_, .f32⟩ : BufTy).Contents (Elt F) → (⟨S16x1024x1024, .f32⟩ : BufTy).Contents (Elt F)),
    binary main_v161 main_v160 main_v162 (mulf : (⟨S16x1024x1024, .f32⟩ : BufTy).Contents (Elt F) → (⟨S16x1024x1024, .f32⟩ : BufTy).Contents (Elt F) → (⟨S16x1024x1024, .f32⟩ : BufTy).Contents (Elt F)),
    binary main_v157 main_v162 main_v163 (addf : (⟨S16x1024x1024, .f32⟩ : BufTy).Contents (Elt F) → (⟨S16x1024x1024, .f32⟩ : BufTy).Contents (Elt F) → (⟨S16x1024x1024, .f32⟩ : BufTy).Contents (Elt F)),
    unary main_cst main_v164 ((extractStridedSlice S1 ![2] · slices_S5_S1_2) : (⟨S5, .f32⟩ : BufTy).Contents (Elt F) → (⟨S1, .f32⟩ : BufTy).Contents (Elt F)),
    reshape main_v164 main_v165 rfl shapeCasts_S1_S_,
    unary main_v152 main_v166 ((extractStridedSlice S16x1024x1024 ![0, 0, 8] · slices_S16x1024x1040_S16x1024x1024_0_0_8) : (⟨S16x1024x1040, .f32⟩ : BufTy).Contents (Elt F) → (⟨S16x1024x1024, .f32⟩ : BufTy).Contents (Elt F)),
    unary main_v165 main_v167 (broadcastInDim S16x1024x1024 ![] bcast_S_S16x1024x1024 : (⟨S_, .f32⟩ : BufTy).Contents (Elt F) → (⟨S16x1024x1024, .f32⟩ : BufTy).Contents (Elt F)),
    binary main_v167 main_v166 main_v168 (mulf : (⟨S16x1024x1024, .f32⟩ : BufTy).Contents (Elt F) → (⟨S16x1024x1024, .f32⟩ : BufTy).Contents (Elt F) → (⟨S16x1024x1024, .f32⟩ : BufTy).Contents (Elt F)),
    binary main_v163 main_v168 main_v169 (addf : (⟨S16x1024x1024, .f32⟩ : BufTy).Contents (Elt F) → (⟨S16x1024x1024, .f32⟩ : BufTy).Contents (Elt F) → (⟨S16x1024x1024, .f32⟩ : BufTy).Contents (Elt F)),
    unary main_cst main_v170 ((extractStridedSlice S1 ![3] · slices_S5_S1_3) : (⟨S5, .f32⟩ : BufTy).Contents (Elt F) → (⟨S1, .f32⟩ : BufTy).Contents (Elt F)),
    reshape main_v170 main_v171 rfl shapeCasts_S1_S_,
    unary main_v152 main_v172 ((extractStridedSlice S16x1024x1024 ![0, 0, 12] · slices_S16x1024x1040_S16x1024x1024_0_0_12) : (⟨S16x1024x1040, .f32⟩ : BufTy).Contents (Elt F) → (⟨S16x1024x1024, .f32⟩ : BufTy).Contents (Elt F)),
    unary main_v171 main_v173 (broadcastInDim S16x1024x1024 ![] bcast_S_S16x1024x1024 : (⟨S_, .f32⟩ : BufTy).Contents (Elt F) → (⟨S16x1024x1024, .f32⟩ : BufTy).Contents (Elt F)),
    binary main_v173 main_v172 main_v174 (mulf : (⟨S16x1024x1024, .f32⟩ : BufTy).Contents (Elt F) → (⟨S16x1024x1024, .f32⟩ : BufTy).Contents (Elt F) → (⟨S16x1024x1024, .f32⟩ : BufTy).Contents (Elt F)),
    binary main_v169 main_v174 main_v175 (addf : (⟨S16x1024x1024, .f32⟩ : BufTy).Contents (Elt F) → (⟨S16x1024x1024, .f32⟩ : BufTy).Contents (Elt F) → (⟨S16x1024x1024, .f32⟩ : BufTy).Contents (Elt F)),
    unary main_cst main_v176 ((extractStridedSlice S1 ![4] · slices_S5_S1_4) : (⟨S5, .f32⟩ : BufTy).Contents (Elt F) → (⟨S1, .f32⟩ : BufTy).Contents (Elt F)),
    reshape main_v176 main_v177 rfl shapeCasts_S1_S_,
    unary main_v152 main_v178 ((extractStridedSlice S16x1024x1024 ![0, 0, 16] · slices_S16x1024x1040_S16x1024x1024_0_0_16) : (⟨S16x1024x1040, .f32⟩ : BufTy).Contents (Elt F) → (⟨S16x1024x1024, .f32⟩ : BufTy).Contents (Elt F)),
    unary main_v177 main_v179 (broadcastInDim S16x1024x1024 ![] bcast_S_S16x1024x1024 : (⟨S_, .f32⟩ : BufTy).Contents (Elt F) → (⟨S16x1024x1024, .f32⟩ : BufTy).Contents (Elt F)),
    binary main_v179 main_v178 main_v180 (mulf : (⟨S16x1024x1024, .f32⟩ : BufTy).Contents (Elt F) → (⟨S16x1024x1024, .f32⟩ : BufTy).Contents (Elt F) → (⟨S16x1024x1024, .f32⟩ : BufTy).Contents (Elt F)),
    binary main_v175 main_v180 main_v181 (addf : (⟨S16x1024x1024, .f32⟩ : BufTy).Contents (Elt F) → (⟨S16x1024x1024, .f32⟩ : BufTy).Contents (Elt F) → (⟨S16x1024x1024, .f32⟩ : BufTy).Contents (Elt F)),
    binary main_v120 main_v181 main_v182 (subf : (⟨S16x1024x1024, .f32⟩ : BufTy).Contents (Elt F) → (⟨S16x1024x1024, .f32⟩ : BufTy).Contents (Elt F) → (⟨S16x1024x1024, .f32⟩ : BufTy).Contents (Elt F)) ]

set_option maxRecDepth 8192 in
theorem seg13_sub : (seg13 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., binary_bufs_sub ..⟩
set_option maxRecDepth 8192 in
theorem seg13_fresh : ∀ op ∈ (seg13 : List (HloOp τ sig (Elt F))), op.fresh = ∅ := by
  intro _ h; (repeat (cases h with | head => rfl | tail _ h => ?_)); exact nomatch h

/-- Operations 233 … 237 of the program: the four channels and their concatenation. -/
abbrev seg14 : List (HloOp τ sig (Elt F)) :=
  [ unary main_v60 main_v183 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    unary main_v121 main_v184 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    unary main_v182 main_v185 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    unary main_v181 main_v186 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
    nary ![main_v183, main_v184, main_v185, main_v186] main_v187 (fun u => concatenate S16x4x1024x1024 1 [⟨S16x1x1024x1024, u 0⟩, ⟨S16x1x1024x1024, u 1⟩, ⟨S16x1x1024x1024, u 2⟩, ⟨S16x1x1024x1024, u 3⟩] concatenates_S16x1x1024x1024_S16x1x1024x1024_S16x1x1024x1024_S16x1x1024x1024_S16x4x1024x1024_d1) ]

set_option maxRecDepth 8192 in
theorem seg14_sub : (seg14 : List (HloOp τ sig (Elt F))).Forall fun op => op.bufs ⊆ tcRefs τ sig :=
  ⟨unary_bufs_sub .., unary_bufs_sub .., unary_bufs_sub .., unary_bufs_sub .., nary_bufs_sub ..⟩
set_option maxRecDepth 8192 in
theorem seg14_fresh : ∀ op ∈ (seg14 : List (HloOp τ sig (Elt F))), op.fresh = ∅ := by
  intro _ h; (repeat (cases h with | head => rfl | tail _ h => ?_)); exact nomatch h

/-- The program's 237 operations, in order. -/
abbrev ops : List (HloOp τ sig (Elt F)) := seg1 ++ (seg2 ++ (seg3 ++ (seg4 ++ (seg5 ++ (seg6 ++ (seg7 ++ (seg8 ++ (seg9 ++ (seg10 ++ (seg11 ++ (seg12 ++ (seg13 ++ (seg14)))))))))))))

/-- Group 5 up to operation 74 of the program, where one of the four parts the program is printed in ends. -/
abbrev seg5a : List (HloOp τ sig (Elt F)) :=
  [ unary main_cst main_v31 ((extractStridedSlice S1 ![0] · slices_S5_S1_0) : (⟨S5, .f32⟩ : BufTy).Contents (Elt F) → (⟨S1, .f32⟩ : BufTy).Contents (Elt F)),
    reshape main_v31 main_v32 rfl shapeCasts_S1_S_,
    unary main_v30 main_v33 ((extractStridedSlice S16x1024x1024 ![0, 0, 0] · slices_S16x1024x1028_S16x1024x1024_0_0_0) : (⟨S16x1024x1028, .f32⟩ : BufTy).Contents (Elt F) → (⟨S16x1024x1024, .f32⟩ : BufTy).Contents (Elt F)),
    unary main_v32 main_v34 (broadcastInDim S16x1024x1024 ![] bcast_S_S16x1024x1024 : (⟨S_, .f32⟩ : BufTy).Contents (Elt F) → (⟨S16x1024x1024, .f32⟩ : BufTy).Contents (Elt F)),
    binary main_v34 main_v33 main_v35 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v36 ((extractStridedSlice S1 ![1] · slices_S5_S1_1) : (⟨S5, .f32⟩ : BufTy).Contents (Elt F) → (⟨S1, .f32⟩ : BufTy).Contents (Elt F)),
    reshape main_v36 main_v37 rfl shapeCasts_S1_S_,
    unary main_v30 main_v38 ((extractStridedSlice S16x1024x1024 ![0, 0, 1] · slices_S16x1024x1028_S16x1024x1024_0_0_1) : (⟨S16x1024x1028, .f32⟩ : BufTy).Contents (Elt F) → (⟨S16x1024x1024, .f32⟩ : BufTy).Contents (Elt F)),
    unary main_v37 main_v39 (broadcastInDim S16x1024x1024 ![] bcast_S_S16x1024x1024 : (⟨S_, .f32⟩ : BufTy).Contents (Elt F) → (⟨S16x1024x1024, .f32⟩ : BufTy).Contents (Elt F)),
    binary main_v39 main_v38 main_v40 (mulf : (⟨S16x1024x1024, .f32⟩ : BufTy).Contents (Elt F) → (⟨S16x1024x1024, .f32⟩ : BufTy).Contents (Elt F) → (⟨S16x1024x1024, .f32⟩ : BufTy).Contents (Elt F)),
    binary main_v35 main_v40 main_v41 (addf : (⟨S16x1024x1024, .f32⟩ : BufTy).Contents (Elt F) → (⟨S16x1024x1024, .f32⟩ : BufTy).Contents (Elt F) → (⟨S16x1024x1024, .f32⟩ : BufTy).Contents (Elt F)),
    unary main_cst main_v42 ((extractStridedSlice S1 ![2] · slices_S5_S1_2) : (⟨S5, .f32⟩ : BufTy).Contents (Elt F) → (⟨S1, .f32⟩ : BufTy).Contents (Elt F)),
    reshape main_v42 main_v43 rfl shapeCasts_S1_S_,
    unary main_v30 main_v44 ((extractStridedSlice S16x1024x1024 ![0, 0, 2] · slices_S16x1024x1028_S16x1024x1024_0_0_2) : (⟨S16x1024x1028, .f32⟩ : BufTy).Contents (Elt F) → (⟨S16x1024x1024, .f32⟩ : BufTy).Contents (Elt F)),
    unary main_v43 main_v45 (broadcastInDim S16x1024x1024 ![] bcast_S_S16x1024x1024 : (⟨S_, .f32⟩ : BufTy).Contents (Elt F) → (⟨S16x1024x1024, .f32⟩ : BufTy).Contents (Elt F)),
    binary main_v45 main_v44 main_v46 (mulf : (⟨S16x1024x1024, .f32⟩ : BufTy).Contents (Elt F) → (⟨S16x1024x1024, .f32⟩ : BufTy).Contents (Elt F) → (⟨S16x1024x1024, .f32⟩ : BufTy).Contents (Elt F)),
    binary main_v41 main_v46 main_v47 (addf : (⟨S16x1024x1024, .f32⟩ : BufTy).Contents (Elt F) → (⟨S16x1024x1024, .f32⟩ : BufTy).Contents (Elt F) → (⟨S16x1024x1024, .f32⟩ : BufTy).Contents (Elt F)),
    unary main_cst main_v48 ((extractStridedSlice S1 ![3] · slices_S5_S1_3) : (⟨S5, .f32⟩ : BufTy).Contents (Elt F) → (⟨S1, .f32⟩ : BufTy).Contents (Elt F)),
    reshape main_v48 main_v49 rfl shapeCasts_S1_S_,
    unary main_v30 main_v50 ((extractStridedSlice S16x1024x1024 ![0, 0, 3] · slices_S16x1024x1028_S16x1024x1024_0_0_3) : (⟨S16x1024x1028, .f32⟩ : BufTy).Contents (Elt F) → (⟨S16x1024x1024, .f32⟩ : BufTy).Contents (Elt F)),
    unary main_v49 main_v51 (broadcastInDim S16x1024x1024 ![] bcast_S_S16x1024x1024 : (⟨S_, .f32⟩ : BufTy).Contents (Elt F) → (⟨S16x1024x1024, .f32⟩ : BufTy).Contents (Elt F)),
    binary main_v51 main_v50 main_v52 (mulf : (⟨S16x1024x1024, .f32⟩ : BufTy).Contents (Elt F) → (⟨S16x1024x1024, .f32⟩ : BufTy).Contents (Elt F) → (⟨S16x1024x1024, .f32⟩ : BufTy).Contents (Elt F)),
    binary main_v47 main_v52 main_v53 (addf : (⟨S16x1024x1024, .f32⟩ : BufTy).Contents (Elt F) → (⟨S16x1024x1024, .f32⟩ : BufTy).Contents (Elt F) → (⟨S16x1024x1024, .f32⟩ : BufTy).Contents (Elt F)),
    unary main_cst main_v54 ((extractStridedSlice S1 ![4] · slices_S5_S1_4) : (⟨S5, .f32⟩ : BufTy).Contents (Elt F) → (⟨S1, .f32⟩ : BufTy).Contents (Elt F)),
    reshape main_v54 main_v55 rfl shapeCasts_S1_S_,
    unary main_v30 main_v56 ((extractStridedSlice S16x1024x1024 ![0, 0, 4] · slices_S16x1024x1028_S16x1024x1024_0_0_4) : (⟨S16x1024x1028, .f32⟩ : BufTy).Contents (Elt F) → (⟨S16x1024x1024, .f32⟩ : BufTy).Contents (Elt F)) ]
/-- Group 5 from operation 75 of the program on. -/
abbrev seg5b : List (HloOp τ sig (Elt F)) :=
  [ unary main_v55 main_v57 (broadcastInDim S16x1024x1024 ![] bcast_S_S16x1024x1024 : (⟨S_, .f32⟩ : BufTy).Contents (Elt F) → (⟨S16x1024x1024, .f32⟩ : BufTy).Contents (Elt F)),
    binary main_v57 main_v56 main_v58 (mulf : (⟨S16x1024x1024, .f32⟩ : BufTy).Contents (Elt F) → (⟨S16x1024x1024, .f32⟩ : BufTy).Contents (Elt F) → (⟨S16x1024x1024, .f32⟩ : BufTy).Contents (Elt F)),
    binary main_v53 main_v58 main_v59 (addf : (⟨S16x1024x1024, .f32⟩ : BufTy).Contents (Elt F) → (⟨S16x1024x1024, .f32⟩ : BufTy).Contents (Elt F) → (⟨S16x1024x1024, .f32⟩ : BufTy).Contents (Elt F)),
    binary main_arg0 main_v59 main_v60 (subf : (⟨S16x1024x1024, .f32⟩ : BufTy).Contents (Elt F) → (⟨S16x1024x1024, .f32⟩ : BufTy).Contents (Elt F) → (⟨S16x1024x1024, .f32⟩ : BufTy).Contents (Elt F)) ]
theorem seg5_split : (seg5 : List (HloOp τ sig (Elt F))) = seg5a ++ seg5b := rfl

/-- Group 9 up to operation 148 of the program, where one of the four parts the program is printed in ends. -/
abbrev seg9a : List (HloOp τ sig (Elt F)) :=
  [ unary main_cst main_v92 ((extractStridedSlice S1 ![0] · slices_S5_S1_0) : (⟨S5, .f32⟩ : BufTy).Contents (Elt F) → (⟨S1, .f32⟩ : BufTy).Contents (Elt F)),
    reshape main_v92 main_v93 rfl shapeCasts_S1_S_,
    unary main_v91 main_v94 ((extractStridedSlice S16x1024x1024 ![0, 0, 0] · slices_S16x1024x1032_S16x1024x1024_0_0_0) : (⟨S16x1024x1032, .f32⟩ : BufTy).Contents (Elt F) → (⟨S16x1024x1024, .f32⟩ : BufTy).Contents (Elt F)),
    unary main_v93 main_v95 (broadcastInDim S16x1024x1024 ![] bcast_S_S16x1024x1024 : (⟨S_, .f32⟩ : BufTy).Contents (Elt F) → (⟨S16x1024x1024, .f32⟩ : BufTy).Contents (Elt F)),
    binary main_v95 main_v94 main_v96 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v97 ((extractStridedSlice S1 ![1] · slices_S5_S1_1) : (⟨S5, .f32⟩ : BufTy).Contents (Elt F) → (⟨S1, .f32⟩ : BufTy).Contents (Elt F)),
    reshape main_v97 main_v98 rfl shapeCasts_S1_S_,
    unary main_v91 main_v99 ((extractStridedSlice S16x1024x1024 ![0, 0, 2] · slices_S16x1024x1032_S16x1024x1024_0_0_2) : (⟨S16x1024x1032, .f32⟩ : BufTy).Contents (Elt F) → (⟨S16x1024x1024, .f32⟩ : BufTy).Contents (Elt F)),
    unary main_v98 main_v100 (broadcastInDim S16x1024x1024 ![] bcast_S_S16x1024x1024 : (⟨S_, .f32⟩ : BufTy).Contents (Elt F) → (⟨S16x1024x1024, .f32⟩ : BufTy).Contents (Elt F)),
    binary main_v100 main_v99 main_v101 (mulf : (⟨S16x1024x1024, .f32⟩ : BufTy).Contents (Elt F) → (⟨S16x1024x1024, .f32⟩ : BufTy).Contents (Elt F) → (⟨S16x1024x1024, .f32⟩ : BufTy).Contents (Elt F)),
    binary main_v96 main_v101 main_v102 (addf : (⟨S16x1024x1024, .f32⟩ : BufTy).Contents (Elt F) → (⟨S16x1024x1024, .f32⟩ : BufTy).Contents (Elt F) → (⟨S16x1024x1024, .f32⟩ : BufTy).Contents (Elt F)),
    unary main_cst main_v103 ((extractStridedSlice S1 ![2] · slices_S5_S1_2) : (⟨S5, .f32⟩ : BufTy).Contents (Elt F) → (⟨S1, .f32⟩ : BufTy).Contents (Elt F)),
    reshape main_v103 main_v104 rfl shapeCasts_S1_S_,
    unary main_v91 main_v105 ((extractStridedSlice S16x1024x1024 ![0, 0, 4] · slices_S16x1024x1032_S16x1024x1024_0_0_4) : (⟨S16x1024x1032, .f32⟩ : BufTy).Contents (Elt F) → (⟨S16x1024x1024, .f32⟩ : BufTy).Contents (Elt F)),
    unary main_v104 main_v106 (broadcastInDim S16x1024x1024 ![] bcast_S_S16x1024x1024 : (⟨S_, .f32⟩ : BufTy).Contents (Elt F) → (⟨S16x1024x1024, .f32⟩ : BufTy).Contents (Elt F)),
    binary main_v106 main_v105 main_v107 (mulf : (⟨S16x1024x1024, .f32⟩ : BufTy).Contents (Elt F) → (⟨S16x1024x1024, .f32⟩ : BufTy).Contents (Elt F) → (⟨S16x1024x1024, .f32⟩ : BufTy).Contents (Elt F)),
    binary main_v102 main_v107 main_v108 (addf : (⟨S16x1024x1024, .f32⟩ : BufTy).Contents (Elt F) → (⟨S16x1024x1024, .f32⟩ : BufTy).Contents (Elt F) → (⟨S16x1024x1024, .f32⟩ : BufTy).Contents (Elt F)),
    unary main_cst main_v109 ((extractStridedSlice S1 ![3] · slices_S5_S1_3) : (⟨S5, .f32⟩ : BufTy).Contents (Elt F) → (⟨S1, .f32⟩ : BufTy).Contents (Elt F)),
    reshape main_v109 main_v110 rfl shapeCasts_S1_S_,
    unary main_v91 main_v111 ((extractStridedSlice S16x1024x1024 ![0, 0, 6] · slices_S16x1024x1032_S16x1024x1024_0_0_6) : (⟨S16x1024x1032, .f32⟩ : BufTy).Contents (Elt F) → (⟨S16x1024x1024, .f32⟩ : BufTy).Contents (Elt F)),
    unary main_v110 main_v112 (broadcastInDim S16x1024x1024 ![] bcast_S_S16x1024x1024 : (⟨S_, .f32⟩ : BufTy).Contents (Elt F) → (⟨S16x1024x1024, .f32⟩ : BufTy).Contents (Elt F)),
    binary main_v112 main_v111 main_v113 (mulf : (⟨S16x1024x1024, .f32⟩ : BufTy).Contents (Elt F) → (⟨S16x1024x1024, .f32⟩ : BufTy).Contents (Elt F) → (⟨S16x1024x1024, .f32⟩ : BufTy).Contents (Elt F)),
    binary main_v108 main_v113 main_v114 (addf : (⟨S16x1024x1024, .f32⟩ : BufTy).Contents (Elt F) → (⟨S16x1024x1024, .f32⟩ : BufTy).Contents (Elt F) → (⟨S16x1024x1024, .f32⟩ : BufTy).Contents (Elt F)) ]
/-- Group 9 from operation 149 of the program on. -/
abbrev seg9b : List (HloOp τ sig (Elt F)) :=
  [ unary main_cst main_v115 ((extractStridedSlice S1 ![4] · slices_S5_S1_4) : (⟨S5, .f32⟩ : BufTy).Contents (Elt F) → (⟨S1, .f32⟩ : BufTy).Contents (Elt F)),
    reshape main_v115 main_v116 rfl shapeCasts_S1_S_,
    unary main_v91 main_v117 ((extractStridedSlice S16x1024x1024 ![0, 0, 8] · slices_S16x1024x1032_S16x1024x1024_0_0_8) : (⟨S16x1024x1032, .f32⟩ : BufTy).Contents (Elt F) → (⟨S16x1024x1024, .f32⟩ : BufTy).Contents (Elt F)),
    unary main_v116 main_v118 (broadcastInDim S16x1024x1024 ![] bcast_S_S16x1024x1024 : (⟨S_, .f32⟩ : BufTy).Contents (Elt F) → (⟨S16x1024x1024, .f32⟩ : BufTy).Contents (Elt F)),
    binary main_v118 main_v117 main_v119 (mulf : (⟨S16x1024x1024, .f32⟩ : BufTy).Contents (Elt F) → (⟨S16x1024x1024, .f32⟩ : BufTy).Contents (Elt F) → (⟨S16x1024x1024, .f32⟩ : BufTy).Contents (Elt F)),
    binary main_v114 main_v119 main_v120 (addf : (⟨S16x1024x1024, .f32⟩ : BufTy).Contents (Elt F) → (⟨S16x1024x1024, .f32⟩ : BufTy).Contents (Elt F) → (⟨S16x1024x1024, .f32⟩ : BufTy).Contents (Elt F)),
    binary main_v59 main_v120 main_v121 (subf : (⟨S16x1024x1024, .f32⟩ : BufTy).Contents (Elt F) → (⟨S16x1024x1024, .f32⟩ : BufTy).Contents (Elt F) → (⟨S16x1024x1024, .f32⟩ : BufTy).Contents (Elt F)) ]
theorem seg9_split : (seg9 : List (HloOp τ sig (Elt F))) = seg9a ++ seg9b := rfl

/-- Group 13 up to operation 222 of the program, where one of the four parts the program is printed in ends. -/
abbrev seg13a : List (HloOp τ sig (Elt F)) :=
  [ unary main_cst main_v153 ((extractStridedSlice S1 ![0] · slices_S5_S1_0) : (⟨S5, .f32⟩ : BufTy).Contents (Elt F) → (⟨S1, .f32⟩ : BufTy).Contents (Elt F)),
    reshape main_v153 main_v154 rfl shapeCasts_S1_S_,
    unary main_v152 main_v155 ((extractStridedSlice S16x1024x1024 ![0, 0, 0] · slices_S16x1024x1040_S16x1024x1024_0_0_0) : (⟨S16x1024x1040, .f32⟩ : BufTy).Contents (Elt F) → (⟨S16x1024x1024, .f32⟩ : BufTy).Contents (Elt F)),
    unary main_v154 main_v156 (broadcastInDim S16x1024x1024 ![] bcast_S_S16x1024x1024 : (⟨S_, .f32⟩ : BufTy).Contents (Elt F) → (⟨S16x1024x1024, .f32⟩ : BufTy).Contents (Elt F)),
    binary main_v156 main_v155 main_v157 (mulf : (⟨S16x1024x1024, .f32⟩ : BufTy).Contents (Elt F) → (⟨S16x1024x1024, .f32⟩ : BufTy).Contents (Elt F) → (⟨S16x1024x1024, .f32⟩ : BufTy).Contents (Elt F)),
    unary main_cst main_v158 ((extractStridedSlice S1 ![1] · slices_S5_S1_1) : (⟨S5, .f32⟩ : BufTy).Contents (Elt F) → (⟨S1, .f32⟩ : BufTy).Contents (Elt F)),
    reshape main_v158 main_v159 rfl shapeCasts_S1_S_,
    unary main_v152 main_v160 ((extractStridedSlice S16x1024x1024 ![0, 0, 4] · slices_S16x1024x1040_S16x1024x1024_0_0_4) : (⟨S16x1024x1040, .f32⟩ : BufTy).Contents (Elt F) → (⟨S16x1024x1024, .f32⟩ : BufTy).Contents (Elt F)),
    unary main_v159 main_v161 (broadcastInDim S16x1024x1024 ![] bcast_S_S16x1024x1024 : (⟨S_, .f32⟩ : BufTy).Contents (Elt F) → (⟨S16x1024x1024, .f32⟩ : BufTy).Contents (Elt F)),
    binary main_v161 main_v160 main_v162 (mulf : (⟨S16x1024x1024, .f32⟩ : BufTy).Contents (Elt F) → (⟨S16x1024x1024, .f32⟩ : BufTy).Contents (Elt F) → (⟨S16x1024x1024, .f32⟩ : BufTy).Contents (Elt F)),
    binary main_v157 main_v162 main_v163 (addf : (⟨S16x1024x1024, .f32⟩ : BufTy).Contents (Elt F) → (⟨S16x1024x1024, .f32⟩ : BufTy).Contents (Elt F) → (⟨S16x1024x1024, .f32⟩ : BufTy).Contents (Elt F)),
    unary main_cst main_v164 ((extractStridedSlice S1 ![2] · slices_S5_S1_2) : (⟨S5, .f32⟩ : BufTy).Contents (Elt F) → (⟨S1, .f32⟩ : BufTy).Contents (Elt F)),
    reshape main_v164 main_v165 rfl shapeCasts_S1_S_,
    unary main_v152 main_v166 ((extractStridedSlice S16x1024x1024 ![0, 0, 8] · slices_S16x1024x1040_S16x1024x1024_0_0_8) : (⟨S16x1024x1040, .f32⟩ : BufTy).Contents (Elt F) → (⟨S16x1024x1024, .f32⟩ : BufTy).Contents (Elt F)),
    unary main_v165 main_v167 (broadcastInDim S16x1024x1024 ![] bcast_S_S16x1024x1024 : (⟨S_, .f32⟩ : BufTy).Contents (Elt F) → (⟨S16x1024x1024, .f32⟩ : BufTy).Contents (Elt F)),
    binary main_v167 main_v166 main_v168 (mulf : (⟨S16x1024x1024, .f32⟩ : BufTy).Contents (Elt F) → (⟨S16x1024x1024, .f32⟩ : BufTy).Contents (Elt F) → (⟨S16x1024x1024, .f32⟩ : BufTy).Contents (Elt F)),
    binary main_v163 main_v168 main_v169 (addf : (⟨S16x1024x1024, .f32⟩ : BufTy).Contents (Elt F) → (⟨S16x1024x1024, .f32⟩ : BufTy).Contents (Elt F) → (⟨S16x1024x1024, .f32⟩ : BufTy).Contents (Elt F)),
    unary main_cst main_v170 ((extractStridedSlice S1 ![3] · slices_S5_S1_3) : (⟨S5, .f32⟩ : BufTy).Contents (Elt F) → (⟨S1, .f32⟩ : BufTy).Contents (Elt F)),
    reshape main_v170 main_v171 rfl shapeCasts_S1_S_,
    unary main_v152 main_v172 ((extractStridedSlice S16x1024x1024 ![0, 0, 12] · slices_S16x1024x1040_S16x1024x1024_0_0_12) : (⟨S16x1024x1040, .f32⟩ : BufTy).Contents (Elt F) → (⟨S16x1024x1024, .f32⟩ : BufTy).Contents (Elt F)) ]
/-- Group 13 from operation 223 of the program on. -/
abbrev seg13b : List (HloOp τ sig (Elt F)) :=
  [ unary main_v171 main_v173 (broadcastInDim S16x1024x1024 ![] bcast_S_S16x1024x1024 : (⟨S_, .f32⟩ : BufTy).Contents (Elt F) → (⟨S16x1024x1024, .f32⟩ : BufTy).Contents (Elt F)),
    binary main_v173 main_v172 main_v174 (mulf : (⟨S16x1024x1024, .f32⟩ : BufTy).Contents (Elt F) → (⟨S16x1024x1024, .f32⟩ : BufTy).Contents (Elt F) → (⟨S16x1024x1024, .f32⟩ : BufTy).Contents (Elt F)),
    binary main_v169 main_v174 main_v175 (addf : (⟨S16x1024x1024, .f32⟩ : BufTy).Contents (Elt F) → (⟨S16x1024x1024, .f32⟩ : BufTy).Contents (Elt F) → (⟨S16x1024x1024, .f32⟩ : BufTy).Contents (Elt F)),
    unary main_cst main_v176 ((extractStridedSlice S1 ![4] · slices_S5_S1_4) : (⟨S5, .f32⟩ : BufTy).Contents (Elt F) → (⟨S1, .f32⟩ : BufTy).Contents (Elt F)),
    reshape main_v176 main_v177 rfl shapeCasts_S1_S_,
    unary main_v152 main_v178 ((extractStridedSlice S16x1024x1024 ![0, 0, 16] · slices_S16x1024x1040_S16x1024x1024_0_0_16) : (⟨S16x1024x1040, .f32⟩ : BufTy).Contents (Elt F) → (⟨S16x1024x1024, .f32⟩ : BufTy).Contents (Elt F)),
    unary main_v177 main_v179 (broadcastInDim S16x1024x1024 ![] bcast_S_S16x1024x1024 : (⟨S_, .f32⟩ : BufTy).Contents (Elt F) → (⟨S16x1024x1024, .f32⟩ : BufTy).Contents (Elt F)),
    binary main_v179 main_v178 main_v180 (mulf : (⟨S16x1024x1024, .f32⟩ : BufTy).Contents (Elt F) → (⟨S16x1024x1024, .f32⟩ : BufTy).Contents (Elt F) → (⟨S16x1024x1024, .f32⟩ : BufTy).Contents (Elt F)),
    binary main_v175 main_v180 main_v181 (addf : (⟨S16x1024x1024, .f32⟩ : BufTy).Contents (Elt F) → (⟨S16x1024x1024, .f32⟩ : BufTy).Contents (Elt F) → (⟨S16x1024x1024, .f32⟩ : BufTy).Contents (Elt F)),
    binary main_v120 main_v181 main_v182 (subf : (⟨S16x1024x1024, .f32⟩ : BufTy).Contents (Elt F) → (⟨S16x1024x1024, .f32⟩ : BufTy).Contents (Elt F) → (⟨S16x1024x1024, .f32⟩ : BufTy).Contents (Elt F)) ]
theorem seg13_split : (seg13 : List (HloOp τ sig (Elt F))) = seg13a ++ seg13b := rfl

/-- The operations of part 0 of the printed program. -/
abbrev part0 : List (HloOp τ sig (Elt F)) := seg1 ++ (seg2 ++ (seg3 ++ (seg4 ++ (seg5a))))
set_option maxRecDepth 8192 in
set_option maxHeartbeats 4000000 in
theorem main_part0_eq (c : Dev nD) : main_part0 (F := F) c = seq part0 := rfl
/-- The operations of part 1 of the printed program. -/
abbrev part1 : List (HloOp τ sig (Elt F)) := seg5b ++ (seg6 ++ (seg7 ++ (seg8 ++ (seg9a))))
set_option maxRecDepth 8192 in
set_option maxHeartbeats 4000000 in
theorem main_part1_eq (c : Dev nD) : main_part1 (F := F) c = seq part1 := rfl
/-- The operations of part 2 of the printed program. -/
abbrev part2 : List (HloOp τ sig (Elt F)) := seg9b ++ (seg10 ++ (seg11 ++ (seg12 ++ (seg13a))))
set_option maxRecDepth 8192 in
set_option maxHeartbeats 4000000 in
theorem main_part2_eq (c : Dev nD) : main_part2 (F := F) c = seq part2 := rfl
/-- The operations of part 3 of the printed program. -/
abbrev part3 : List (HloOp τ sig (Elt F)) := seg13b ++ (seg14)
set_option maxRecDepth 8192 in
set_option maxHeartbeats 4000000 in
theorem main_part3_eq (c : Dev nD) : main_part3 (F := F) c = seq part3 := rfl

/-- The whole list, regrouped as the four parts. -/
theorem ops_parts : (ops : List (HloOp τ sig (Elt F))) = part0 ++ (part1 ++ (part2 ++ part3)) := by
  simp only [ops, part0, part1, part2, part3, seg5_split, seg9_split, seg13_split, List.append_assoc]

/-- The program is its operations run in order. -/
theorem main_eq (c : Dev nD) : main (F := F) c = seq ops := by
  rw [ops_parts, seq_append part0, seq_append part1, seq_append part2, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h, List.forall_iff_forall_mem.mp seg10_sub op h, List.forall_iff_forall_mem.mp seg11_sub op h, List.forall_iff_forall_mem.mp seg12_sub op h, List.forall_iff_forall_mem.mp seg13_sub op h, List.forall_iff_forall_mem.mp seg14_sub op h]

theorem ops_fresh : ∀ op ∈ (ops : List (HloOp τ sig (Elt F))), op.fresh = ∅ := fun op h => by
    simp only [ops, List.mem_append] at h
    rcases h with h | h | h | h | h | h | h | h | h | h | h | h | h | h
    exacts [seg1_fresh op h, seg2_fresh op h, seg3_fresh op h, seg4_fresh op h, seg5_fresh op h, seg6_fresh op h, seg7_fresh op h, seg8_fresh op h, seg9_fresh op h, seg10_fresh op h, seg11_fresh op h, seg12_fresh op h, seg13_fresh op h, seg14_fresh op h]

/-! ## The buffers' contents, group by group -/

/-- The buffers' contents before the first operation. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl

/-- The buffers' contents after the first 1 group of operations. -/
def val1 (V0 : Valuation τ sig (Elt F)) : Valuation τ sig (Elt F) := after seg1 (val0 V0)
/-- The buffers that group 1's operations write. -/
abbrev seg1_W : List (Ref sig .tc) := [main_cst]
theorem seg1_writes : (seg1 : List (HloOp τ sig (Elt F))).Forall fun op => op.writes ⊆ (seg1_W.map (Proc.devRef (τ := τ) .tc)).toFinset :=
  show ({Proc.devRef .tc main_cst} : Finset (DevRef τ sig)) ⊆ _ from
    Finset.singleton_subset_iff.mpr (List.mem_toFinset.mpr (List.mem_map_of_mem (by decide)))
/-- A buffer that group 1 does not write keeps its contents through it. -/
theorem val1_keep (V0 : Valuation τ sig (Elt F)) (r : Ref sig .tc) (h : r ∉ seg1_W) :
    val1 V0 (Proc.devRef .tc r) = val0 V0 (Proc.devRef .tc r) :=
  after_of_writes_sub seg1 _ seg1_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_cst (V0 : Valuation τ sig (Elt F)) : val1 V0 (no_index (Proc.devRef .tc main_cst)) = Stages.cst := by
  unfold val1 Stages.cst; rfl

/-- The buffers' contents after the first 2 groups of operations. -/
def val2 (V0 : Valuation τ sig (Elt F)) : Valuation τ sig (Elt F) := after seg2 (val1 V0)
/-- The buffers that group 2's operations write. -/
abbrev seg2_W : List (Ref sig .tc) := [main_c, main_call0_v0, main_call0_v1, main_call0_v2, main_call0_v3, main_call0_v4, main_call0_v5, main_call0_v6, main_v0]
set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 2 does not write keeps its contents through it. -/
theorem val2_keep (V0 : Valuation τ sig (Elt F)) (r : Ref sig .tc) (h : r ∉ seg2_W) :
    val2 V0 (Proc.devRef .tc r) = val1 V0 (Proc.devRef .tc r) :=
  after_of_writes_sub seg2 _ seg2_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_cst (V0 : Valuation τ sig (Elt F)) : val2 V0 (no_index (Proc.devRef .tc main_cst)) = Stages.cst :=
  (val2_keep V0 main_cst (by decide)).trans (val1_main_cst V0)
set_option maxRecDepth 8192 in
set_option maxHeartbeats 900000 in
theorem val2_main_v0 (V0 : Valuation τ sig (Elt F)) : val2 V0 (no_index (Proc.devRef .tc main_v0)) = Stages.padRows1 (V0 (Proc.devRef .tc main_arg0)) := by
  unfold val2
  simp only [seg2]
  after_results
  rw [val1_main_arg0]
  rfl

/-- The buffers' contents after the first 3 groups of operations. -/
def val3 (V0 : Valuation τ sig (Elt F)) : Valuation τ sig (Elt F) := after seg3 (val2 V0)
/-- The buffers that group 3's operations write. -/
abbrev seg3_W : List (Ref sig .tc) := [main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]
set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 3 does not write keeps its contents through it. -/
theorem val3_keep (V0 : Valuation τ sig (Elt F)) (r : Ref sig .tc) (h : r ∉ seg3_W) :
    val3 V0 (Proc.devRef .tc r) = val2 V0 (Proc.devRef .tc r) :=
  after_of_writes_sub seg3 _ seg3_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_cst (V0 : Valuation τ sig (Elt F)) : val3 V0 (no_index (Proc.devRef .tc main_cst)) = Stages.cst :=
  (val3_keep V0 main_cst (by decide)).trans (val2_main_cst V0)
set_option maxRecDepth 8192 in
set_option maxHeartbeats 2000000 in
theorem val3_main_v29 (V0 : Valuation τ sig (Elt F)) : val3 V0 (no_index (Proc.devRef .tc main_v29)) = Stages.convRows1 (V0 (Proc.devRef .tc main_arg0)) := by
  unfold val3
  simp only [seg3]
  after_results_simp
  simp only [val2_main_v0, val2_main_cst] <;> rfl

/-- The buffers' contents after the first 4 groups of operations. -/
def val4 (V0 : Valuation τ sig (Elt F)) : Valuation τ sig (Elt F) := after seg4 (val3 V0)
/-- The buffers that group 4's operations write. -/
abbrev seg4_W : List (Ref sig .tc) := [main_c_0, main_call1_v0, main_call1_v1, main_call1_v2, main_call1_v3, main_call1_v4, main_call1_v5, main_call1_v6, main_v30]
set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 4 does not write keeps its contents through it. -/
theorem val4_keep (V0 : Valuation τ sig (Elt F)) (r : Ref sig .tc) (h : r ∉ seg4_W) :
    val4 V0 (Proc.devRef .tc r) = val3 V0 (Proc.devRef .tc r) :=
  after_of_writes_sub seg4 _ seg4_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_cst (V0 : Valuation τ sig (Elt F)) : val4 V0 (no_index (Proc.devRef .tc main_cst)) = Stages.cst :=
  (val4_keep V0 main_cst (by decide)).trans (val3_main_cst V0)
set_option maxRecDepth 8192 in
set_option maxHeartbeats 900000 in
theorem val4_main_v30 (V0 : Valuation τ sig (Elt F)) : val4 V0 (no_index (Proc.devRef .tc main_v30)) = Stages.padCols1 (Stages.convRows1 (V0 (Proc.devRef .tc main_arg0))) := by
  unfold val4
  simp only [seg4]
  after_results
  rw [val3_main_v29]
  rfl

/-- The buffers' contents after the first 5 groups of operations. -/
def val5 (V0 : Valuation τ sig (Elt F)) : Valuation τ sig (Elt F) := after seg5 (val4 V0)
/-- The buffers that group 5's operations write. -/
abbrev seg5_W : List (Ref sig .tc) := [main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60]
set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 5 does not write keeps its contents through it. -/
theorem val5_keep (V0 : Valuation τ sig (Elt F)) (r : Ref sig .tc) (h : r ∉ seg5_W) :
    val5 V0 (Proc.devRef .tc r) = val4 V0 (Proc.devRef .tc r) :=
  after_of_writes_sub seg5 _ seg5_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_cst (V0 : Valuation τ sig (Elt F)) : val5 V0 (no_index (Proc.devRef .tc main_cst)) = Stages.cst :=
  (val5_keep V0 main_cst (by decide)).trans (val4_main_cst V0)
set_option maxRecDepth 8192 in
set_option maxHeartbeats 2000000 in
theorem val5_main_v59 (V0 : Valuation τ sig (Elt F)) : val5 V0 (no_index (Proc.devRef .tc main_v59)) = Stages.y1 (V0 (Proc.devRef .tc main_arg0)) := by
  unfold val5
  simp only [seg5]
  after_results_simp
  simp only [val4_main_v30, val4_main_cst] <;> rfl
set_option maxRecDepth 8192 in
set_option maxHeartbeats 2000000 in
theorem val5_main_v60 (V0 : Valuation τ sig (Elt F)) : val5 V0 (no_index (Proc.devRef .tc main_v60)) = subf (V0 (Proc.devRef .tc main_arg0)) (Stages.y1 (V0 (Proc.devRef .tc main_arg0))) := by
  unfold val5
  simp only [seg5]
  after_results_simp
  simp only [val4_main_v30, val4_main_cst, val4_main_arg0] <;> rfl

/-- The buffers' contents after the first 6 groups of operations. -/
def val6 (V0 : Valuation τ sig (Elt F)) : Valuation τ sig (Elt F) := after seg6 (val5 V0)
/-- The buffers that group 6's operations write. -/
abbrev seg6_W : List (Ref sig .tc) := [main_c_1, main_call2_v0, main_call2_v1, main_call2_v2, main_call2_v3, main_call2_v4, main_call2_v5, main_call2_v6, main_v61]
set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 6 does not write keeps its contents through it. -/
theorem val6_keep (V0 : Valuation τ sig (Elt F)) (r : Ref sig .tc) (h : r ∉ seg6_W) :
    val6 V0 (Proc.devRef .tc r) = val5 V0 (Proc.devRef .tc r) :=
  after_of_writes_sub seg6 _ seg6_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_cst (V0 : Valuation τ sig (Elt F)) : val6 V0 (no_index (Proc.devRef .tc main_cst)) = Stages.cst :=
  (val6_keep V0 main_cst (by decide)).trans (val5_main_cst V0)
theorem val6_main_v59 (V0 : Valuation τ sig (Elt F)) : val6 V0 (no_index (Proc.devRef .tc main_v59)) = Stages.y1 (V0 (Proc.devRef .tc main_arg0)) :=
  (val6_keep V0 main_v59 (by decide)).trans (val5_main_v59 V0)
theorem val6_main_v60 (V0 : Valuation τ sig (Elt F)) : val6 V0 (no_index (Proc.devRef .tc main_v60)) = subf (V0 (Proc.devRef .tc main_arg0)) (Stages.y1 (V0 (Proc.devRef .tc main_arg0))) :=
  (val6_keep V0 main_v60 (by decide)).trans (val5_main_v60 V0)
set_option maxRecDepth 8192 in
set_option maxHeartbeats 900000 in
theorem val6_main_v61 (V0 : Valuation τ sig (Elt F)) : val6 V0 (no_index (Proc.devRef .tc main_v61)) = Stages.padRows2 (Stages.y1 (V0 (Proc.devRef .tc main_arg0))) := by
  unfold val6
  simp only [seg6]
  after_results
  rw [val5_main_v59]
  rfl

/-- The buffers' contents after the first 7 groups of operations. -/
def val7 (V0 : Valuation τ sig (Elt F)) : Valuation τ sig (Elt F) := after seg7 (val6 V0)
/-- The buffers that group 7's operations write. -/
abbrev seg7_W : List (Ref sig .tc) := [main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90]
set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 7 does not write keeps its contents through it. -/
theorem val7_keep (V0 : Valuation τ sig (Elt F)) (r : Ref sig .tc) (h : r ∉ seg7_W) :
    val7 V0 (Proc.devRef .tc r) = val6 V0 (Proc.devRef .tc r) :=
  after_of_writes_sub seg7 _ seg7_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_cst (V0 : Valuation τ sig (Elt F)) : val7 V0 (no_index (Proc.devRef .tc main_cst)) = Stages.cst :=
  (val7_keep V0 main_cst (by decide)).trans (val6_main_cst V0)
theorem val7_main_v59 (V0 : Valuation τ sig (Elt F)) : val7 V0 (no_index (Proc.devRef .tc main_v59)) = Stages.y1 (V0 (Proc.devRef .tc main_arg0)) :=
  (val7_keep V0 main_v59 (by decide)).trans (val6_main_v59 V0)
theorem val7_main_v60 (V0 : Valuation τ sig (Elt F)) : val7 V0 (no_index (Proc.devRef .tc main_v60)) = subf (V0 (Proc.devRef .tc main_arg0)) (Stages.y1 (V0 (Proc.devRef .tc main_arg0))) :=
  (val7_keep V0 main_v60 (by decide)).trans (val6_main_v60 V0)
set_option maxRecDepth 8192 in
set_option maxHeartbeats 2000000 in
theorem val7_main_v90 (V0 : Valuation τ sig (Elt F)) : val7 V0 (no_index (Proc.devRef .tc main_v90)) = Stages.convRows2 (Stages.y1 (V0 (Proc.devRef .tc main_arg0))) := by
  unfold val7
  simp only [seg7]
  after_results_simp
  simp only [val6_main_v61, val6_main_cst] <;> rfl

/-- The buffers' contents after the first 8 groups of operations. -/
def val8 (V0 : Valuation τ sig (Elt F)) : Valuation τ sig (Elt F) := after seg8 (val7 V0)
/-- The buffers that group 8's operations write. -/
abbrev seg8_W : List (Ref sig .tc) := [main_c_2, main_call3_v0, main_call3_v1, main_call3_v2, main_call3_v3, main_call3_v4, main_call3_v5, main_call3_v6, main_v91]
set_option maxRecDepth 8192 in
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 8 does not write keeps its contents through it. -/
theorem val8_keep (V0 : Valuation τ sig (Elt F)) (r : Ref sig .tc) (h : r ∉ seg8_W) :
    val8 V0 (Proc.devRef .tc r) = val7 V0 (Proc.devRef .tc r) :=
  after_of_writes_sub seg8 _ seg8_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_cst (V0 : Valuation τ sig (Elt F)) : val8 V0 (no_index (Proc.devRef .tc main_cst)) = Stages.cst :=
  (val8_keep V0 main_cst (by decide)).trans (val7_main_cst V0)
theorem val8_main_v59 (V0 : Valuation τ sig (Elt F)) : val8 V0 (no_index (Proc.devRef .tc main_v59)) = Stages.y1 (V0 (Proc.devRef .tc main_arg0)) :=
  (val8_keep V0 main_v59 (by decide)).trans (val7_main_v59 V0)
theorem val8_main_v60 (V0 : Valuation τ sig (Elt F)) : val8 V0 (no_index (Proc.devRef .tc main_v60)) = subf (V0 (Proc.devRef .tc main_arg0)) (Stages.y1 (V0 (Proc.devRef .tc main_arg0))) :=
  (val8_keep V0 main_v60 (by decide)).trans (val7_main_v60 V0)
set_option maxRecDepth 8192 in
set_option maxHeartbeats 900000 in
theorem val8_main_v91 (V0 : Valuation τ sig (Elt F)) : val8 V0 (no_index (Proc.devRef .tc main_v91)) = Stages.padCols2 (Stages.convRows2 (Stages.y1 (V0 (Proc.devRef .tc main_arg0)))) := by
  unfold val8
  simp only [seg8]
  after_results
  rw [val7_main_v90]
  rfl

/-- The buffers' contents after the first 9 groups of operations. -/
def val9 (V0 : Valuation τ sig (Elt F)) : Valuation τ sig (Elt F) := after seg9 (val8 V0)
/-- The buffers that group 9's operations write. -/
abbrev seg9_W : List (Ref sig .tc) := [main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121]
set_option maxRecDepth 8192 in
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 9 does not write keeps its contents through it. -/
theorem val9_keep (V0 : Valuation τ sig (Elt F)) (r : Ref sig .tc) (h : r ∉ seg9_W) :
    val9 V0 (Proc.devRef .tc r) = val8 V0 (Proc.devRef .tc r) :=
  after_of_writes_sub seg9 _ seg9_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_cst (V0 : Valuation τ sig (Elt F)) : val9 V0 (no_index (Proc.devRef .tc main_cst)) = Stages.cst :=
  (val9_keep V0 main_cst (by decide)).trans (val8_main_cst V0)
theorem val9_main_v60 (V0 : Valuation τ sig (Elt F)) : val9 V0 (no_index (Proc.devRef .tc main_v60)) = subf (V0 (Proc.devRef .tc main_arg0)) (Stages.y1 (V0 (Proc.devRef .tc main_arg0))) :=
  (val9_keep V0 main_v60 (by decide)).trans (val8_main_v60 V0)
set_option maxRecDepth 8192 in
set_option maxHeartbeats 2000000 in
theorem val9_main_v120 (V0 : Valuation τ sig (Elt F)) : val9 V0 (no_index (Proc.devRef .tc main_v120)) = Stages.y2 (V0 (Proc.devRef .tc main_arg0)) := by
  unfold val9
  simp only [seg9]
  after_results_simp
  simp only [val8_main_v91, val8_main_cst] <;> rfl
set_option maxRecDepth 8192 in
set_option maxHeartbeats 2000000 in
theorem val9_main_v121 (V0 : Valuation τ sig (Elt F)) : val9 V0 (no_index (Proc.devRef .tc main_v121)) = subf (Stages.y1 (V0 (Proc.devRef .tc main_arg0))) (Stages.y2 (V0 (Proc.devRef .tc main_arg0))) := by
  unfold val9
  simp only [seg9]
  after_results_simp
  simp only [val8_main_v91, val8_main_cst, val8_main_v59] <;> rfl

/-- The buffers' contents after the first 10 groups of operations. -/
def val10 (V0 : Valuation τ sig (Elt F)) : Valuation τ sig (Elt F) := after seg10 (val9 V0)
/-- The buffers that group 10's operations write. -/
abbrev seg10_W : List (Ref sig .tc) := [main_c_3, main_call4_v0, main_call4_v1, main_call4_v2, main_call4_v3, main_call4_v4, main_call4_v5, main_call4_v6, main_v122]
set_option maxRecDepth 8192 in
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 10 does not write keeps its contents through it. -/
theorem val10_keep (V0 : Valuation τ sig (Elt F)) (r : Ref sig .tc) (h : r ∉ seg10_W) :
    val10 V0 (Proc.devRef .tc r) = val9 V0 (Proc.devRef .tc r) :=
  after_of_writes_sub seg10 _ seg10_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_cst (V0 : Valuation τ sig (Elt F)) : val10 V0 (no_index (Proc.devRef .tc main_cst)) = Stages.cst :=
  (val10_keep V0 main_cst (by decide)).trans (val9_main_cst V0)
theorem val10_main_v60 (V0 : Valuation τ sig (Elt F)) : val10 V0 (no_index (Proc.devRef .tc main_v60)) = subf (V0 (Proc.devRef .tc main_arg0)) (Stages.y1 (V0 (Proc.devRef .tc main_arg0))) :=
  (val10_keep V0 main_v60 (by decide)).trans (val9_main_v60 V0)
theorem val10_main_v120 (V0 : Valuation τ sig (Elt F)) : val10 V0 (no_index (Proc.devRef .tc main_v120)) = Stages.y2 (V0 (Proc.devRef .tc main_arg0)) :=
  (val10_keep V0 main_v120 (by decide)).trans (val9_main_v120 V0)
theorem val10_main_v121 (V0 : Valuation τ sig (Elt F)) : val10 V0 (no_index (Proc.devRef .tc main_v121)) = subf (Stages.y1 (V0 (Proc.devRef .tc main_arg0))) (Stages.y2 (V0 (Proc.devRef .tc main_arg0))) :=
  (val10_keep V0 main_v121 (by decide)).trans (val9_main_v121 V0)
set_option maxRecDepth 8192 in
set_option maxHeartbeats 900000 in
theorem val10_main_v122 (V0 : Valuation τ sig (Elt F)) : val10 V0 (no_index (Proc.devRef .tc main_v122)) = Stages.padRows4 (Stages.y2 (V0 (Proc.devRef .tc main_arg0))) := by
  unfold val10
  simp only [seg10]
  after_results
  rw [val9_main_v120]
  rfl

/-- The buffers' contents after the first 11 groups of operations. -/
def val11 (V0 : Valuation τ sig (Elt F)) : Valuation τ sig (Elt F) := after seg11 (val10 V0)
/-- The buffers that group 11's operations write. -/
abbrev seg11_W : List (Ref sig .tc) := [main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151]
set_option maxRecDepth 8192 in
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 11 does not write keeps its contents through it. -/
theorem val11_keep (V0 : Valuation τ sig (Elt F)) (r : Ref sig .tc) (h : r ∉ seg11_W) :
    val11 V0 (Proc.devRef .tc r) = val10 V0 (Proc.devRef .tc r) :=
  after_of_writes_sub seg11 _ seg11_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_cst (V0 : Valuation τ sig (Elt F)) : val11 V0 (no_index (Proc.devRef .tc main_cst)) = Stages.cst :=
  (val11_keep V0 main_cst (by decide)).trans (val10_main_cst V0)
theorem val11_main_v60 (V0 : Valuation τ sig (Elt F)) : val11 V0 (no_index (Proc.devRef .tc main_v60)) = subf (V0 (Proc.devRef .tc main_arg0)) (Stages.y1 (V0 (Proc.devRef .tc main_arg0))) :=
  (val11_keep V0 main_v60 (by decide)).trans (val10_main_v60 V0)
theorem val11_main_v120 (V0 : Valuation τ sig (Elt F)) : val11 V0 (no_index (Proc.devRef .tc main_v120)) = Stages.y2 (V0 (Proc.devRef .tc main_arg0)) :=
  (val11_keep V0 main_v120 (by decide)).trans (val10_main_v120 V0)
theorem val11_main_v121 (V0 : Valuation τ sig (Elt F)) : val11 V0 (no_index (Proc.devRef .tc main_v121)) = subf (Stages.y1 (V0 (Proc.devRef .tc main_arg0))) (Stages.y2 (V0 (Proc.devRef .tc main_arg0))) :=
  (val11_keep V0 main_v121 (by decide)).trans (val10_main_v121 V0)
set_option maxRecDepth 8192 in
set_option maxHeartbeats 2000000 in
theorem val11_main_v151 (V0 : Valuation τ sig (Elt F)) : val11 V0 (no_index (Proc.devRef .tc main_v151)) = Stages.convRows4 (Stages.y2 (V0 (Proc.devRef .tc main_arg0))) := by
  unfold val11
  simp only [seg11]
  after_results_simp
  simp only [val10_main_v122, val10_main_cst] <;> rfl

/-- The buffers' contents after the first 12 groups of operations. -/
def val12 (V0 : Valuation τ sig (Elt F)) : Valuation τ sig (Elt F) := after seg12 (val11 V0)
/-- The buffers that group 12's operations write. -/
abbrev seg12_W : List (Ref sig .tc) := [main_c_4, main_call5_v0, main_call5_v1, main_call5_v2, main_call5_v3, main_call5_v4, main_call5_v5, main_call5_v6, main_v152]
set_option maxRecDepth 8192 in
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 12 does not write keeps its contents through it. -/
theorem val12_keep (V0 : Valuation τ sig (Elt F)) (r : Ref sig .tc) (h : r ∉ seg12_W) :
    val12 V0 (Proc.devRef .tc r) = val11 V0 (Proc.devRef .tc r) :=
  after_of_writes_sub seg12 _ seg12_writes h
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_cst (V0 : Valuation τ sig (Elt F)) : val12 V0 (no_index (Proc.devRef .tc main_cst)) = Stages.cst :=
  (val12_keep V0 main_cst (by decide)).trans (val11_main_cst V0)
theorem val12_main_v60 (V0 : Valuation τ sig (Elt F)) : val12 V0 (no_index (Proc.devRef .tc main_v60)) = subf (V0 (Proc.devRef .tc main_arg0)) (Stages.y1 (V0 (Proc.devRef .tc main_arg0))) :=
  (val12_keep V0 main_v60 (by decide)).trans (val11_main_v60 V0)
theorem val12_main_v120 (V0 : Valuation τ sig (Elt F)) : val12 V0 (no_index (Proc.devRef .tc main_v120)) = Stages.y2 (V0 (Proc.devRef .tc main_arg0)) :=
  (val12_keep V0 main_v120 (by decide)).trans (val11_main_v120 V0)
theorem val12_main_v121 (V0 : Valuation τ sig (Elt F)) : val12 V0 (no_index (Proc.devRef .tc main_v121)) = subf (Stages.y1 (V0 (Proc.devRef .tc main_arg0))) (Stages.y2 (V0 (Proc.devRef .tc main_arg0))) :=
  (val12_keep V0 main_v121 (by decide)).trans (val11_main_v121 V0)
set_option maxRecDepth 8192 in
set_option maxHeartbeats 900000 in
theorem val12_main_v152 (V0 : Valuation τ sig (Elt F)) : val12 V0 (no_index (Proc.devRef .tc main_v152)) = Stages.padCols4 (Stages.convRows4 (Stages.y2 (V0 (Proc.devRef .tc main_arg0)))) := by
  unfold val12
  simp only [seg12]
  after_results
  rw [val11_main_v151]
  rfl

/-- The buffers' contents after the first 13 groups of operations. -/
def val13 (V0 : Valuation τ sig (Elt F)) : Valuation τ sig (Elt F) := after seg13 (val12 V0)
/-- The buffers that group 13's operations write. -/
abbrev seg13_W : List (Ref sig .tc) := [main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182]
set_option maxRecDepth 8192 in
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 13 does not write keeps its contents through it. -/
theorem val13_keep (V0 : Valuation τ sig (Elt F)) (r : Ref sig .tc) (h : r ∉ seg13_W) :
    val13 V0 (Proc.devRef .tc r) = val12 V0 (Proc.devRef .tc r) :=
  after_of_writes_sub seg13 _ seg13_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_v60 (V0 : Valuation τ sig (Elt F)) : val13 V0 (no_index (Proc.devRef .tc main_v60)) = subf (V0 (Proc.devRef .tc main_arg0)) (Stages.y1 (V0 (Proc.devRef .tc main_arg0))) :=
  (val13_keep V0 main_v60 (by decide)).trans (val12_main_v60 V0)
theorem val13_main_v121 (V0 : Valuation τ sig (Elt F)) : val13 V0 (no_index (Proc.devRef .tc main_v121)) = subf (Stages.y1 (V0 (Proc.devRef .tc main_arg0))) (Stages.y2 (V0 (Proc.devRef .tc main_arg0))) :=
  (val13_keep V0 main_v121 (by decide)).trans (val12_main_v121 V0)
set_option maxRecDepth 8192 in
set_option maxHeartbeats 2000000 in
theorem val13_main_v181 (V0 : Valuation τ sig (Elt F)) : val13 V0 (no_index (Proc.devRef .tc main_v181)) = Stages.y3 (V0 (Proc.devRef .tc main_arg0)) := by
  unfold val13
  simp only [seg13]
  after_results_simp
  simp only [val12_main_v152, val12_main_cst] <;> rfl
set_option maxRecDepth 8192 in
set_option maxHeartbeats 2000000 in
theorem val13_main_v182 (V0 : Valuation τ sig (Elt F)) : val13 V0 (no_index (Proc.devRef .tc main_v182)) = subf (Stages.y2 (V0 (Proc.devRef .tc main_arg0))) (Stages.y3 (V0 (Proc.devRef .tc main_arg0))) := by
  unfold val13
  simp only [seg13]
  after_results_simp
  simp only [val12_main_v152, val12_main_cst, val12_main_v120] <;> rfl

/-- The buffers' contents after the first 14 groups of operations. -/
def val14 (V0 : Valuation τ sig (Elt F)) : Valuation τ sig (Elt F) := after seg14 (val13 V0)
/-- The buffers that group 14's operations write. -/
abbrev seg14_W : List (Ref sig .tc) := [main_v183, main_v184, main_v185, main_v186, main_v187]
set_option maxRecDepth 8192 in
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that group 14 does not write keeps its contents through it. -/
theorem val14_keep (V0 : Valuation τ sig (Elt F)) (r : Ref sig .tc) (h : r ∉ seg14_W) :
    val14 V0 (Proc.devRef .tc r) = val13 V0 (Proc.devRef .tc r) :=
  after_of_writes_sub seg14 _ seg14_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
set_option maxRecDepth 8192 in
set_option maxHeartbeats 500000 in
theorem val14_main_v187 (V0 : Valuation τ sig (Elt F)) : val14 V0 (no_index (Proc.devRef .tc main_v187)) = Stages.out (V0 (Proc.devRef .tc main_arg0)) := by
  unfold val14
  simp only [seg14]
  after_results
  dsimp only [Matrix.cons_val]
  repeat (first
    | rw [unary_result]
    | (rw [unary_result_ne]; rotate_left; decide))
  rw [val13_main_v181, val13_main_v182, val13_main_v121, val13_main_v60]
  rfl

/-- The contents after the whole list are the contents after the last group. -/
theorem after_ops (V0 : Valuation τ sig (Elt F)) : after ops V0 = val14 V0 := by
  simp only [ops, after_append]
  rfl

/-- On every device, for any float values, from any memory with zero counters: every weakly fair execution of the program
    terminates with the result buffer at `Stages.out` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v187) = Stages.out (m ((c.tc : Thread nD τ).loc main_arg0))
      ∧ r.2.mem ((c.tc : Thread nD τ).loc main_arg0) = m ((c.tc : Thread nD τ).loc main_arg0) :=
  (θ_run defs _ _).mono (fun _ h c => ⟨(h c main_v187).trans (by show after ops (launchContents m c) _ = _; rw [after_ops]; exact val14_main_v187 _),
      (h c main_arg0).trans (by show after ops (launchContents m c) _ = _; rw [after_ops]; exact val14_main_arg0 _)⟩)
    (run_seq scopedRefs_eq scopedSems_eq defs main (fun _ => ops) main_eq (fun _ => ops_sub) m ρ (fun _ => ops_fresh))

end Cert.ReferenceIdeal.RefRun

end
-- ==== Proof.lean ====
/-
  Both programs compute the three-level B3-spline decomposition `Cert.Wavelet.result` of the argument array: the
  kernel's four branches leave, image by image, the three differences and the last smooth image (`KRun.run`), and
  the reference's pads, slices and weighted sums unfold to the same five-tap averages (`RefRun.run`, `RefValue.out_eq`),
  the five products added from the left on both sides. Each program leaves its argument unchanged.
-/
import proofs.«159894_j34797825032657_2_alg».proof.Defs
import proofs.«159894_j34797825032657_2_alg».proof.Proof.Gen.Kernel
import proofs.«159894_j34797825032657_2_alg».proof.Proof.Gen.Kernel.Skeleton
import proofs.«159894_j34797825032657_2_alg».proof.Proof.Gen.Kernel.Launch
import proofs.«159894_j34797825032657_2_alg».proof.Proof.Gen.Kernel.Points
import proofs.«159894_j34797825032657_2_alg».proof.Proof.Gen.Kernel.Frame
import proofs.«159894_j34797825032657_2_alg».proof.Proof.Gen.KernelIdeal
import proofs.«159894_j34797825032657_2_alg».proof.Proof.Gen.KernelIdeal.Skeleton
import proofs.«159894_j34797825032657_2_alg».proof.Proof.Gen.KernelIdeal.Launch
import proofs.«159894_j34797825032657_2_alg».proof.Proof.Gen.KernelIdeal.Points
import proofs.«159894_j34797825032657_2_alg».proof.Proof.Gen.KernelIdeal.Frame
import proofs.«159894_j34797825032657_2_alg».proof.Proof.Gen.ReferenceIdeal
import proofs.«159894_j34797825032657_2_alg».proof.Proof.Gen.Pre_finite_inputs
import proofs.«159894_j34797825032657_2_alg».proof.Proof.PieceAStmt
import proofs.«159894_j34797825032657_2_alg».proof.Proof.PieceB
import proofs.«159894_j34797825032657_2_alg».proof.Proof.PieceC
import proofs.«159894_j34797825032657_2_alg».proof.Proof.PieceD
import proofs.«159894_j34797825032657_2_alg».proof.Proof.KernelRun
import proofs.«159894_j34797825032657_2_alg».proof.Proof.RefValue
import proofs.«159894_j34797825032657_2_alg».proof.Proof.RefRun
import Idealize.ShloMosaic.Adequacy
import Idealize.ShloMosaic.Init

noncomputable section

namespace Cert.Proof

open Idealize.ShloMosaic Idealize.SL.Sem Cert.Kernel

/-- The kernel runs and leaves its argument unchanged. -/
theorem frameKernel : Cert.frame_Kernel := fun m ρ _ => Cert.Kernel.Gen.frame m ρ

/-- So does the kernel read over the extended reals. -/
theorem frameKernelIdeal : Cert.frame_KernelIdeal := fun m ρ _ => Cert.KernelIdeal.Gen.frame m ρ

/-- So does the reference. -/
theorem frameReferenceIdeal : Cert.frame_ReferenceIdeal := fun m ρ _ =>
  (θ_run Cert.ReferenceIdeal.defs _ _).mono (fun _ h c => (h c).2) (Cert.ReferenceIdeal.RefRun.run (F := Ideal) m ρ)

/-- Over the extended reals, from memories that agree on the argument, the kernel's result array and the reference's
    both end at the decomposition of that argument. -/
theorem algebraic : Cert.algebraic_KernelIdeal_ReferenceIdeal := by
  intro m ρ m' ρ' _ hagree
  refine ⟨_, Cert.KernelIdeal.KRun.run Cert.KernelIdeal.Pieces.stmtA Cert.KernelIdeal.Pieces.stmtB Cert.KernelIdeal.Pieces.stmtC Cert.KernelIdeal.Pieces.stmtD m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq, hagree c]

theorem claim : Cert.Claim :=
  ⟨Cert.Kernel.Gen.facts, Cert.KernelIdeal.Gen.facts, Cert.ReferenceIdeal.Gen.facts, Cert.Pre_finite_inputs.Gen.facts,
    frameKernel, frameKernelIdeal, frameReferenceIdeal, trivial, algebraic⟩

end Cert.Proof

end
